-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 128]⟩ ⟨2, ![256, 256]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 128]⟩ ⟨2, ![256, 256]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S128x128 : Shape := ⟨2, ![128, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel

variable [Facts]

def fn {F : FTy → Type} [FloatOps F] (main_arg0 : FVec F S128x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  main_v3
-- ==== Pre_finite_inputs_ReferenceIdeal.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Kernel.lean ====
abbrev S128x128 : Shape := ⟨2, ![128, 128]⟩
abbrev S1x128 : Shape := ⟨2, ![1, 128]⟩
abbrev S128x1 : Shape := ⟨2, ![128, 1]⟩
abbrev S2 : Shape := ⟨1, ![2]⟩
abbrev S_ : Shape := ⟨0, ![]⟩
abbrev S128 : Shape := ⟨1, ![128]⟩
abbrev S127x128 : Shape := ⟨2, ![127, 128]⟩
abbrev S128x127 : Shape := ⟨2, ![128, 127]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S128x1, .f32⟩
  | .local _ .vmem, ⟨4, _⟩ => ⟨S128x1, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  { ofTc nBuf bufTy 1 6 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_off1 (d0 : Dev nD) : Fin 2 → Nat :=
  let c1_i32_22 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v65 : BitVec 32 := Scalar.subi c1_i32_22 v2
  let c127_i32 : BitVec 32 := 127#32
  let v66 : BitVec 32 := Scalar.muli v65 c127_i32
  let c0_i32_40 : BitVec 32 := 0#32
  ![v66.toNat, 0]
def k0_dev3 (d0 : Dev nD) : Nat :=
  let c0_i32_38 : BitVec 32 := 0#32
  let c1_i32_34 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v85 : BitVec 32 := Scalar.subi c1_i32_34 v2
  let c2_i32_37 : BitVec 32 := 2#32
  let v86 : BitVec 32 := Scalar.muli v85 c2_i32_37
  let v87 : BitVec 32 := Scalar.addi c0_i32_38 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v88 : BitVec 32 := Scalar.muli v5 c1_i32_39
  let v89 : BitVec 32 := Scalar.addi v87 v88
  v89.toNat
def k0_dev4 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v96 : BitVec 32 := Scalar.muli v2 c2_i32_44
  let v97 : BitVec 32 := Scalar.addi c0_i32_45 v96
  let c1_i32_41 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v95 : BitVec 32 := Scalar.subi c1_i32_41 v5
  let c1_i32_46 : BitVec 32 := 1#32
  let v98 : BitVec 32 := Scalar.muli v95 c1_i32_46
  let v99 : BitVec 32 := Scalar.addi v97 v98
  v99.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x128_o0_127_S128x1 : S128x128.Slices ![0, 127] S128x1
  shapeCasts_S128x1_S128 : S128x1.ShapeCasts S128
  slices_S128x128_o0_0_S128x1 : S128x128.Slices ![0, 0] S128x1
  inb_S128x1_S128x1_0_0 : ∀ a, (![0, 0] : Fin 2 → Nat) a + S128x1.size a ≤ S128x1.size a
  h_S128x1 : 0 < S128x1.numel
  shapeCasts_S128_S128x1 : S128.ShapeCasts S128x1
  slices_S128x128_o0_0_S127x128 : S128x128.Slices ![0, 0] S127x128
  concatenates_S1x128_S127x128_S128x128_d0 : Shape.Concatenates [S1x128, S127x128] S128x128 0
  slices_S128x128_o1_0_S127x128 : S128x128.Slices ![1, 0] S127x128
  concatenates_S127x128_S1x128_S128x128_d0 : Shape.Concatenates [S127x128, S1x128] S128x128 0
  slices_S128x128_o0_0_S128x127 : S128x128.Slices ![0, 0] S128x127
  concatenates_S128x1_S128x127_S128x128_d1 : Shape.Concatenates [S128x1, S128x127] S128x128 1
  slices_S128x128_o0_1_S128x127 : S128x128.Slices ![0, 1] S128x127
  concatenates_S128x127_S128x1_S128x128_d1 : Shape.Concatenates [S128x127, S128x1] S128x128 1
  iota_S128x128_d0_w32 : S128x128.Iotas .tc 32 [0]
  iota_S128x128_d1_w32 : S128x128.Iotas .tc 32 [1]
  hamt_2 : (2#32 : BitVec 32).msb = false
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1x128_S1x128_0_0 : ∀ a, (![0, 0] : Fin 2 → Nat) a + S1x128.size a ≤ S1x128.size a
  h_S1x128 : 0 < S1x128.numel
  broadcasts_S1x128_S128x128 : S1x128.Broadcasts S128x128
  broadcasts_S128x1_S128x128 : S128x1.Broadcasts S128x128
  hcc0_scratch3 : 2 + S2.numel ≤ 6
  hcc0_scratch4 : 4 + S2.numel ≤ 6
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1x128.size a ≤ S128x128.size a
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole

variable [Facts₀]

abbrev cc0_scratch3 : DmaSems sig S2 := SemArray.consecutive 2 S2 hcc0_scratch3
abbrev cc0_scratch4 : DmaSems sig S2 := SemArray.consecutive 4 S2 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x256 : Shape := ⟨2, ![256, 256]⟩
abbrev S254x254 : Shape := ⟨2, ![254, 254]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S254x254, .f32⟩
  | .hbm, ⟨2, _⟩ => ⟨S_, .f32⟩
  | .hbm, ⟨3, _⟩ => ⟨S254x254, .f32⟩
  | .hbm, ⟨4, _⟩ => ⟨S254x254, .f32⟩
  | .hbm, ⟨5, _⟩ => ⟨S254x254, .f32⟩
  | .hbm, ⟨6, _⟩ => ⟨S_, .f32⟩
  | .hbm, ⟨7, _⟩ => ⟨S254x254, .f32⟩
  | .hbm, ⟨8, _⟩ => ⟨S254x254, .f32⟩
  | .hbm, ⟨9, _⟩ => ⟨S254x254, .f32⟩
  | .hbm, ⟨10, _⟩ => ⟨S254x254, .f32⟩
  | .hbm, ⟨11, _⟩ => ⟨S_, .f32⟩
  | .hbm, ⟨12, _⟩ => ⟨S254x254, .f32⟩
  | .hbm, ⟨13, _⟩ => ⟨S254x254, .f32⟩
  | .hbm, ⟨14, _⟩ => ⟨S254x254, .f32⟩
  | .hbm, ⟨15, _⟩ => ⟨S254x254, .f32⟩
  | .hbm, ⟨16, _⟩ => ⟨S_, .f32⟩
  | .hbm, ⟨17, _⟩ => ⟨S254x254, .f32⟩
  | .hbm, ⟨18, _⟩ => ⟨S254x254, .f32⟩
  | .hbm, ⟨19, _⟩ => ⟨S254x254, .f32⟩
  | .hbm, ⟨20, _⟩ => ⟨S254x254, .f32⟩
  | .hbm, ⟨21, _⟩ => ⟨S_, .f32⟩
  | .hbm, ⟨22, _⟩ => ⟨S254x254, .f32⟩
  | .hbm, ⟨23, _⟩ => ⟨S254x254, .f32⟩
  | .hbm, ⟨24, _⟩ => ⟨S254x254, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S256x256_S254x254_1_1 : S256x256.Slices ![1, 1] S254x254
  bcast_S_S254x254 : S_.BroadcastsInDim S254x254 (![] : Fin 0 → Fin S254x254.rank)
  slices_S256x256_S254x254_0_1 : S256x256.Slices ![0, 1] S254x254
  slices_S256x256_S254x254_2_1 : S256x256.Slices ![2, 1] S254x254
  slices_S256x256_S254x254_1_0 : S256x256.Slices ![1, 0] S254x254
  slices_S256x256_S254x254_1_2 : S256x256.Slices ![1, 2] S254x254
  bcast_S_S1 : S_.BroadcastsInDim S1 (![] : Fin 0 → Fin S1.rank)
  concatenates_S1_S1_S2_d0 : Shape.Concatenates [S1, S1] S2 0
  scatter_S256x256_S2_S254x254_01_n_01_0_wf : ScatterDims.WF S256x256 S2 S254x254 [0, 1] [] [0, 1] 0

variable [Facts₀]

def scatter_S256x256_S2_S254x254_01_n_01_0 : ScatterDims S256x256 S2 S254x254 where
  updateWindowDims := [0, 1]
  insertedWindowDims := []
  scatterDimsToOperandDims := [0, 1]
  indexVectorDim := 0
  wf := scatter_S256x256_S2_S254x254_01_n_01_0_wf

class Facts : Prop extends Facts₀ where

variable [Facts]
-- ==== Proof.Halo.lean ====
/-
  What each device of the 2×2 mesh computes, as pure functions of the four devices' blocks of `x`.

  Device `c` sits at mesh position (c / 2, c % 2). Its row neighbour `rowp c` is the device in the other mesh row of the
  same column, its column neighbour `colp c` the device in the other column of the same row. A device's edge row is the
  row of its block that touches the row neighbour's block (the last row for mesh row 0, the first for mesh row 1); its
  edge column likewise. The row halo a device receives is the row neighbour's edge row; the column halo is the column
  neighbour's edge column. The result is the five-point stencil of the block with zero padding, kept to the block itself
  on the global boundary, plus one eighth of the row halo on the edge row and one eighth of the column halo on the edge
  column, off the global boundary.
-/
import proofs.«900188_g7700000000000189_dist_halo2d_stencil_xy_m128_n128_v7x_xy2x2_bf16_1_alg».proof.Proof.Gen.KernelIdeal.Skeleton

noncomputable section

namespace Cert.KernelIdeal.Halo

open Cert.KernelIdeal Cert.KernelIdeal.Gen
open Idealize.ShloMosaic Idealize.SL.Sem

variable {F : FTy → Type} [FloatOps F]

/-- The device in the other mesh row, same column. -/
def rowp (c : Dev nD) : Dev nD := ⟨(c.val + 2) % 4, Nat.mod_lt _ (by decide)⟩
/-- The device in the other mesh column, same row. -/
def colp (c : Dev nD) : Dev nD := ⟨(2 * (c.val / 2) + 1) - (c.val % 2), by have h : c.val < 4 := c.isLt; show _ < 4; omega⟩

theorem rowp_rowp (c : Dev nD) : rowp (rowp c) = c := by revert c; decide
theorem colp_colp (c : Dev nD) : colp (colp c) = c := by revert c; decide
theorem rowp_ne_colp (c : Dev nD) : rowp c ≠ colp c := by revert c; decide
theorem rowp_ne (c : Dev nD) : rowp c ≠ c := by revert c; decide
theorem colp_ne (c : Dev nD) : colp c ≠ c := by revert c; decide

/-- The kernel's device chains name these neighbours: both barrier signals and both transfers. -/
theorem dev1_eq (c : Dev nD) : (⟨k0_dev1 c, k0_dev1_lt c⟩ : Dev nD) = rowp c := by revert c; decide +kernel
theorem dev2_eq (c : Dev nD) : (⟨k0_dev2 c, k0_dev2_lt c⟩ : Dev nD) = colp c := by revert c; decide +kernel
theorem dev3_eq (c : Dev nD) : (⟨k0_dev3 c, k0_dev3_lt c⟩ : Dev nD) = rowp c := by revert c; decide +kernel
theorem dev4_eq (c : Dev nD) : (⟨k0_dev4 c, k0_dev4_lt c⟩ : Dev nD) = colp c := by revert c; decide +kernel

/-- The staged block of `x`, whole. -/
abbrev xM : Memref sig .tc .vmem S128x128 .f32 := Memref.whole cc0_stg0_0
/-- A device's edge row of its staged block, as the view the row transfer reads. -/
abbrev rowSrc (c : Dev nD) : Memref sig .tc .vmem S1x128 .f32 :=
  xM.slice (Rect.unit (s := S128x128) (k0_off1 c) S1x128.size (k0_off1_inb c)) (fun _ => rfl)

/-- A device's mesh row and mesh column, as the words the body computes them. -/
def mxw (c : Dev nD) : BitVec 32 := Scalar.remsi (Scalar.divsi (Dev.word c) 2#32) 2#32
def myw (c : Dev nD) : BitVec 32 := Scalar.remsi (Scalar.divsi (Dev.word c) 1#32) 2#32

variable (x : Dev nD → Vec F S128x128 .f32)

/-- What lands in device `c`'s row halo: the row neighbour's edge row. -/
def rowH (c : Dev nD) : Vec F S1x128 .f32 := (rowSrc (rowp c)).view.read (Elt F) (x (rowp c))
/-- What device `c` stages for its column neighbour: its edge column. -/
def colS (c : Dev nD) : Vec F S128x1 .f32 := k0_pay3 c (x c)
/-- What lands in device `c`'s column halo: the column neighbour's edge column. -/
def colH (c : Dev nD) : Vec F S128x1 .f32 := colS x (colp c)
/-- The local stencil with zero padding, the block itself on the global boundary. -/
def outLocal (c : Dev nD) : Vec F S128x128 .f32 :=
  k0_pay15 (k0_pay2 (x c)) (k0_pay9 (k0_pay2 (x c)) (k0_pay5 (F := F)) (k0_pay6 (x c)) (k0_pay7 (x c)) (k0_pay8 (x c))) (k0_pay10 (mxw c) (myw c))
/-- The result: the local stencil plus the two halo terms. -/
def outFinal (c : Dev nD) : Vec F S128x128 .f32 :=
  k0_pay1 (k0_pay11 (F := F) (mxw c) (myw c)) (k0_pay14 (F := F) (k0_pay12 (myw c)) (k0_pay13 (mxw c) (myw c))) (outLocal x c) (rowH x c) (colH x c)

end Cert.KernelIdeal.Halo

end
-- ==== Proof.Proto.lean ====
/-
  The cross-device protocol of the halo exchange, under the rounds discipline.

  Every device has five cells: its barrier cell and, for each of the two transfers (the edge row to the row neighbour, the
  edge column to the column neighbour), a send cell and a receive cell. All duties are at round 0.
  * The barrier cell of device `c` has two duties of one unit: `false`, paid by the row neighbour's signal, which hands
    `c` the row neighbour's row-halo buffer (at any contents) and the fact that the neighbour's row receive cell has reached
    round 0 — what `c`'s row transfer into that buffer needs; `true`, paid by the column neighbour's signal, the same for
    the column halo.
  * The row receive cell of `c` has one duty, paid by the row neighbour's transfer: its payload is `c`'s row-halo buffer
    holding the neighbour's edge row. The column receive cell likewise holds the neighbour's edge column.
  * A send cell's one duty is paid by the device's own transfer and hands back the source elements.
  A device owes, at entry, one unit to each neighbour's barrier cell and a transfer's credit to each neighbour's receive
  cell. Levels: send cells and the pipeline's staging cells 0, barrier cells 1, receive cells 2 — a device waits on its
  barrier cell while it still owes the two transfers, and on its receive cells owing nothing.
-/
import proofs.«900188_g7700000000000189_dist_halo2d_stencil_xy_m128_n128_v7x_xy2x2_bf16_1_alg».proof.Proof.Halo
import proofs.«900188_g7700000000000189_dist_halo2d_stencil_xy_m128_n128_v7x_xy2x2_bf16_1_alg».proof.Proof.Gen.KernelIdeal.Launch
import proofs.«900188_g7700000000000189_dist_halo2d_stencil_xy_m128_n128_v7x_xy2x2_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def st0 : MemSt nD τ sig (Elt F) := ⟨m, fun _ => 0, ρ⟩

/-! ## The memrefs and cells -/

abbrev oM : Memref sig .tc .vmem S128x128 .f32 := Memref.whole cc0_stg1_0
abbrev rhM : Memref sig .tc .vmem S1x128 .f32 := Memref.whole cc0_scratch0
abbrev chM : Memref sig .tc .vmem S128x1 .f32 := Memref.whole cc0_scratch1
abbrev csM : Memref sig .tc .vmem S128x1 .f32 := Memref.whole cc0_scratch2

abbrev barS : Sem sig := (SemArray.scalar (sig.barrier 0 rfl) : Sems sig S_).sem
abbrev sRowS : DmaSem sig := ((cc0_scratch3.slice (Rect.unit (s := S2) ![0] S1.size Facts₀.inb_S2_S1_0)).squeeze S_ Facts₀.squeezes_S1_S_).sem
abbrev sColS : DmaSem sig := ((cc0_scratch3.slice (Rect.unit (s := S2) ![1] S1.size Facts₀.inb_S2_S1_1)).squeeze S_ Facts₀.squeezes_S1_S_).sem
abbrev rRowS : DmaSem sig := ((cc0_scratch4.slice (Rect.unit (s := S2) ![0] S1.size Facts₀.inb_S2_S1_0)).squeeze S_ Facts₀.squeezes_S1_S_).sem
abbrev rColS : DmaSem sig := ((cc0_scratch4.slice (Rect.unit (s := S2) ![1] S1.size Facts₀.inb_S2_S1_1)).squeeze S_ Facts₀.squeezes_S1_S_).sem

abbrev barCell (c : Dev nD) : GSem nD τ sig := ((c : Thread nD τ), .reg barS)
abbrev sRow (c : Dev nD) : GSem nD τ sig := ((c : Thread nD τ), .dma sRowS)
abbrev sCol (c : Dev nD) : GSem nD τ sig := ((c : Thread nD τ), .dma sColS)
abbrev rRow (c : Dev nD) : GSem nD τ sig := ((c : Thread nD τ), .dma rRowS)
abbrev rCol (c : Dev nD) : GSem nD τ sig := ((c : Thread nD τ), .dma rColS)

/-- The kernel's own (scoped) semaphores, as the launch indexes them; -/
abbrev osem : Fin 4 → SemLoc sig := fun | 0 => .dma sRowS | 1 => .dma sColS | 2 => .dma rRowS | 3 => .dma rColS
/-- all five of the protocol's: barrier, the two sends, the two receives. -/
abbrev csem : Fin 5 → SemLoc sig := fun | 0 => .reg barS | 1 => .dma sRowS | 2 => .dma sColS | 3 => .dma rRowS | 4 => .dma rColS
abbrev kcell (ck : Dev nD × Fin 5) : GSem nD τ sig := ((ck.1 : Thread nD τ), csem ck.2)

abbrev NR : ℕ := (rhM : Memref sig .tc .vmem S1x128 .f32).view.dmaCredit
abbrev NC : ℕ := (chM : Memref sig .tc .vmem S128x1 .f32).view.dmaCredit
theorem NR_pos : 0 < NR := View.dmaCredit_pos _ (by decide)
theorem NC_pos : 0 < NC := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The four blocks. -/
def xs : Dev nD → Vec F S128x128 .f32 := fun d => xstg m ρ d

def scr0 (c : Dev nD) (f : Buf (Elt F) ((rhM : Memref sig .tc .vmem S1x128 .f32).view.loc (c : Thread nD τ))) : sProp 𝕄 :=
  (rhM : Memref sig .tc .vmem S1x128 .f32).view.loc (c : Thread nD τ) ↦[(rhM : Memref sig .tc .vmem S1x128 .f32).view.set]{fullShare} f
def scr1 (c : Dev nD) (f : Buf (Elt F) ((chM : Memref sig .tc .vmem S128x1 .f32).view.loc (c : Thread nD τ))) : sProp 𝕄 :=
  (chM : Memref sig .tc .vmem S128x1 .f32).view.loc (c : Thread nD τ) ↦[(chM : Memref sig .tc .vmem S128x1 .f32).view.set]{fullShare} f
def scr2 (c : Dev nD) (f : Buf (Elt F) ((csM : Memref sig .tc .vmem S128x1 .f32).view.loc (c : Thread nD τ))) : sProp 𝕄 :=
  (csM : Memref sig .tc .vmem S128x1 .f32).view.loc (c : Thread nD τ) ↦[(csM : Memref sig .tc .vmem S128x1 .f32).view.set]{fullShare} f
/-- The edge row of the staged block, held through the row transfer's source view. -/
def xrow (c : Dev nD) : sProp 𝕄 :=
  (rowSrc c).view.loc (c : Thread nD τ) ↦[(rowSrc c).view.set]{fullShare} xstg m ρ c

omit [FloatOps F] in
instance scr0_storable (c : Dev nD) (f) : BI.Storable (upEmb : UEmb _ 𝕄) (scr0 (F := F) c f) := by unfold scr0; infer_instance
omit [FloatOps F] in
instance scr1_storable (c : Dev nD) (f) : BI.Storable (upEmb : UEmb _ 𝕄) (scr1 (F := F) c f) := by unfold scr1; infer_instance
omit [FloatOps F] in
instance scr2_storable (c : Dev nD) (f) : BI.Storable (upEmb : UEmb _ 𝕄) (scr2 (F := F) c f) := by unfold scr2; infer_instance
omit [FloatOps F] in
instance xrow_storable (c : Dev nD) : BI.Storable (upEmb : UEmb _ 𝕄) (xrow (F := F) m ρ c) := by unfold xrow; infer_instance

omit [FloatOps F] in
theorem scr0_eq (c : Dev nD) (f : Buf (Elt F) ((c : Thread nD τ).loc cc0_scratch0)) :
    scr0 c f = (((c : Thread nD τ).loc cc0_scratch0) ↦{fullShare} f : sProp 𝕄) := by unfold scr0; rw [View.set_whole]
omit [FloatOps F] in
theorem scr1_eq (c : Dev nD) (f : Buf (Elt F) ((c : Thread nD τ).loc cc0_scratch1)) :
    scr1 c f = (((c : Thread nD τ).loc cc0_scratch1) ↦{fullShare} f : sProp 𝕄) := by unfold scr1; rw [View.set_whole]
omit [FloatOps F] in
theorem scr2_eq (c : Dev nD) (f : Buf (Elt F) ((c : Thread nD τ).loc cc0_scratch2)) :
    scr2 c f = (((c : Thread nD τ).loc cc0_scratch2) ↦{fullShare} f : sProp 𝕄) := by unfold scr2; rw [View.set_whole]

/-! ## The schedule -/

def barPayR (c : Dev nD) : sProp 𝕄 := iprop((∃ f, scr0 (rowp c) f) ∗ reached ER (rRow (rowp c)) 0)
def barPayC (c : Dev nD) : sProp 𝕄 := iprop((∃ f, scr1 (colp c) f) ∗ reached ER (rCol (colp c)) 0)
def rRowPay (c : Dev nD) : sProp 𝕄 := scr0 c (rowH (xs m ρ) c)
def rColPay (c : Dev nD) : sProp 𝕄 := scr1 c (colH (xs m ρ) c)
def sRowPay (c : Dev nD) : sProp 𝕄 := xrow m ρ c
def sColPay (c : Dev nD) : sProp 𝕄 := scr2 c (colS (xs m ρ) c)

abbrev IsBar (g : GSem nD τ sig) : Prop := g.1.2 = .tc ∧ g.2 = .reg barS
abbrev IsXfer (g : GSem nD τ sig) : Prop :=
  g.1.2 = .tc ∧ (g.2 = .dma sRowS ∨ g.2 = .dma sColS ∨ g.2 = .dma rRowS ∨ g.2 = .dma rColS)
abbrev IsRowSem (s : SemLoc sig) : Prop := s = .dma sRowS ∨ s = .dma rRowS

def rd : Rounds.Schedule (GSem nD τ sig) Bool 𝕄 where
  duties g r := if r = 0 ∧ IsBar g then Finset.univ else if r = 0 ∧ IsXfer g then {false} else ∅
  unitless _ := False
  amount g _ _ := if g.2 = .reg barS then 1 else if IsRowSem g.2 then NR else NC
  payload g _ d :=
    if g.2 = .reg barS then (if d then barPayC g.1.1 else barPayR g.1.1)
    else if g.2 = .dma rRowS then rRowPay m ρ g.1.1
    else if g.2 = .dma rColS then rColPay m ρ g.1.1
    else if g.2 = .dma sRowS then sRowPay m ρ g.1.1
    else if g.2 = .dma sColS then sColPay m ρ g.1.1
    else iprop(emp)
  amount_pos g _ _ _ := by
    by_cases h : g.2 = .reg barS
    · rw [if_pos h]; exact Nat.one_pos
    · rw [if_neg h]; split
      · exact NR_pos
      · exact NC_pos

instance rd_payload_storable (g : GSem nD τ sig) (r : ℕ) (d : Bool) :
    BI.Storable (upEmb : UEmb _ 𝕄) ((rd (F := F) m ρ).payload g r d) := by
  show BI.Storable upEmb (if g.2 = .reg barS then (if d then barPayC g.1.1 else barPayR g.1.1)
    else if g.2 = .dma rRowS then rRowPay m ρ g.1.1
    else if g.2 = .dma rColS then rColPay m ρ g.1.1
    else if g.2 = .dma sRowS then sRowPay m ρ g.1.1
    else if g.2 = .dma sColS then sColPay m ρ g.1.1
    else iprop(emp))
  unfold barPayC barPayR rRowPay rColPay sRowPay sColPay
  (repeat' split) <;> infer_instance

/-! ### The schedule's tables -/

section Sched
variable (c : Dev nD)

theorem csem_ne : ∀ i j : Fin 5, i ≠ j → (csem i : SemLoc sig) ≠ csem j := by decide
theorem sRow_ne_bar : (SemLoc.dma sRowS : SemLoc sig) ≠ .reg barS := fun h => by cases h
theorem sCol_ne_bar : (SemLoc.dma sColS : SemLoc sig) ≠ .reg barS := fun h => by cases h
theorem rRow_ne_bar : (SemLoc.dma rRowS : SemLoc sig) ≠ .reg barS := fun h => by cases h
theorem rCol_ne_bar : (SemLoc.dma rColS : SemLoc sig) ≠ .reg barS := fun h => by cases h
theorem not_row_sCol : ¬ IsRowSem (SemLoc.dma sColS : SemLoc sig) := fun h => h.elim (csem_ne 2 1 (by decide)) (csem_ne 2 3 (by decide))
theorem not_row_rCol : ¬ IsRowSem (SemLoc.dma rColS : SemLoc sig) := fun h => h.elim (csem_ne 4 1 (by decide)) (csem_ne 4 3 (by decide))

omit [FloatOps F] in
theorem duties_bar : (rd (F := F) m ρ).duties (barCell c) 0 = Finset.univ := by dsimp only [rd]; exact if_pos ⟨rfl, rfl, rfl⟩
omit [FloatOps F] in
theorem duties_sRow : (rd (F := F) m ρ).duties (sRow c) 0 = {false} := by
  dsimp only [rd]; rw [if_neg (fun h => sRow_ne_bar h.2.2)]; exact if_pos ⟨rfl, rfl, .inl rfl⟩
omit [FloatOps F] in
theorem duties_sCol : (rd (F := F) m ρ).duties (sCol c) 0 = {false} := by
  dsimp only [rd]; rw [if_neg (fun h => sCol_ne_bar h.2.2)]; exact if_pos ⟨rfl, rfl, .inr (.inl rfl)⟩
omit [FloatOps F] in
theorem duties_rRow : (rd (F := F) m ρ).duties (rRow c) 0 = {false} := by
  dsimp only [rd]; rw [if_neg (fun h => rRow_ne_bar h.2.2)]; exact if_pos ⟨rfl, rfl, .inr (.inr (.inl rfl))⟩
omit [FloatOps F] in
theorem duties_rCol : (rd (F := F) m ρ).duties (rCol c) 0 = {false} := by
  dsimp only [rd]; rw [if_neg (fun h => rCol_ne_bar h.2.2)]; exact if_pos ⟨rfl, rfl, .inr (.inr (.inr rfl))⟩
omit [FloatOps F] in
theorem duties_later (g : GSem nD τ sig) : ∀ r, 1 ≤ r → (rd (F := F) m ρ).duties g r = ∅ :=
  fun r hr => by dsimp only [rd]; rw [if_neg fun h => by omega, if_neg fun h => by omega]

omit [FloatOps F] in
theorem amount_bar (d : Bool) : (rd (F := F) m ρ).amount (barCell c) 0 d = 1 := by dsimp only [rd]; exact if_pos rfl
omit [FloatOps F] in
theorem amount_sRow (d : Bool) : (rd (F := F) m ρ).amount (sRow c) 0 d = NR := by
  dsimp only [rd]; rw [if_neg sRow_ne_bar]; exact if_pos (.inl rfl)
omit [FloatOps F] in
theorem amount_rRow (d : Bool) : (rd (F := F) m ρ).amount (rRow c) 0 d = NR := by
  dsimp only [rd]; rw [if_neg rRow_ne_bar]; exact if_pos (.inr rfl)
omit [FloatOps F] in
theorem amount_sCol (d : Bool) : (rd (F := F) m ρ).amount (sCol c) 0 d = NC := by
  dsimp only [rd]; rw [if_neg sCol_ne_bar]; exact if_neg not_row_sCol
omit [FloatOps F] in
theorem amount_rCol (d : Bool) : (rd (F := F) m ρ).amount (rCol c) 0 d = NC := by
  dsimp only [rd]; rw [if_neg rCol_ne_bar]; exact if_neg not_row_rCol

omit [FloatOps F] in
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_sRow : (rd (F := F) m ρ).expect (sRow c) 0 = NR := by
  unfold Schedule.expect Schedule.amountOf; rw [duties_sRow, Finset.sum_singleton, amount_sRow]
omit [FloatOps F] in
theorem expect_sCol : (rd (F := F) m ρ).expect (sCol c) 0 = NC := by
  unfold Schedule.expect Schedule.amountOf; rw [duties_sCol, Finset.sum_singleton, amount_sCol]
omit [FloatOps F] in
theorem expect_rRow : (rd (F := F) m ρ).expect (rRow c) 0 = NR := by
  unfold Schedule.expect Schedule.amountOf; rw [duties_rRow, Finset.sum_singleton, amount_rRow]
omit [FloatOps F] in
theorem expect_rCol : (rd (F := F) m ρ).expect (rCol c) 0 = NC := by
  unfold Schedule.expect Schedule.amountOf; rw [duties_rCol, Finset.sum_singleton, amount_rCol]

omit [FloatOps F] in
theorem payload_bar_false : (rd (F := F) m ρ).payload (barCell c) 0 false = barPayR c := by
  dsimp only [rd]; rw [if_pos rfl]; exact if_neg Bool.false_ne_true
omit [FloatOps F] in
theorem payload_bar_true : (rd (F := F) m ρ).payload (barCell c) 0 true = barPayC c := by dsimp only [rd]; rw [if_pos rfl, if_pos rfl]
omit [FloatOps F] in
theorem payload_rRow (d : Bool) : (rd (F := F) m ρ).payload (rRow c) 0 d = rRowPay m ρ c := by
  dsimp only [rd]; rw [if_neg rRow_ne_bar, if_pos rfl]
omit [FloatOps F] in
theorem payload_rCol (d : Bool) : (rd (F := F) m ρ).payload (rCol c) 0 d = rColPay m ρ c := by
  dsimp only [rd]; rw [if_neg rCol_ne_bar, if_neg (csem_ne 4 3 (by decide)), if_pos rfl]
omit [FloatOps F] in
theorem payload_sRow (d : Bool) : (rd (F := F) m ρ).payload (sRow c) 0 d = sRowPay m ρ c := by
  dsimp only [rd]; rw [if_neg sRow_ne_bar, if_neg (csem_ne 1 3 (by decide)), if_neg (csem_ne 1 4 (by decide)), if_pos rfl]
omit [FloatOps F] in
theorem payload_sCol (d : Bool) : (rd (F := F) m ρ).payload (sCol c) 0 d = sColPay m ρ c := by
  dsimp only [rd]; rw [if_neg sCol_ne_bar, if_neg (csem_ne 2 3 (by decide)), if_neg (csem_ne 2 4 (by decide)), if_neg (csem_ne 2 1 (by decide)), if_pos rfl]

omit [FloatOps F] in
/-- What the signal to the row neighbour hands it: this device's row-halo buffer and its row receive cell at round 0. -/
theorem payload_bar_rowp : (rd (F := F) m ρ).payload (barCell (rowp c)) 0 false = iprop((∃ f, scr0 c f) ∗ reached ER (rRow c) 0) := by
  rw [payload_bar_false]; unfold barPayR; rw [rowp_rowp]
omit [FloatOps F] in
theorem payload_bar_colp : (rd (F := F) m ρ).payload (barCell (colp c)) 0 true = iprop((∃ f, scr1 c f) ∗ reached ER (rCol c) 0) := by
  rw [payload_bar_true]; unfold barPayC; rw [colp_colp]

omit [FloatOps F] in
/-- The whole round of the barrier cell: both neighbours' payloads. -/
theorem rest_bar : bigSep ((rd (F := F) m ρ).duties (barCell c) 0 \ ∅) (fun d => (rd (F := F) m ρ).payload (barCell c) 0 d) = iprop(barPayR c ∗ barPayC c) := by
  rw [Finset.sdiff_empty, duties_bar, bigSep_univ_eq_bigSepL [false, true] (by decide) (by decide), bigSepL_cons_cons, bigSepL_singleton,
    payload_bar_false, payload_bar_true]
  rfl
omit [FloatOps F] in
theorem rest_sRow : bigSep ((rd (F := F) m ρ).duties (sRow c) 0 \ ∅) (fun d => (rd (F := F) m ρ).payload (sRow c) 0 d) = sRowPay m ρ c := by
  rw [Finset.sdiff_empty, duties_sRow, bigSep_singleton, payload_sRow]
omit [FloatOps F] in
theorem rest_sCol : bigSep ((rd (F := F) m ρ).duties (sCol c) 0 \ ∅) (fun d => (rd (F := F) m ρ).payload (sCol c) 0 d) = sColPay m ρ c := by
  rw [Finset.sdiff_empty, duties_sCol, bigSep_singleton, payload_sCol]
omit [FloatOps F] in
theorem rest_rRow : bigSep ((rd (F := F) m ρ).duties (rRow c) 0 \ ∅) (fun d => (rd (F := F) m ρ).payload (rRow c) 0 d) = rRowPay m ρ c := by
  rw [Finset.sdiff_empty, duties_rRow, bigSep_singleton, payload_rRow]
omit [FloatOps F] in
theorem rest_rCol : bigSep ((rd (F := F) m ρ).duties (rCol c) 0 \ ∅) (fun d => (rd (F := F) m ρ).payload (rCol c) 0 d) = rColPay m ρ c := by
  rw [Finset.sdiff_empty, duties_rCol, bigSep_singleton, payload_rCol]

end Sched

/-! ## What each device owes at launch; the levels -/

/-- The two transfers' credits; then the two barrier units, summed so that the first signal (to the row neighbour) peels
    the last summand and the second (to the column neighbour) the one before it. -/
def Oxfer (c : Dev nD) : CellTallies nD τ sig Unit := tallyAt (rCol (colp c)) () NC + tallyAt (rRow (rowp c)) () NR
def O₁ (c : Dev nD) : CellTallies nD τ sig Unit := Oxfer c + tallyAt (barCell (colp c)) () 1
def O₀ (c : Dev nD) : CellTallies nD τ sig Unit := O₁ c + tallyAt (barCell (rowp c)) () 1

def L (g : GSem nD τ sig) : Finset Unit := if g.1.2 = .tc then {()} else ∅
def lv (g : GSem nD τ sig) (_ : Unit) : ℕ := if g.2 = .reg barS then 1 else if (g.2 = .dma rRowS ∨ g.2 = .dma rColS) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rRow (c : Dev nD) (u : Unit) : lv (rRow c) u = 2 := by dsimp only [lv]; rw [if_neg rRow_ne_bar, if_pos (.inl rfl)]
theorem lv_rCol (c : Dev nD) (u : Unit) : lv (rCol c) u = 2 := by dsimp only [lv]; rw [if_neg rCol_ne_bar, if_pos (.inr rfl)]

theorem Oxfer_pos {c : Dev nD} {g : GSem nD τ sig} {u : Unit} (h : 0 < Oxfer c g u) : g = rCol (colp c) ∨ g = rRow (rowp c) := by
  unfold Oxfer at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rCol (colp c) ∨ g = rRow (rowp c) ∨ g = barCell (colp c) ∨ g = barCell (rowp c) := by
  unfold O₀ O₁ at h
  rw [Pi.add_apply, Finsupp.add_apply, Pi.add_apply, Finsupp.add_apply, tallyAt_apply, tallyAt_apply] at h
  by_cases hx : 0 < Oxfer c g u
  · rcases Oxfer_pos hx with h1 | h1
    · exact .inl h1
    · exact .inr (.inl h1)
  · have hx0 : Oxfer c g u = 0 := Nat.eq_zero_of_not_pos hx
    by_contra hn
    rw [not_or, not_or, not_or] at hn
    rw [hx0, if_neg (fun h' => hn.2.2.1 h'.1), if_neg (fun h' => hn.2.2.2 h'.1)] at h
    exact Nat.lt_irrefl 0 h

omit [FloatOps F] in
/-- A wait on a cell of level 0 (a staging cell, a send cell) is allowed whatever of its launch debt the device still owes. -/
theorem mayWait_low (c : Dev nD) (q : DmaSem sig) (hq : SemLoc.dma q ≠ .dma rRowS ∧ SemLoc.dma q ≠ .dma rColS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by cases h), if_neg (fun h => h.elim hq.1 hq.2)])
      (fun g u hg => by
        rcases O₀_pos hg with rfl | rfl | rfl | rfl
        · rw [lv_rCol]; decide
        · rw [lv_rRow]; decide
        · rw [lv_bar]; decide
        · rw [lv_bar]; decide)
  · rw [MayWait_zero]; iintro -; iempintro

omit [FloatOps F] in
/-- At its barrier wait a device owes the two transfers' credits only: receive cells, above its barrier cell. -/
theorem mayWait_bar (c : Dev nD) :
    (levAts L lv : sProp 𝕄) ⊢ MayWait (c : Thread nD τ) (.reg barS) () (Oxfer c) :=
  MayOwe.of_cut (L := L) (lev := lv) 1 (fun p hp => by rw [Finset.mem_singleton.mp hp, L_tc]; exact Finset.mem_singleton_self _)
    (fun g u hg => by rcases Oxfer_pos hg with rfl | rfl <;> exact Finset.mem_singleton_self _)
    (fun p hp => by rw [Finset.mem_singleton.mp hp]; exact (lv_bar c ()).le)
    (fun g u hg => by
      rcases Oxfer_pos hg with rfl | rfl
      · rw [lv_rCol]; decide
      · rw [lv_rRow]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := outFinal (xs m ρ) c

/-- The cells' invariants device `c`'s body opens: its own five, both neighbours' barrier cells (its signals), the row
    neighbour's row receive cell and the column neighbour's column receive cell (its transfers). -/
def invs (K : Dev nD × Fin 5 → ℕ) (c : Dev nD) : sProp 𝕄 :=
  iprop(cellInv ER (rd m ρ) (K (c, 0)) (barCell c) ∗ cellInv ER (rd m ρ) (K (c, 1)) (sRow c) ∗ cellInv ER (rd m ρ) (K (c, 2)) (sCol c)
    ∗ cellInv ER (rd m ρ) (K (c, 3)) (rRow c) ∗ cellInv ER (rd m ρ) (K (c, 4)) (rCol c)
    ∗ cellInv ER (rd m ρ) (K (rowp c, 0)) (barCell (rowp c)) ∗ cellInv ER (rd m ρ) (K (colp c, 0)) (barCell (colp c))
    ∗ cellInv ER (rd m ρ) (K (rowp c, 3)) (rRow (rowp c)) ∗ cellInv ER (rd m ρ) (K (colp c, 4)) (rCol (colp c)))

instance invs_persistent (K : Dev nD × Fin 5 → ℕ) (c : Dev nD) : BI.Persistent (invs m ρ K c) := by unfold invs; infer_instance

/-- The rounds reached that device `c` cites: of the cells it pays, and of its own send and receive cells. -/
def reaches (c : Dev nD) : sProp 𝕄 :=
  iprop(reached ER (barCell (rowp c)) 0 ∗ reached ER (barCell (colp c)) 0 ∗ reached ER (rRow (rowp c)) 0 ∗ reached ER (rCol (colp c)) 0
    ∗ reached ER (sRow c) 0 ∗ reached ER (sCol c) 0 ∗ reached ER (rRow c) 0 ∗ reached ER (rCol c) 0)

instance reaches_persistent (c : Dev nD) : BI.Persistent (reaches (F := F) c) := by unfold reaches; infer_instance

/-- The tokens of the six duties device `c` pays. -/
def payToks (c : Dev nD) : sProp 𝕄 :=
  iprop(dutyTok ER (barCell (rowp c)) 0 false ∗ dutyTok ER (barCell (colp c)) 0 true ∗ dutyTok ER (rRow (rowp c)) 0 false ∗ dutyTok ER (rCol (colp c)) 0 false
    ∗ dutyTok ER (sRow c) 0 false ∗ dutyTok ER (sCol c) 0 false)

/-- Its positions: round 0 of its five cells, nothing taken. -/
def poss (c : Dev nD) : sProp 𝕄 :=
  iprop(atPos ER (barCell c) 0 ∅ 0 ∗ atPos ER (sRow c) 0 ∅ 0 ∗ atPos ER (sCol c) 0 ∅ 0 ∗ atPos ER (rRow c) 0 ∅ 0 ∗ atPos ER (rCol c) 0 ∅ 0)

def ghost (K : Dev nD × Fin 5 → ℕ) (c : Dev nD) : sProp 𝕄 :=
  iprop(invs m ρ K c ∗ reaches c ∗ poss c ∗ payToks c)

/-- What device `c`'s body starts from: the ghost state at some names, the credit other devices owe its barrier and
    receive cells, and the level facts. -/
def start (c : Dev nD) : sProp 𝕄 :=
  iprop((∃ K, ghost m ρ K c) ∗ cred (tallyAt (barCell c) () 2) ∗ cred (tallyAt (rRow c) () NR) ∗ cred (tallyAt (rCol c) () NC) ∗ levAts L lv)

def Φ₀ (c : Dev nD) : sProp 𝕄 := iprop(start m ρ c ∗ (∃ f, scr0 c f) ∗ (∃ f, scr1 c f) ∗ (∃ f, scr2 c f))
/-- After the point: the two halo buffers holding the neighbours' edges, the staged edge column, the four own cells at
    zero, closed. -/
def Φ₁ (c : Dev nD) : sProp 𝕄 :=
  iprop(scr0 c (rowH (xs m ρ) c) ∗ scr1 c (colH (xs m ρ) c) ∗ scr2 c (colS (xs m ρ) c)
    ∗ semVal (sRow c) 0 ∗ semVal (sCol c) 0 ∗ semVal (rRow c) 0 ∗ semVal (rCol c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Proto

end
-- ==== Proof.Body.lean ====
/-
  One device's body, stepped from the protocol's ghost state to the state the pipeline takes back.

  In program order: the two barrier signals hand each neighbour this device's halo buffer; the block is loaded, its edge
  column staged, the local stencil stored; the barrier wait returns both neighbours' halo buffers; the edge row is cut out of
  the staged block and sent to the row neighbour, the staged column to the column neighbour; the two receive waits return
  this device's halo buffers holding the neighbours' edges; the result is the stored local stencil plus the two halo terms;
  the two send waits return the edge row and the staged column; the four own cells, their rounds done, are closed at zero and
  the staged block is put back together.
-/
import proofs.«900188_g7700000000000189_dist_halo2d_stencil_xy_m128_n128_v7x_xy2x2_bf16_1_alg».proof.Proof.Proto
import Idealize.ShloMosaic.Lib.Pipeline.FrameBody
import Idealize.ShloMosaic.Lib.Pipeline.Value
import Idealize.ShloMosaic.Lib.Tactic

noncomputable section

namespace Cert.KernelIdeal.Body

open Cert.KernelIdeal Cert.KernelIdeal.Gen Cert.KernelIdeal.Halo Cert.KernelIdeal.Proto
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The schedule's payloads as points-to through the buffers' views; contents read back -/

section
variable (c : Dev nD)
omit [FloatOps F] in
theorem pl_bar_rowp : (rd (F := F) m ρ).payload (barCell (rowp c)) 0 false = iprop((∃ f, ((rhM : Memref sig .tc .vmem S1x128 .f32).view.loc (c : Thread nD τ) ↦[(rhM : Memref sig .tc .vmem S1x128 .f32).view.set]{fullShare} f)) ∗ reached ER (rRow c) 0) := by
  rw [payload_bar_rowp]; rfl
omit [FloatOps F] in
theorem pl_bar_colp : (rd (F := F) m ρ).payload (barCell (colp c)) 0 true = iprop((∃ f, ((chM : Memref sig .tc .vmem S128x1 .f32).view.loc (c : Thread nD τ) ↦[(chM : Memref sig .tc .vmem S128x1 .f32).view.set]{fullShare} f)) ∗ reached ER (rCol c) 0) := by
  rw [payload_bar_colp]; rfl
omit [FloatOps F] in
theorem pl_bar_false : (rd (F := F) m ρ).payload (barCell c) 0 false = iprop((∃ f, ((rhM : Memref sig .tc .vmem S1x128 .f32).view.loc (rowp c : Thread nD τ) ↦[(rhM : Memref sig .tc .vmem S1x128 .f32).view.set]{fullShare} f)) ∗ reached ER (rRow (rowp c)) 0) := by
  rw [payload_bar_false]; rfl
omit [FloatOps F] in
theorem pl_bar_true : (rd (F := F) m ρ).payload (barCell c) 0 true = iprop((∃ f, ((chM : Memref sig .tc .vmem S128x1 .f32).view.loc (colp c : Thread nD τ) ↦[(chM : Memref sig .tc .vmem S128x1 .f32).view.set]{fullShare} f)) ∗ reached ER (rCol (colp c)) 0) := by
  rw [payload_bar_true]; rfl
omit [FloatOps F] in
/-- The barrier round's two payloads: each neighbour's halo buffer at some contents, and its receive cell at round 0. -/
theorem pay_bar_univ : bigSep Finset.univ (fun d => (rd (F := F) m ρ).payload (barCell c) 0 d)
    = iprop(((∃ f, ((rhM : Memref sig .tc .vmem S1x128 .f32).view.loc (rowp c : Thread nD τ) ↦[(rhM : Memref sig .tc .vmem S1x128 .f32).view.set]{fullShare} f)) ∗ reached ER (rRow (rowp c)) 0)
        ∗ ((∃ f, ((chM : Memref sig .tc .vmem S128x1 .f32).view.loc (colp c : Thread nD τ) ↦[(chM : Memref sig .tc .vmem S128x1 .f32).view.set]{fullShare} f)) ∗ reached ER (rCol (colp c)) 0)) := by
  rw [bigSep_univ_eq_bigSepL [false, true] (by decide) (by decide), bigSepL_cons_cons, bigSepL_singleton, pl_bar_false, pl_bar_true]
  rfl

/-- The staged block less its edge row. -/
def xrest : sProp 𝕄 :=
  (rowSrc c).view.loc (c : Thread nD τ) ↦[(xM : Memref sig .tc .vmem S128x128 .f32).view.set \ (rowSrc c).view.set]{fullShare} xstg m ρ c

omit [FloatOps F] in
theorem x_split :
    ((xM : Memref sig .tc .vmem S128x128 .f32).view.loc (c : Thread nD τ) ↦[(xM : Memref sig .tc .vmem S128x128 .f32).view.set]{fullShare} xstg m ρ c : sProp 𝕄)
      ⊣⊢ iprop(xrow m ρ c ∗ xrest m ρ c) :=
  pointsTo_split_subset (by rw [View.set_whole]; exact Finset.subset_univ _)

omit [FloatOps F] in
theorem pl_rRow_rowp (d : Bool) : (rd (F := F) m ρ).payload (rRow (rowp c)) 0 d
    = ((rhM : Memref sig .tc .vmem S1x128 .f32).view.loc (rowp c : Thread nD τ) ↦[(rhM : Memref sig .tc .vmem S1x128 .f32).view.set]{fullShare} (rowSrc c).view.read (Elt F) (xstg m ρ c)) := by
  rw [payload_rRow]; unfold rRowPay scr0 rowH xs; rw [rowp_rowp]
omit [FloatOps F] in
theorem pl_sRow (d : Bool) : (rd (F := F) m ρ).payload (sRow c) 0 d
    = ((rowSrc c).view.loc (c : Thread nD τ) ↦[(rowSrc c).view.set]{fullShare} xstg m ρ c) := by
  rw [payload_sRow]; rfl
omit [FloatOps F] in
/-- Writing the whole row-halo buffer leaves what was written, whatever it held. -/
theorem landed_row (c' : Dev nD) (fd : Buf (Elt F) ((rhM : Memref sig .tc .vmem S1x128 .f32).view.loc (c' : Thread nD τ))) (X : S1x128.Idx → Elt F .f32) :
    (rhM : Memref sig .tc .vmem S1x128 .f32).view.write (Elt F) fd X Finset.univ = X := by
  show (View.whole cc0_scratch0).write (Elt F) fd X Finset.univ = X
  exact View.write_whole_univ _ _ _
omit [FloatOps F] in
theorem landed_col (c' : Dev nD) (fd : Buf (Elt F) ((chM : Memref sig .tc .vmem S128x1 .f32).view.loc (c' : Thread nD τ))) (X : S128x1.Idx → Elt F .f32) :
    (chM : Memref sig .tc .vmem S128x1 .f32).view.write (Elt F) fd X Finset.univ = X := by
  show (View.whole cc0_scratch1).write (Elt F) fd X Finset.univ = X
  exact View.write_whole_univ _ _ _
end

section Tables
variable (c : Dev nD)
omit [FloatOps F] in
theorem pl_rRow (d : Bool) : (rd (F := F) m ρ).payload (rRow c) 0 d
    = ((rhM : Memref sig .tc .vmem S1x128 .f32).view.loc (c : Thread nD τ) ↦[(rhM : Memref sig .tc .vmem S1x128 .f32).view.set]{fullShare} rowH (xs m ρ) c) := by
  rw [payload_rRow]; rfl
omit [FloatOps F] in
theorem pl_rCol (d : Bool) : (rd (F := F) m ρ).payload (rCol c) 0 d
    = ((chM : Memref sig .tc .vmem S128x1 .f32).view.loc (c : Thread nD τ) ↦[(chM : Memref sig .tc .vmem S128x1 .f32).view.set]{fullShare} colH (xs m ρ) c) := by
  rw [payload_rCol]; rfl

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S128x128 .f32).view.readAt (Elt F) (Rect.unit (s := S128x128) ![0, 0] S128x128.size Facts₀.inb_S128x128_S128x128_0_0).toLoadRect f = f :=
  Memref.readAt_unit_zero (Elt F) cc0_stg0_0 hz2 _ f
omit [FloatOps F] in
theorem read_o (f : (cc0_stg1_0 : Ref sig .tc).ty.Contents (Elt F)) :
    (oM : Memref sig .tc .vmem S128x128 .f32).view.readAt (Elt F) (Rect.unit (s := S128x128) ![0, 0] S128x128.size Facts₀.inb_S128x128_S128x128_0_0).toLoadRect f = f :=
  Memref.readAt_unit_zero (Elt F) cc0_stg1_0 hz2 _ f
omit [FloatOps F] in
theorem read_rh (f : (cc0_scratch0 : Ref sig .tc).ty.Contents (Elt F)) :
    (rhM : Memref sig .tc .vmem S1x128 .f32).view.readAt (Elt F) (Rect.unit (s := S1x128) ![0, 0] S1x128.size Facts₀.inb_S1x128_S1x128_0_0).toLoadRect f = f :=
  Memref.readAt_unit_zero (Elt F) cc0_scratch0 hz2 _ f
omit [FloatOps F] in
theorem read_ch (f : (cc0_scratch1 : Ref sig .tc).ty.Contents (Elt F)) :
    (chM : Memref sig .tc .vmem S128x1 .f32).view.readAt (Elt F) (Rect.unit (s := S128x1) ![0, 0] S128x1.size Facts₀.inb_S128x1_S128x1_0_0).toLoadRect f = f :=
  Memref.readAt_unit_zero (Elt F) cc0_scratch1 hz2 _ f
omit [FloatOps F] in
theorem writes_cs (f w : (cc0_scratch2 : Ref sig .tc).ty.Contents (Elt F)) :
    (csM : Memref sig .tc .vmem S128x1 .f32).view.writes (Elt F) f [⟨Rect.unit (s := S128x1) ![0, 0] S128x1.size Facts₀.inb_S128x1_S128x1_0_0, w⟩] = w := by
  show ((csM : Memref sig .tc .vmem S128x1 .f32).access (Rect.unit (s := S128x1) ![0, 0] S128x1.size Facts₀.inb_S128x1_S128x1_0_0) : View sig .tc _ _ _).write (Elt F) f w Finset.univ = w
  exact Memref.write_access_unit_zero_univ (Elt F) cc0_scratch2 hz2 _ f w
omit [FloatOps F] in
theorem writes_o (f w : (cc0_stg1_0 : Ref sig .tc).ty.Contents (Elt F)) :
    (oM : Memref sig .tc .vmem S128x128 .f32).view.writes (Elt F) f [⟨Rect.unit (s := S128x128) ![0, 0] S128x128.size Facts₀.inb_S128x128_S128x128_0_0, w⟩] = w := by
  show ((oM : Memref sig .tc .vmem S128x128 .f32).access (Rect.unit (s := S128x128) ![0, 0] S128x128.size Facts₀.inb_S128x128_S128x128_0_0) : View sig .tc _ _ _).write (Elt F) f w Finset.univ = w
  exact Memref.write_access_unit_zero_univ (Elt F) cc0_stg1_0 hz2 _ f w
omit [FloatOps F] in
/-- Two whole-buffer stores in a row leave the later one. -/
theorem writes_o2 (f a b : (cc0_stg1_0 : Ref sig .tc).ty.Contents (Elt F)) :
    (oM : Memref sig .tc .vmem S128x128 .f32).view.writes (Elt F) f
      [⟨Rect.unit (s := S128x128) ![0, 0] S128x128.size Facts₀.inb_S128x128_S128x128_0_0, a⟩,
       ⟨Rect.unit (s := S128x128) ![0, 0] S128x128.size Facts₀.inb_S128x128_S128x128_0_0, b⟩] = a :=
  writes_o ((oM : Memref sig .tc .vmem S128x128 .f32).view.writes (Elt F) f [⟨Rect.unit (s := S128x128) ![0, 0] S128x128.size Facts₀.inb_S128x128_S128x128_0_0, b⟩]) a
omit [FloatOps F] in
theorem read_xW (f : (cc0_stg0_0 : Ref sig .tc).ty.Contents (Elt F)) :
    View.readAt (Elt F) (View.whole cc0_stg0_0) (Rect.unit (s := S128x128) ![0, 0] S128x128.size Facts₀.inb_S128x128_S128x128_0_0).toLoadRect f = f :=
  read_x f
/-- A whole-buffer load after one whole-buffer store reads the stored value. -/
theorem readCov_oW (w : S128x128.Idx → Elt F .f32) :
    (View.whole cc0_stg1_0).readCov [(⟨Rect.unit (s := S128x128) ![0, 0] S128x128.size Facts₀.inb_S128x128_S128x128_0_0, w⟩ : View.Piece (Elt F) S128x128 .f32)]
      (Rect.unit (s := S128x128) ![0, 0] S128x128.size Facts₀.inb_S128x128_S128x128_0_0).toLoadRect = w :=
  View.readCov_unit_zero _ hz2 _ w
end Tables

section Sends
variable (K : Dev nD × Fin 5 → ℕ)

/-- The row transfer: the edge row of the staged block into the row neighbour's row-halo buffer, paying the device's row
    send duty and the neighbour's row receive duty. -/
theorem wp_send_row (c n : Dev nD) (hn : n = rowp c)
    {hsc : (rhM : Memref sig (Dev.tc n : Thread nD τ).2.kind .vmem S1x128 .f32).view.ref.isScScratch = false}
    {hsrc : (rowSrc c).view.WordExact} {hdst : (rhM : Memref sig .tc .vmem S1x128 .f32).view.WordExact}
    {hsem : DmaTarget.Typed .vmem (.dma rRowS) (.remote (Dev.tc n : Thread nD τ) (rhM : Memref sig .tc .vmem S1x128 .f32) (.dma sRowS) hsc)}
    {α : Type} {Q : α → sProp 𝕄} {k : PUnit → Prog (TpuEff nD τ sig (Elt F) Λ₀ .tc) α}
    (fn : Buf (Elt F) ((rhM : Memref sig .tc .vmem S1x128 .f32).view.loc (rowp c : Thread nD τ))) (O : CellTallies nD τ sig Unit) (W : Waits sig Unit) :
    iprop(cellInv ER (rd m ρ) (K (c, 1)) (sRow c) ∗ cellInv ER (rd m ρ) (K (rowp c, 3)) (rRow (rowp c))
        ∗ xrow m ρ c ∗ scr0 (rowp c) fn
        ∗ owes (c : Thread nD τ) (O + tallyAt (rRow (rowp c)) () NR) W
        ∗ dutyTok ER (sRow c) 0 false ∗ reached ER (sRow c) 0
        ∗ dutyTok ER (rRow (rowp c)) 0 false ∗ reached ER (rRow (rowp c)) 0)
      ⊢ iprop(((cred (tallyAt (sRow c) () NR) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowSrc c) (.remote (Dev.tc n : Thread nD τ) rhM (.dma sRowS) hsc) (.dma rRowS) hsrc hdst hsem) k) Q) := by
  subst hn
  unfold xrow scr0
  exact Rounds.wp_send_pointsTo 𝒱₀ ER (rd m ρ) (c : Thread nD τ) none (κ₁ := K (c, 1)) (κ₂ := K (rowp c, 3))
    (src := rowSrc c) (dst := rhM) (c' := (rowp c : Thread nD τ)) (q := fullShare) (fs := xstg m ρ c)
    (r₁ := 0) (r₂ := 0) (d₁ := false) (d₂ := false) (fd := fn)
    (by rw [duties_sRow]; exact Finset.mem_singleton_self _) (by rw [duties_rRow]; exact Finset.mem_singleton_self _)
    () () NR rfl (amount_sRow m ρ c false) (amount_rRow m ρ (rowp c) false) O rfl (W := W)
    (by rw [pl_sRow])
    (by rw [pl_rRow_rowp, landed_row])

omit [FloatOps F] in
theorem pl_rCol_colp (c : Dev nD) (d : Bool) : (rd (F := F) m ρ).payload (rCol (colp c)) 0 d
    = ((chM : Memref sig .tc .vmem S128x1 .f32).view.loc (colp c : Thread nD τ) ↦[(chM : Memref sig .tc .vmem S128x1 .f32).view.set]{fullShare} colS (xs m ρ) c) := by
  rw [payload_rCol]; unfold rColPay scr1 colH; rw [colp_colp]
omit [FloatOps F] in
theorem pl_sCol (c : Dev nD) (d : Bool) : (rd (F := F) m ρ).payload (sCol c) 0 d
    = ((csM : Memref sig .tc .vmem S128x1 .f32).view.loc (c : Thread nD τ) ↦[(csM : Memref sig .tc .vmem S128x1 .f32).view.set]{fullShare} colS (xs m ρ) c) := by
  rw [payload_sCol]; rfl

/-- The column transfer: the staged edge column into the column neighbour's column-halo buffer. -/
theorem wp_send_col (c n : Dev nD) (hn : n = colp c)
    {hsc : (chM : Memref sig (Dev.tc n : Thread nD τ).2.kind .vmem S128x1 .f32).view.ref.isScScratch = false}
    {hsrc : (csM : Memref sig .tc .vmem S128x1 .f32).view.WordExact} {hdst : (chM : Memref sig .tc .vmem S128x1 .f32).view.WordExact}
    {hsem : DmaTarget.Typed .vmem (.dma rColS) (.remote (Dev.tc n : Thread nD τ) (chM : Memref sig .tc .vmem S128x1 .f32) (.dma sColS) hsc)}
    {α : Type} {Q : α → sProp 𝕄} {k : PUnit → Prog (TpuEff nD τ sig (Elt F) Λ₀ .tc) α}
    (fn : Buf (Elt F) ((chM : Memref sig .tc .vmem S128x1 .f32).view.loc (colp c : Thread nD τ))) (W : Waits sig Unit) :
    iprop(cellInv ER (rd m ρ) (K (c, 2)) (sCol c) ∗ cellInv ER (rd m ρ) (K (colp c, 4)) (rCol (colp c))
        ∗ scr2 c (colS (xs m ρ) c) ∗ scr1 (colp c) fn
        ∗ owes (c : Thread nD τ) (tallyAt (rCol (colp c)) () NC) W
        ∗ dutyTok ER (sCol c) 0 false ∗ reached ER (sCol c) 0
        ∗ dutyTok ER (rCol (colp c)) 0 false ∗ reached ER (rCol (colp c)) 0)
      ⊢ iprop(((cred (tallyAt (sCol c) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) chM (.dma sColS) hsc) (.dma rColS) hsrc hdst hsem) k) Q) := by
  subst hn
  unfold scr2 scr1
  exact Rounds.wp_send_pointsTo 𝒱₀ ER (rd m ρ) (c : Thread nD τ) none (κ₁ := K (c, 2)) (κ₂ := K (colp c, 4))
    (src := csM) (dst := chM) (c' := (colp c : Thread nD τ)) (q := fullShare) (fs := colS (xs m ρ) c)
    (r₁ := 0) (r₂ := 0) (d₁ := false) (d₂ := false) (fd := fn)
    (by rw [duties_sCol]; exact Finset.mem_singleton_self _) (by rw [duties_rCol]; exact Finset.mem_singleton_self _)
    () () NC rfl (amount_sCol m ρ c false) (amount_rCol m ρ (colp c) false) 0 (by rw [zero_add]) (W := W)
    (by rw [pl_sCol])
    (by rw [pl_rCol_colp, landed_col, show (csM : Memref sig .tc .vmem S128x1 .f32).view.read (Elt F) (colS (xs m ρ) c) = colS (xs m ρ) c from View.read_whole _ _])

end Sends

attribute [local sl_canon] dev1_eq dev2_eq dev3_eq dev4_eq
attribute [local sl_rounds] duties_bar duties_sRow duties_sCol duties_rRow duties_rCol amount_bar amount_sRow amount_sCol amount_rRow amount_rCol
  expect_bar expect_sRow expect_sCol expect_rRow expect_rCol pl_bar_false pl_bar_true pl_sRow pl_sCol pl_rRow pl_rCol landed_row landed_col
attribute [local sl_rounds high] pl_bar_rowp pl_bar_colp pl_rRow_rowp

/-! ## The body -/

section BodyProof
variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def xPts (c : Dev nD) (f : Buf (Elt F) ((xM : Memref sig .tc .vmem S128x128 .f32).view.loc (c : Thread nD τ))) : sProp 𝕄 :=
  (xM : Memref sig .tc .vmem S128x128 .f32).view.loc (c : Thread nD τ) ↦[(xM : Memref sig .tc .vmem S128x128 .f32).view.set]{fullShare} f
def oPts (c : Dev nD) (f : Buf (Elt F) ((oM : Memref sig .tc .vmem S128x128 .f32).view.loc (c : Thread nD τ))) : sProp 𝕄 :=
  (oM : Memref sig .tc .vmem S128x128 .f32).view.loc (c : Thread nD τ) ↦[(oM : Memref sig .tc .vmem S128x128 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
omit [FloatOps F] in
theorem oPts_eq (c : Dev nD) (f : Buf (Elt F) ((c : Thread nD τ).loc cc0_stg1_0)) :
    oPts c f = (((c : Thread nD τ).loc cc0_stg1_0) ↦{fullShare} f : sProp 𝕄) := by unfold oPts; rw [View.set_whole]

/-- What the pipeline hands the body at the point: the fetched block of `x`. -/
theorem before_x (c : Dev nD) (d) : (dats m ρ 0 c).before (0 : Fin 2) t₀ d = xstg m ρ c :=
  ((dats m ρ 0 c).before_fetched (0 : Fin 2) t₀ (fetch0_0 t₀) d).trans rfl

/-- What the body leaves, in the form the steps produce it. -/
def corePost (c : Dev nD) : sProp 𝕄 :=
  iprop(scr0 c (rowH (xs m ρ) c) ∗ scr1 c (colH (xs m ρ) c) ∗ scr2 c (colS (xs m ρ) c)
    ∗ semVal (sRow c) 0 ∗ semVal (sCol c) 0 ∗ semVal (rRow c) 0 ∗ semVal (rCol c) 0
    ∗ (∃ W', owes (c : Thread nD τ) 0 W') ∗ xPts c (xstg m ρ c) ∗ oPts c (outAt m ρ c))

set_option maxHeartbeats 1600000 in
/-- The body, from the ghost state and the buffers at named contents. -/
theorem sound_core (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (fo : Buf (Elt F) ((c : Thread nD τ).loc cc0_stg1_0)) :
    iprop(Proto.invs m ρ K c ∗ Proto.reaches c ∗ Proto.poss c ∗ Proto.payToks c
        ∗ cred (tallyAt (barCell c) () 2) ∗ cred (tallyAt (rRow c) () NR) ∗ cred (tallyAt (rCol c) () NC) ∗ levAts Proto.L Proto.lv
        ∗ scr0 c f0 ∗ scr1 c f1 ∗ scr2 c f2
        ∗ owes (c : Thread nD τ) (Proto.O₀ c) W
        ∗ xPts c (xstg m ρ c) ∗ oPts c fo)
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => corePost m ρ c) := by
  unfold scr0 scr1 scr2 xPts oPts Proto.invs Proto.reaches Proto.poss Proto.payToks Proto.O₀ Proto.O₁ Proto.Oxfer
  iintro ⟨⟨#Ib, #Isr, #Isc, #Irr, #Irc, #Ibr, #Ibc, #Irrp, #Ircp⟩, ⟨#Rbr, #Rbc, #Rrrp, #Rrcp, #Rsr, #Rsc, #Rrr, #Rrc⟩,
    ⟨Pb, Psr, Psc, Prr, Prc⟩, ⟨Tbr, Tbc, Trr, Trc, Tsr, Tsc⟩, Cb, Crr, Crc, #Hlev, H0, H1, H2, HO, Hx, Ho⟩
  have hmw : (levAts Proto.L Proto.lv : sProp 𝕄) ⊢ MayWait (c : Thread nD τ) (.reg barS) () (tallyAt (rCol (colp c)) () NC + tallyAt (rRow (rowp c)) () NR) := mayWait_bar c
  sl_unfold [cc0_body]
  sl_exec
  -- the barrier round's payloads, split
  ihave Hp := (Entails.of_eq (pay_bar_univ m ρ c)) $$ Pb_pay1
  icases Hp with ⟨⟨⟨%g0, G0⟩, -⟩, ⟨⟨%g1, G1⟩, -⟩⟩
  -- the edge row cut out of the staged block
  ihave Hs := (x_split m ρ c).1 $$ Hx
  icases Hs with ⟨Hxrow, Hxrest⟩
  iapply (wp_send_row m ρ K c _ (dev3_eq c) g0 (tallyAt (rCol (colp c)) () NC) _) $$ [Hxrow G0 HO Tsr Trr]
  · isplitr; · iexact Isr
    isplitr; · iexact Irrp
    isplitl [Hxrow]; · iexact Hxrow
    isplitl [G0]; · unfold scr0; iexact G0
    isplitl [HO]; · iexact HO
    isplitl [Tsr]; · iexact Tsr
    isplitr; · iexact Rsr
    isplitl [Trr]; · iexact Trr
    iexact Rrrp
  iintro ⟨Csr, HO⟩
  rw [read_x, writes_cs]
  sl_exec
  iapply (wp_send_col m ρ K c _ (dev4_eq c) g1 _) $$ [H2 G1 HO Tsc Trc]
  · isplitr; · iexact Isc
    isplitr; · iexact Ircp
    isplitl [H2]; · unfold scr2 colS xs; iexact H2
    isplitl [G1]; · unfold scr1; iexact G1
    isplitl [HO]; · iexact HO
    isplitl [Tsc]; · iexact Tsc
    isplitr; · iexact Rsc
    isplitl [Trc]; · iexact Trc
    iexact Rrcp
  iintro ⟨Csc, HO⟩
  sl_exec
  -- the four own cells, their rounds done, closed at zero
  imod (Rounds.cell_close ER (rd m ρ) (g := sRow c) (κ := K (c, 1)) (Set.mem_univ _) (fun h => h) (R := 1) (fun r hr => duties_later m ρ _ r hr)) $$ [Psr] with Zsr
  · isplitr; · iexact Isr
    iexact Psr
  imod (Rounds.cell_close ER (rd m ρ) (g := sCol c) (κ := K (c, 2)) (Set.mem_univ _) (fun h => h) (R := 1) (fun r hr => duties_later m ρ _ r hr)) $$ [Psc] with Zsc
  · isplitr; · iexact Isc
    iexact Psc
  imod (Rounds.cell_close ER (rd m ρ) (g := rRow c) (κ := K (c, 3)) (Set.mem_univ _) (fun h => h) (R := 1) (fun r hr => duties_later m ρ _ r hr)) $$ [Prr] with Zrr
  · isplitr; · iexact Irr
    iexact Prr
  imod (Rounds.cell_close ER (rd m ρ) (g := rCol c) (κ := K (c, 4)) (Set.mem_univ _) (fun h => h) (R := 1) (fun r hr => duties_later m ρ _ r hr)) $$ [Prc] with Zrc
  · isplitr; · iexact Irc
    iexact Prc
  sl_step
  unfold corePost scr0 scr1 scr2 xPts oPts
  isplitl [Prr_pay1]; · iexact Prr_pay1
  isplitl [Prc_pay1]; · iexact Prc_pay1
  isplitl [Psc_pay1]; · iexact Psc_pay1
  isplitl [Zsr]; · iexact Zsr
  isplitl [Zsc]; · iexact Zsc
  isplitl [Zrr]; · iexact Zrr
  isplitl [Zrc]; · iexact Zrc
  isplitl [HO]; · iexists _; iexact HO
  isplitl [Psr_pay1 Hxrest]
  · iapply (x_split m ρ c).2
    unfold xrow
    isplitl [Psr_pay1]; · iexact Psr_pay1
    iexact Hxrest
  · rw [writes_o2, read_rh, read_ch]
    sl_unfold_run_names
    rw [View.readCov_unit_zero (Val := Elt F) _ hz2]
    rw [read_x]
    unfold outAt outFinal outLocal mxw myw xs
    iexact Ho

def bodyPre (c : Dev nD) : sProp 𝕄 :=
  iprop((ghost m ρ K c ∗ cred (tallyAt (barCell c) () 2) ∗ cred (tallyAt (rRow c) () NR) ∗ cred (tallyAt (rCol c) () NC) ∗ levAts Proto.L Proto.lv
      ∗ (∃ f, scr0 c f) ∗ (∃ f, scr1 c f) ∗ (∃ f, scr2 c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

theorem core_to_post (c : Dev nD) : corePost m ρ c ⊢ bodyPost m ρ c := by
  unfold corePost bodyPost Φ₁
  rw [xPts_eq, oPts_eq]
  iintro ⟨A0, A1, A2, Z1, Z2, Z3, Z4, ⟨%W', HO⟩, Hx, Ho⟩
  isplitl [A0 A1 A2 Z1 Z2 Z3 Z4]
  · isplitl [A0]; · iexact A0
    isplitl [A1]; · iexact A1
    isplitl [A2]; · iexact A2
    isplitl [Z1]; · iexact Z1
    isplitl [Z2]; · iexact Z2
    isplitl [Z3]; · iexact Z3
    iexact Z4
  isplitl [HO]
  · iexists W'
    isplitr; · ipureintro; exact fun _ _ => Or.inl trivial
    iexact HO
  isplitl [Hx]
  · iexists _
    isplitr; · ipureintro; rfl
    iexact Hx
  · iexists _
    isplitr; · ipureintro; rfl
    iexact Ho

/-- The body from what the pipeline hands it to what the pipeline takes back. -/
theorem sound_body (c : Dev nD) :
    bodyPre m ρ K c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m ρ c) := by
  unfold bodyPre ghost
  iintro ⟨⟨⟨Hinv, Hre, Hpos, Htok⟩, Cb, Crr, Crc, Hlev, ⟨%f0, H0⟩, ⟨%f1, H1⟩, ⟨%f2, H2⟩⟩, ⟨%W, %hW, HO⟩, ⟨%dx, %fx, %hfx, Hx⟩, ⟨%d1, %fo, %hfo, Ho⟩⟩
  rw [before_x] at hfx
  subst hfx
  iapply ((sound_core m ρ K c W f0 f1 f2 fo).trans (wp_mono _ _ _ (fun _ => core_to_post m ρ c)))
  rw [xPts_eq, oPts_eq]
  isplitl [Hinv]; · iexact Hinv
  isplitl [Hre]; · iexact Hre
  isplitl [Hpos]; · iexact Hpos
  isplitl [Htok]; · iexact Htok
  isplitl [Cb]; · iexact Cb
  isplitl [Crr]; · iexact Crr
  isplitl [Crc]; · iexact Crc
  isplitl [Hlev]; · iexact Hlev
  isplitl [H0]; · iexact H0
  isplitl [H1]; · iexact H1
  isplitl [H2]; · iexact H2
  isplitl [HO]; · iexact HO
  isplitl [Hx]; · iexact Hx
  iexact Ho

end BodyProof

/-! ## The library's body obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  unfold bodyPre' Φ₀ start
  iintro ⟨⟨⟨⟨%K, Hg⟩, C1, C2, C3, Hlev⟩, S0, S1, S2⟩, Ho, Hx, Hout⟩
  iapply (sound_body m ρ K c)
  unfold bodyPre
  isplitl [Hg C1 C2 C3 Hlev S0 S1 S2]
  · isplitl [Hg]; · iexact Hg
    isplitl [C1]; · iexact C1
    isplitl [C2]; · iexact C2
    isplitl [C3]; · iexact C3
    isplitl [Hlev]; · iexact Hlev
    isplitl [S0]; · iexact S0
    isplitl [S1]; · iexact S1
    iexact S2
  isplitl [Ho]; · iexact Ho
  isplitl [Hx] <;> iassumption

/-- info: 'Cert.KernelIdeal.Body.body_obligation' depends on axioms: [propext, Classical.choice, Quot.sound] -/
#guard_msgs in #print axioms body_obligation

end Cert.KernelIdeal.Body

end
-- ==== Proof.Launch.lean ====
/-
  The launch: from every device's holdings at kernel entry to the run of the whole mesh.

  The protocol's ghost state is funded once for all devices: every cell's round state, the owner's position and the mark
  that round 0 is reached, and one token per duty. Each device's five semaphores at zero become its cells' invariants; the
  tokens are dealt to the devices that pay them — a barrier cell's two tokens and the two receive tokens to the
  neighbours, the send tokens to the device itself. The credit a device's cells are owed at launch is what its neighbours
  owe it: two units on the barrier cell, one transfer's credit on each receive cell.
-/
import proofs.«900188_g7700000000000189_dist_halo2d_stencil_xy_m128_n128_v7x_xy2x2_bf16_1_alg».proof.Proof.Body

noncomputable section

namespace Cert.KernelIdeal.Launch

open Cert.KernelIdeal Cert.KernelIdeal.Gen Cert.KernelIdeal.Halo Cert.KernelIdeal.Proto Cert.KernelIdeal.Body
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 5 → SemLoc sig) := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: its barrier's two, then one per transfer cell. -/
abbrev tokOf (cj : Dev nD × Fin 6) : GSem nD τ sig × ℕ × Bool := match cj.2 with
  | 0 => (barCell cj.1, 0, false) | 1 => (barCell cj.1, 0, true) | 2 => (sRow cj.1, 0, false) | 3 => (sCol cj.1, 0, false)
  | 4 => (rRow cj.1, 0, false) | 5 => (rCol cj.1, 0, false)
/-- Which semaphore and which duty a token is of: it does not depend on the device. -/
abbrev tokSem : Fin 6 → SemLoc sig × Bool := fun
  | 0 => (.reg barS, false) | 1 => (.reg barS, true) | 2 => (.dma sRowS, false) | 3 => (.dma sColS, false)
  | 4 => (.dma rRowS, false) | 5 => (.dma rColS, false)
theorem tokSem_injective : Function.Injective tokSem := by decide
theorem tok_proj (c : Dev nD) (j : Fin 6) : ((tokOf (c, j)).1.2, (tokOf (c, j)).2.2) = tokSem j := by fin_cases j <;> rfl
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := tokSem_injective (by
    rw [← tok_proj c j, ← tok_proj c j']
    exact congrArg (fun x : GSem nD τ sig × ℕ × Bool => (x.1.2, x.2.2)) h)
  subst this; rfl
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 false ∗ dutyTok ER (barCell c) 0 true ∗ dutyTok ER (sRow c) 0 false ∗ dutyTok ER (sCol c) 0 false
    ∗ dutyTok ER (rRow c) 0 false ∗ dutyTok ER (rCol c) 0 false)

/-- What the launch element deals device `c`. -/
def G (c : Dev nD) : sProp 𝕄 :=
  iprop((bigSep Finset.univ fun k : Fin 5 => roundState ER (rd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

omit [FloatOps F] in
theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin6]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The four DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sRow c) 0 ∗ semVal (sCol c) 0 ∗ semVal (rRow c) 0 ∗ semVal (rCol c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (rd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(Proto.poss c ∗ Proto.payToks c)

omit [FloatOps F] in
theorem ghost_intro (K : Dev nD × Fin 5 → ℕ) (c : Dev nD) : iprop(records m ρ K ∗ linear c) ⊢ G' m ρ c := by
  unfold records linear G' ghost Proto.invs Proto.reaches
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (rowp c, 0)); iexact HI
    isplitr; · iapply (inv_at m ρ K (colp c, 0)); iexact HI
    isplitr; · iapply (inv_at m ρ K (rowp c, 3)); iexact HI
    iapply (inv_at m ρ K (colp c, 4)); iexact HI
  isplitr
  · isplitr; · iapply (reached_at (F := F) (rowp c, 0)); iexact HR
    isplitr; · iapply (reached_at (F := F) (colp c, 0)); iexact HR
    isplitr; · iapply (reached_at (F := F) (rowp c, 3)); iexact HR
    isplitr; · iapply (reached_at (F := F) (colp c, 4)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  isplitl [Hp]; · iexact Hp
  iexact Ht

def rowE : Dev nD ≃ Dev nD := ⟨rowp, rowp, rowp_rowp, rowp_rowp⟩
def colE : Dev nD ≃ Dev nD := ⟨colp, colp, colp_colp, colp_colp⟩

omit [FloatOps F] in
/-- The tokens dealt to their payers: a barrier cell's `false` token and the row receive token to the row neighbour, its
    `true` token and the column receive token to the column neighbour. -/
theorem toks_around : (bigSep Finset.univ fun c : Dev nD => (toks c : sProp 𝕄)) ⊢ bigSep Finset.univ fun c : Dev nD => Proto.payToks c := by
  unfold toks Proto.payToks
  rw [bigSep_sep', bigSep_sep', bigSep_sep', bigSep_sep', bigSep_sep', bigSep_sep', bigSep_sep', bigSep_sep', bigSep_sep', bigSep_sep',
    bigSep_univ_equiv rowE (fun c : Dev nD => (dutyTok ER (barCell c) 0 false : sProp 𝕄)),
    bigSep_univ_equiv colE (fun c : Dev nD => (dutyTok ER (barCell c) 0 true : sProp 𝕄)),
    bigSep_univ_equiv rowE (fun c : Dev nD => (dutyTok ER (rRow c) 0 false : sProp 𝕄)),
    bigSep_univ_equiv colE (fun c : Dev nD => (dutyTok ER (rCol c) 0 false : sProp 𝕄))]
  iintro ⟨Hbf, Hbt, Hsr, Hsc, Hrr, Hrc⟩
  isplitl [Hbf]; · iexact Hbf
  isplitl [Hbt]; · iexact Hbt
  isplitl [Hrr]; · iexact Hrr
  isplitl [Hrc]; · iexact Hrc
  isplitl [Hsr]; · iexact Hsr
  iexact Hsc

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (rd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) Proto.payToks).symm).trans
      (bigSep_mono fun c _ => show _ ⊢ linear c from Entails.of_eq (by unfold linear Proto.poss; rw [bigSep_fin5])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What a device's cells are owed at launch: each summand of the neighbours' debts lands on this device's own cell,
    the two barrier units together. -/
theorem creds (c : Dev nD) :
    (Pipeline.launchCred Proto.O₀ c : sProp 𝕄) ⊢ iprop(cred (tallyAt (barCell c) () 2) ∗ cred (tallyAt (rRow c) () NR) ∗ cred (tallyAt (rCol c) () NC)) := by
  have e : (Pipeline.launchCred Proto.O₀ c : sProp 𝕄)
      = iprop(((Pipeline.launchCred (fun d => tallyAt (rCol (colp d)) () NC) c ∗ Pipeline.launchCred (fun d => tallyAt (rRow (rowp d)) () NR) c)
          ∗ Pipeline.launchCred (fun d => tallyAt (barCell (colp d)) () 1) c) ∗ Pipeline.launchCred (fun d => tallyAt (barCell (rowp d)) () 1) c) := by
    rw [show Proto.O₀ = fun d => Proto.O₁ d + tallyAt (barCell (rowp d)) () 1 from rfl, Pipeline.launchCred_add,
      show Proto.O₁ = fun d => Proto.Oxfer d + tallyAt (barCell (colp d)) () 1 from rfl, Pipeline.launchCred_add,
      show Proto.Oxfer = fun d => tallyAt (rCol (colp d)) () NC + tallyAt (rRow (rowp d)) () NR from rfl, Pipeline.launchCred_add]
  rw [e]
  iintro ⟨⟨⟨Hrc, Hrr⟩, Hbc⟩, Hbr⟩
  ihave Crc := (Pipeline.launchCred_tallyAt (.dma rColS) colp colp colp_colp colp_colp () NC c) $$ Hrc
  ihave Crr := (Pipeline.launchCred_tallyAt (.dma rRowS) rowp rowp rowp_rowp rowp_rowp () NR c) $$ Hrr
  ihave Cbc := (Pipeline.launchCred_tallyAt (.reg barS) colp colp colp_colp colp_colp () 1 c) $$ Hbc
  ihave Cbr := (Pipeline.launchCred_tallyAt (.reg barS) rowp rowp rowp_rowp rowp_rowp () 1 c) $$ Hbr
  isplitl [Cbc Cbr]
  · rw [← tallyAt_add (barCell c) () 1 1]
    iapply (cred_add _ _).2
    isplitl [Cbc] <;> iassumption
  isplitl [Crr] <;> iassumption

/-! ### The launch theorem's side conditions -/

omit [FloatOps F] in
theorem start_intro (c : Dev nD) :
    iprop(Pipeline.unscopedRestP Pipeline.Prefetch.none cfg0.spec c (fun b => m ((c : Thread nD τ).loc b)) ∗ levAts Proto.L Proto.lv
        ∗ Pipeline.launchCred Proto.O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f0, H0⟩, ⟨%f1, H1⟩, ⟨%f2, H2⟩⟩
  isplitl [Hs]; · iexact Hs
  isplitl [H0]; · iexists f0; rw [scr0_eq]; iexact H0
  isplitl [H1]; · iexists f1; rw [scr1_eq]; iexact H1
  iexists f2; rw [scr2_eq]; iexact H2

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨H0, H1, H2, Z1, Z2, Z3, Z4⟩
  isplitr; · iempintro
  isplitl [Z1 Z2 Z3 Z4]
  · isplitl [Z1]; · iexact Z1
    isplitl [Z2]; · iexact Z2
    isplitl [Z3] <;> iassumption
  isplitl [H0]; · iexists _; rw [← scr0_eq]; iexact H0
  isplitl [H1]; · iexists _; rw [← scr1_eq]; iexact H1
  iexists _; rw [← scr2_eq]; iexact H2

theorem waits (c : Dev nD) : (levAts Proto.L Proto.lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the proof data's final contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := Proto.O₀) (howed₀ := fun _ => rfl) (howedN := fun _ => rfl)
    (L := Proto.L) (lv := Proto.lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

/-- The `x` array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block, the whole array, read back after the run is what the body left. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

omit [FloatOps F] in
/-- A whole-array window's block read off the array is the array. -/
theorem blk1_read (c : Dev nD) (X : Buf (Elt F) ((c : Thread nD τ).loc main_v1)) :
    (win0_1.blk (0 : Fin 1)).view.read (Elt F) X = X := by
  funext y
  show X ((win0_1.blk (0 : Fin 1)).view.emb y) = X y
  refine congrArg X (funext fun a => Fin.ext ?_)
  show win0_1.index (0 : Fin 1) a * _ + 1 * (y a).val = (y a).val
  have : win0_1.index (0 : Fin 1) a = 0 := rfl
  rw [this]; omega
omit [FloatOps F] in
theorem blk0_read (c : Dev nD) (X : Buf (Elt F) ((c : Thread nD τ).loc main_arg0)) :
    (win0_0.blk (0 : Fin 1)).view.read (Elt F) X = X := by
  funext y
  show X ((win0_0.blk (0 : Fin 1)).view.emb y) = X y
  refine congrArg X (funext fun a => Fin.ext ?_)
  show win0_0.index (0 : Fin 1) a * _ + 1 * (y a).val = (y a).val
  have : win0_0.index (0 : Fin 1) a = 0 := rfl
  rw [this]; omega

/-- The result array after the run. -/
theorem finalA_out (c : Dev nD) : finalA m ρ c (1 : Fin 2) = outAt m ρ c :=
  (blk1_read c _).symm.trans (finalA_o m ρ c)

/-- The staged block is the device's argument array. -/
theorem xstg_eq (c : Dev nD) : xstg m ρ c = m ((c : Thread nD τ).loc main_arg0) := blk0_read c _

end Cert.KernelIdeal.Launch

end
-- ==== Proof.Bits.Halo.lean ====
/-
  What each device of the 2×2 mesh computes, as pure functions of the four devices' blocks of `x`.

  Device `c` sits at mesh position (c / 2, c % 2). Its row neighbour `rowp c` is the device in the other mesh row of the
  same column, its column neighbour `colp c` the device in the other column of the same row. A device's edge row is the
  row of its block that touches the row neighbour's block (the last row for mesh row 0, the first for mesh row 1); its
  edge column likewise. The row halo a device receives is the row neighbour's edge row; the column halo is the column
  neighbour's edge column. The result is the five-point stencil of the block with zero padding, kept to the block itself
  on the global boundary, plus one eighth of the row halo on the edge row and one eighth of the column halo on the edge
  column, off the global boundary.
-/
import proofs.«900188_g7700000000000189_dist_halo2d_stencil_xy_m128_n128_v7x_xy2x2_bf16_1_alg».proof.Proof.Gen.Kernel.Skeleton

noncomputable section

namespace Cert.Kernel.Halo

open Cert.Kernel Cert.Kernel.Gen
open Idealize.ShloMosaic Idealize.SL.Sem

variable {F : FTy → Type} [FloatOps F]

/-- The device in the other mesh row, same column. -/
def rowp (c : Dev nD) : Dev nD := ⟨(c.val + 2) % 4, Nat.mod_lt _ (by decide)⟩
/-- The device in the other mesh column, same row. -/
def colp (c : Dev nD) : Dev nD := ⟨(2 * (c.val / 2) + 1) - (c.val % 2), by have h : c.val < 4 := c.isLt; show _ < 4; omega⟩

theorem rowp_rowp (c : Dev nD) : rowp (rowp c) = c := by revert c; decide
theorem colp_colp (c : Dev nD) : colp (colp c) = c := by revert c; decide
theorem rowp_ne_colp (c : Dev nD) : rowp c ≠ colp c := by revert c; decide
theorem rowp_ne (c : Dev nD) : rowp c ≠ c := by revert c; decide
theorem colp_ne (c : Dev nD) : colp c ≠ c := by revert c; decide

/-- The kernel's device chains name these neighbours: both barrier signals and both transfers. -/
theorem dev1_eq (c : Dev nD) : (⟨k0_dev1 c, k0_dev1_lt c⟩ : Dev nD) = rowp c := by revert c; decide +kernel
theorem dev2_eq (c : Dev nD) : (⟨k0_dev2 c, k0_dev2_lt c⟩ : Dev nD) = colp c := by revert c; decide +kernel
theorem dev3_eq (c : Dev nD) : (⟨k0_dev3 c, k0_dev3_lt c⟩ : Dev nD) = rowp c := by revert c; decide +kernel
theorem dev4_eq (c : Dev nD) : (⟨k0_dev4 c, k0_dev4_lt c⟩ : Dev nD) = colp c := by revert c; decide +kernel

/-- The staged block of `x`, whole. -/
abbrev xM : Memref sig .tc .vmem S128x128 .f32 := Memref.whole cc0_stg0_0
/-- A device's edge row of its staged block, as the view the row transfer reads. -/
abbrev rowSrc (c : Dev nD) : Memref sig .tc .vmem S1x128 .f32 :=
  xM.slice (Rect.unit (s := S128x128) (k0_off1 c) S1x128.size (k0_off1_inb c)) (fun _ => rfl)

/-- A device's mesh row and mesh column, as the words the body computes them. -/
def mxw (c : Dev nD) : BitVec 32 := Scalar.remsi (Scalar.divsi (Dev.word c) 2#32) 2#32
def myw (c : Dev nD) : BitVec 32 := Scalar.remsi (Scalar.divsi (Dev.word c) 1#32) 2#32

variable (x : Dev nD → Vec F S128x128 .f32)

/-- What lands in device `c`'s row halo: the row neighbour's edge row. -/
def rowH (c : Dev nD) : Vec F S1x128 .f32 := (rowSrc (rowp c)).view.read (Elt F) (x (rowp c))
/-- What device `c` stages for its column neighbour: its edge column. -/
def colS (c : Dev nD) : Vec F S128x1 .f32 := k0_pay3 c (x c)
/-- What lands in device `c`'s column halo: the column neighbour's edge column. -/
def colH (c : Dev nD) : Vec F S128x1 .f32 := colS x (colp c)
/-- The local stencil with zero padding, the block itself on the global boundary. -/
def outLocal (c : Dev nD) : Vec F S128x128 .f32 :=
  k0_pay15 (k0_pay2 (x c)) (k0_pay9 (k0_pay2 (x c)) (k0_pay5 (F := F)) (k0_pay6 (x c)) (k0_pay7 (x c)) (k0_pay8 (x c))) (k0_pay10 (mxw c) (myw c))
/-- The result: the local stencil plus the two halo terms. -/
def outFinal (c : Dev nD) : Vec F S128x128 .f32 :=
  k0_pay1 (k0_pay11 (F := F) (mxw c) (myw c)) (k0_pay14 (F := F) (k0_pay12 (myw c)) (k0_pay13 (mxw c) (myw c))) (outLocal x c) (rowH x c) (colH x c)

end Cert.Kernel.Halo

end
-- ==== Proof.Bits.Proto.lean ====
/-
  The cross-device protocol of the halo exchange, under the rounds discipline.

  Every device has five cells: its barrier cell and, for each of the two transfers (the edge row to the row neighbour, the
  edge column to the column neighbour), a send cell and a receive cell. All duties are at round 0.
  * The barrier cell of device `c` has two duties of one unit: `false`, paid by the row neighbour's signal, which hands
    `c` the row neighbour's row-halo buffer (at any contents) and the fact that the neighbour's row receive cell has reached
    round 0 — what `c`'s row transfer into that buffer needs; `true`, paid by the column neighbour's signal, the same for
    the column halo.
  * The row receive cell of `c` has one duty, paid by the row neighbour's transfer: its payload is `c`'s row-halo buffer
    holding the neighbour's edge row. The column receive cell likewise holds the neighbour's edge column.
  * A send cell's one duty is paid by the device's own transfer and hands back the source elements.
  A device owes, at entry, one unit to each neighbour's barrier cell and a transfer's credit to each neighbour's receive
  cell. Levels: send cells and the pipeline's staging cells 0, barrier cells 1, receive cells 2 — a device waits on its
  barrier cell while it still owes the two transfers, and on its receive cells owing nothing.
-/
import proofs.«900188_g7700000000000189_dist_halo2d_stencil_xy_m128_n128_v7x_xy2x2_bf16_1_alg».proof.Proof.Bits.Halo
import proofs.«900188_g7700000000000189_dist_halo2d_stencil_xy_m128_n128_v7x_xy2x2_bf16_1_alg».proof.Proof.Gen.Kernel.Launch
import proofs.«900188_g7700000000000189_dist_halo2d_stencil_xy_m128_n128_v7x_xy2x2_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Halo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def st0 : MemSt nD τ sig (Elt F) := ⟨m, fun _ => 0, ρ⟩

/-! ## The memrefs and cells -/

abbrev oM : Memref sig .tc .vmem S128x128 .f32 := Memref.whole cc0_stg1_0
abbrev rhM : Memref sig .tc .vmem S1x128 .f32 := Memref.whole cc0_scratch0
abbrev chM : Memref sig .tc .vmem S128x1 .f32 := Memref.whole cc0_scratch1
abbrev csM : Memref sig .tc .vmem S128x1 .f32 := Memref.whole cc0_scratch2

abbrev barS : Sem sig := (SemArray.scalar (sig.barrier 0 rfl) : Sems sig S_).sem
abbrev sRowS : DmaSem sig := ((cc0_scratch3.slice (Rect.unit (s := S2) ![0] S1.size Facts₀.inb_S2_S1_0)).squeeze S_ Facts₀.squeezes_S1_S_).sem
abbrev sColS : DmaSem sig := ((cc0_scratch3.slice (Rect.unit (s := S2) ![1] S1.size Facts₀.inb_S2_S1_1)).squeeze S_ Facts₀.squeezes_S1_S_).sem
abbrev rRowS : DmaSem sig := ((cc0_scratch4.slice (Rect.unit (s := S2) ![0] S1.size Facts₀.inb_S2_S1_0)).squeeze S_ Facts₀.squeezes_S1_S_).sem
abbrev rColS : DmaSem sig := ((cc0_scratch4.slice (Rect.unit (s := S2) ![1] S1.size Facts₀.inb_S2_S1_1)).squeeze S_ Facts₀.squeezes_S1_S_).sem

abbrev barCell (c : Dev nD) : GSem nD τ sig := ((c : Thread nD τ), .reg barS)
abbrev sRow (c : Dev nD) : GSem nD τ sig := ((c : Thread nD τ), .dma sRowS)
abbrev sCol (c : Dev nD) : GSem nD τ sig := ((c : Thread nD τ), .dma sColS)
abbrev rRow (c : Dev nD) : GSem nD τ sig := ((c : Thread nD τ), .dma rRowS)
abbrev rCol (c : Dev nD) : GSem nD τ sig := ((c : Thread nD τ), .dma rColS)

/-- The kernel's own (scoped) semaphores, as the launch indexes them; -/
abbrev osem : Fin 4 → SemLoc sig := fun | 0 => .dma sRowS | 1 => .dma sColS | 2 => .dma rRowS | 3 => .dma rColS
/-- all five of the protocol's: barrier, the two sends, the two receives. -/
abbrev csem : Fin 5 → SemLoc sig := fun | 0 => .reg barS | 1 => .dma sRowS | 2 => .dma sColS | 3 => .dma rRowS | 4 => .dma rColS
abbrev kcell (ck : Dev nD × Fin 5) : GSem nD τ sig := ((ck.1 : Thread nD τ), csem ck.2)

abbrev NR : ℕ := (rhM : Memref sig .tc .vmem S1x128 .f32).view.dmaCredit
abbrev NC : ℕ := (chM : Memref sig .tc .vmem S128x1 .f32).view.dmaCredit
theorem NR_pos : 0 < NR := View.dmaCredit_pos _ (by decide)
theorem NC_pos : 0 < NC := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The four blocks. -/
def xs : Dev nD → Vec F S128x128 .f32 := fun d => xstg m ρ d

def scr0 (c : Dev nD) (f : Buf (Elt F) ((rhM : Memref sig .tc .vmem S1x128 .f32).view.loc (c : Thread nD τ))) : sProp 𝕄 :=
  (rhM : Memref sig .tc .vmem S1x128 .f32).view.loc (c : Thread nD τ) ↦[(rhM : Memref sig .tc .vmem S1x128 .f32).view.set]{fullShare} f
def scr1 (c : Dev nD) (f : Buf (Elt F) ((chM : Memref sig .tc .vmem S128x1 .f32).view.loc (c : Thread nD τ))) : sProp 𝕄 :=
  (chM : Memref sig .tc .vmem S128x1 .f32).view.loc (c : Thread nD τ) ↦[(chM : Memref sig .tc .vmem S128x1 .f32).view.set]{fullShare} f
def scr2 (c : Dev nD) (f : Buf (Elt F) ((csM : Memref sig .tc .vmem S128x1 .f32).view.loc (c : Thread nD τ))) : sProp 𝕄 :=
  (csM : Memref sig .tc .vmem S128x1 .f32).view.loc (c : Thread nD τ) ↦[(csM : Memref sig .tc .vmem S128x1 .f32).view.set]{fullShare} f
/-- The edge row of the staged block, held through the row transfer's source view. -/
def xrow (c : Dev nD) : sProp 𝕄 :=
  (rowSrc c).view.loc (c : Thread nD τ) ↦[(rowSrc c).view.set]{fullShare} xstg m ρ c

omit [FloatOps F] in
instance scr0_storable (c : Dev nD) (f) : BI.Storable (upEmb : UEmb _ 𝕄) (scr0 (F := F) c f) := by unfold scr0; infer_instance
omit [FloatOps F] in
instance scr1_storable (c : Dev nD) (f) : BI.Storable (upEmb : UEmb _ 𝕄) (scr1 (F := F) c f) := by unfold scr1; infer_instance
omit [FloatOps F] in
instance scr2_storable (c : Dev nD) (f) : BI.Storable (upEmb : UEmb _ 𝕄) (scr2 (F := F) c f) := by unfold scr2; infer_instance
omit [FloatOps F] in
instance xrow_storable (c : Dev nD) : BI.Storable (upEmb : UEmb _ 𝕄) (xrow (F := F) m ρ c) := by unfold xrow; infer_instance

omit [FloatOps F] in
theorem scr0_eq (c : Dev nD) (f : Buf (Elt F) ((c : Thread nD τ).loc cc0_scratch0)) :
    scr0 c f = (((c : Thread nD τ).loc cc0_scratch0) ↦{fullShare} f : sProp 𝕄) := by unfold scr0; rw [View.set_whole]
omit [FloatOps F] in
theorem scr1_eq (c : Dev nD) (f : Buf (Elt F) ((c : Thread nD τ).loc cc0_scratch1)) :
    scr1 c f = (((c : Thread nD τ).loc cc0_scratch1) ↦{fullShare} f : sProp 𝕄) := by unfold scr1; rw [View.set_whole]
omit [FloatOps F] in
theorem scr2_eq (c : Dev nD) (f : Buf (Elt F) ((c : Thread nD τ).loc cc0_scratch2)) :
    scr2 c f = (((c : Thread nD τ).loc cc0_scratch2) ↦{fullShare} f : sProp 𝕄) := by unfold scr2; rw [View.set_whole]

/-! ## The schedule -/

def barPayR (c : Dev nD) : sProp 𝕄 := iprop((∃ f, scr0 (rowp c) f) ∗ reached ER (rRow (rowp c)) 0)
def barPayC (c : Dev nD) : sProp 𝕄 := iprop((∃ f, scr1 (colp c) f) ∗ reached ER (rCol (colp c)) 0)
def rRowPay (c : Dev nD) : sProp 𝕄 := scr0 c (rowH (xs m ρ) c)
def rColPay (c : Dev nD) : sProp 𝕄 := scr1 c (colH (xs m ρ) c)
def sRowPay (c : Dev nD) : sProp 𝕄 := xrow m ρ c
def sColPay (c : Dev nD) : sProp 𝕄 := scr2 c (colS (xs m ρ) c)

abbrev IsBar (g : GSem nD τ sig) : Prop := g.1.2 = .tc ∧ g.2 = .reg barS
abbrev IsXfer (g : GSem nD τ sig) : Prop :=
  g.1.2 = .tc ∧ (g.2 = .dma sRowS ∨ g.2 = .dma sColS ∨ g.2 = .dma rRowS ∨ g.2 = .dma rColS)
abbrev IsRowSem (s : SemLoc sig) : Prop := s = .dma sRowS ∨ s = .dma rRowS

def rd : Rounds.Schedule (GSem nD τ sig) Bool 𝕄 where
  duties g r := if r = 0 ∧ IsBar g then Finset.univ else if r = 0 ∧ IsXfer g then {false} else ∅
  unitless _ := False
  amount g _ _ := if g.2 = .reg barS then 1 else if IsRowSem g.2 then NR else NC
  payload g _ d :=
    if g.2 = .reg barS then (if d then barPayC g.1.1 else barPayR g.1.1)
    else if g.2 = .dma rRowS then rRowPay m ρ g.1.1
    else if g.2 = .dma rColS then rColPay m ρ g.1.1
    else if g.2 = .dma sRowS then sRowPay m ρ g.1.1
    else if g.2 = .dma sColS then sColPay m ρ g.1.1
    else iprop(emp)
  amount_pos g _ _ _ := by
    by_cases h : g.2 = .reg barS
    · rw [if_pos h]; exact Nat.one_pos
    · rw [if_neg h]; split
      · exact NR_pos
      · exact NC_pos

instance rd_payload_storable (g : GSem nD τ sig) (r : ℕ) (d : Bool) :
    BI.Storable (upEmb : UEmb _ 𝕄) ((rd (F := F) m ρ).payload g r d) := by
  show BI.Storable upEmb (if g.2 = .reg barS then (if d then barPayC g.1.1 else barPayR g.1.1)
    else if g.2 = .dma rRowS then rRowPay m ρ g.1.1
    else if g.2 = .dma rColS then rColPay m ρ g.1.1
    else if g.2 = .dma sRowS then sRowPay m ρ g.1.1
    else if g.2 = .dma sColS then sColPay m ρ g.1.1
    else iprop(emp))
  unfold barPayC barPayR rRowPay rColPay sRowPay sColPay
  (repeat' split) <;> infer_instance

/-! ### The schedule's tables -/

section Sched
variable (c : Dev nD)

theorem csem_ne : ∀ i j : Fin 5, i ≠ j → (csem i : SemLoc sig) ≠ csem j := by decide
theorem sRow_ne_bar : (SemLoc.dma sRowS : SemLoc sig) ≠ .reg barS := fun h => by cases h
theorem sCol_ne_bar : (SemLoc.dma sColS : SemLoc sig) ≠ .reg barS := fun h => by cases h
theorem rRow_ne_bar : (SemLoc.dma rRowS : SemLoc sig) ≠ .reg barS := fun h => by cases h
theorem rCol_ne_bar : (SemLoc.dma rColS : SemLoc sig) ≠ .reg barS := fun h => by cases h
theorem not_row_sCol : ¬ IsRowSem (SemLoc.dma sColS : SemLoc sig) := fun h => h.elim (csem_ne 2 1 (by decide)) (csem_ne 2 3 (by decide))
theorem not_row_rCol : ¬ IsRowSem (SemLoc.dma rColS : SemLoc sig) := fun h => h.elim (csem_ne 4 1 (by decide)) (csem_ne 4 3 (by decide))

omit [FloatOps F] in
theorem duties_bar : (rd (F := F) m ρ).duties (barCell c) 0 = Finset.univ := by dsimp only [rd]; exact if_pos ⟨rfl, rfl, rfl⟩
omit [FloatOps F] in
theorem duties_sRow : (rd (F := F) m ρ).duties (sRow c) 0 = {false} := by
  dsimp only [rd]; rw [if_neg (fun h => sRow_ne_bar h.2.2)]; exact if_pos ⟨rfl, rfl, .inl rfl⟩
omit [FloatOps F] in
theorem duties_sCol : (rd (F := F) m ρ).duties (sCol c) 0 = {false} := by
  dsimp only [rd]; rw [if_neg (fun h => sCol_ne_bar h.2.2)]; exact if_pos ⟨rfl, rfl, .inr (.inl rfl)⟩
omit [FloatOps F] in
theorem duties_rRow : (rd (F := F) m ρ).duties (rRow c) 0 = {false} := by
  dsimp only [rd]; rw [if_neg (fun h => rRow_ne_bar h.2.2)]; exact if_pos ⟨rfl, rfl, .inr (.inr (.inl rfl))⟩
omit [FloatOps F] in
theorem duties_rCol : (rd (F := F) m ρ).duties (rCol c) 0 = {false} := by
  dsimp only [rd]; rw [if_neg (fun h => rCol_ne_bar h.2.2)]; exact if_pos ⟨rfl, rfl, .inr (.inr (.inr rfl))⟩
omit [FloatOps F] in
theorem duties_later (g : GSem nD τ sig) : ∀ r, 1 ≤ r → (rd (F := F) m ρ).duties g r = ∅ :=
  fun r hr => by dsimp only [rd]; rw [if_neg fun h => by omega, if_neg fun h => by omega]

omit [FloatOps F] in
theorem amount_bar (d : Bool) : (rd (F := F) m ρ).amount (barCell c) 0 d = 1 := by dsimp only [rd]; exact if_pos rfl
omit [FloatOps F] in
theorem amount_sRow (d : Bool) : (rd (F := F) m ρ).amount (sRow c) 0 d = NR := by
  dsimp only [rd]; rw [if_neg sRow_ne_bar]; exact if_pos (.inl rfl)
omit [FloatOps F] in
theorem amount_rRow (d : Bool) : (rd (F := F) m ρ).amount (rRow c) 0 d = NR := by
  dsimp only [rd]; rw [if_neg rRow_ne_bar]; exact if_pos (.inr rfl)
omit [FloatOps F] in
theorem amount_sCol (d : Bool) : (rd (F := F) m ρ).amount (sCol c) 0 d = NC := by
  dsimp only [rd]; rw [if_neg sCol_ne_bar]; exact if_neg not_row_sCol
omit [FloatOps F] in
theorem amount_rCol (d : Bool) : (rd (F := F) m ρ).amount (rCol c) 0 d = NC := by
  dsimp only [rd]; rw [if_neg rCol_ne_bar]; exact if_neg not_row_rCol

omit [FloatOps F] in
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_sRow : (rd (F := F) m ρ).expect (sRow c) 0 = NR := by
  unfold Schedule.expect Schedule.amountOf; rw [duties_sRow, Finset.sum_singleton, amount_sRow]
omit [FloatOps F] in
theorem expect_sCol : (rd (F := F) m ρ).expect (sCol c) 0 = NC := by
  unfold Schedule.expect Schedule.amountOf; rw [duties_sCol, Finset.sum_singleton, amount_sCol]
omit [FloatOps F] in
theorem expect_rRow : (rd (F := F) m ρ).expect (rRow c) 0 = NR := by
  unfold Schedule.expect Schedule.amountOf; rw [duties_rRow, Finset.sum_singleton, amount_rRow]
omit [FloatOps F] in
theorem expect_rCol : (rd (F := F) m ρ).expect (rCol c) 0 = NC := by
  unfold Schedule.expect Schedule.amountOf; rw [duties_rCol, Finset.sum_singleton, amount_rCol]

omit [FloatOps F] in
theorem payload_bar_false : (rd (F := F) m ρ).payload (barCell c) 0 false = barPayR c := by
  dsimp only [rd]; rw [if_pos rfl]; exact if_neg Bool.false_ne_true
omit [FloatOps F] in
theorem payload_bar_true : (rd (F := F) m ρ).payload (barCell c) 0 true = barPayC c := by dsimp only [rd]; rw [if_pos rfl, if_pos rfl]
omit [FloatOps F] in
theorem payload_rRow (d : Bool) : (rd (F := F) m ρ).payload (rRow c) 0 d = rRowPay m ρ c := by
  dsimp only [rd]; rw [if_neg rRow_ne_bar, if_pos rfl]
omit [FloatOps F] in
theorem payload_rCol (d : Bool) : (rd (F := F) m ρ).payload (rCol c) 0 d = rColPay m ρ c := by
  dsimp only [rd]; rw [if_neg rCol_ne_bar, if_neg (csem_ne 4 3 (by decide)), if_pos rfl]
omit [FloatOps F] in
theorem payload_sRow (d : Bool) : (rd (F := F) m ρ).payload (sRow c) 0 d = sRowPay m ρ c := by
  dsimp only [rd]; rw [if_neg sRow_ne_bar, if_neg (csem_ne 1 3 (by decide)), if_neg (csem_ne 1 4 (by decide)), if_pos rfl]
omit [FloatOps F] in
theorem payload_sCol (d : Bool) : (rd (F := F) m ρ).payload (sCol c) 0 d = sColPay m ρ c := by
  dsimp only [rd]; rw [if_neg sCol_ne_bar, if_neg (csem_ne 2 3 (by decide)), if_neg (csem_ne 2 4 (by decide)), if_neg (csem_ne 2 1 (by decide)), if_pos rfl]

omit [FloatOps F] in
/-- What the signal to the row neighbour hands it: this device's row-halo buffer and its row receive cell at round 0. -/
theorem payload_bar_rowp : (rd (F := F) m ρ).payload (barCell (rowp c)) 0 false = iprop((∃ f, scr0 c f) ∗ reached ER (rRow c) 0) := by
  rw [payload_bar_false]; unfold barPayR; rw [rowp_rowp]
omit [FloatOps F] in
theorem payload_bar_colp : (rd (F := F) m ρ).payload (barCell (colp c)) 0 true = iprop((∃ f, scr1 c f) ∗ reached ER (rCol c) 0) := by
  rw [payload_bar_true]; unfold barPayC; rw [colp_colp]

omit [FloatOps F] in
/-- The whole round of the barrier cell: both neighbours' payloads. -/
theorem rest_bar : bigSep ((rd (F := F) m ρ).duties (barCell c) 0 \ ∅) (fun d => (rd (F := F) m ρ).payload (barCell c) 0 d) = iprop(barPayR c ∗ barPayC c) := by
  rw [Finset.sdiff_empty, duties_bar, bigSep_univ_eq_bigSepL [false, true] (by decide) (by decide), bigSepL_cons_cons, bigSepL_singleton,
    payload_bar_false, payload_bar_true]
  rfl
omit [FloatOps F] in
theorem rest_sRow : bigSep ((rd (F := F) m ρ).duties (sRow c) 0 \ ∅) (fun d => (rd (F := F) m ρ).payload (sRow c) 0 d) = sRowPay m ρ c := by
  rw [Finset.sdiff_empty, duties_sRow, bigSep_singleton, payload_sRow]
omit [FloatOps F] in
theorem rest_sCol : bigSep ((rd (F := F) m ρ).duties (sCol c) 0 \ ∅) (fun d => (rd (F := F) m ρ).payload (sCol c) 0 d) = sColPay m ρ c := by
  rw [Finset.sdiff_empty, duties_sCol, bigSep_singleton, payload_sCol]
omit [FloatOps F] in
theorem rest_rRow : bigSep ((rd (F := F) m ρ).duties (rRow c) 0 \ ∅) (fun d => (rd (F := F) m ρ).payload (rRow c) 0 d) = rRowPay m ρ c := by
  rw [Finset.sdiff_empty, duties_rRow, bigSep_singleton, payload_rRow]
omit [FloatOps F] in
theorem rest_rCol : bigSep ((rd (F := F) m ρ).duties (rCol c) 0 \ ∅) (fun d => (rd (F := F) m ρ).payload (rCol c) 0 d) = rColPay m ρ c := by
  rw [Finset.sdiff_empty, duties_rCol, bigSep_singleton, payload_rCol]

end Sched

/-! ## What each device owes at launch; the levels -/

/-- The two transfers' credits; then the two barrier units, summed so that the first signal (to the row neighbour) peels
    the last summand and the second (to the column neighbour) the one before it. -/
def Oxfer (c : Dev nD) : CellTallies nD τ sig Unit := tallyAt (rCol (colp c)) () NC + tallyAt (rRow (rowp c)) () NR
def O₁ (c : Dev nD) : CellTallies nD τ sig Unit := Oxfer c + tallyAt (barCell (colp c)) () 1
def O₀ (c : Dev nD) : CellTallies nD τ sig Unit := O₁ c + tallyAt (barCell (rowp c)) () 1

def L (g : GSem nD τ sig) : Finset Unit := if g.1.2 = .tc then {()} else ∅
def lv (g : GSem nD τ sig) (_ : Unit) : ℕ := if g.2 = .reg barS then 1 else if (g.2 = .dma rRowS ∨ g.2 = .dma rColS) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rRow (c : Dev nD) (u : Unit) : lv (rRow c) u = 2 := by dsimp only [lv]; rw [if_neg rRow_ne_bar, if_pos (.inl rfl)]
theorem lv_rCol (c : Dev nD) (u : Unit) : lv (rCol c) u = 2 := by dsimp only [lv]; rw [if_neg rCol_ne_bar, if_pos (.inr rfl)]

theorem Oxfer_pos {c : Dev nD} {g : GSem nD τ sig} {u : Unit} (h : 0 < Oxfer c g u) : g = rCol (colp c) ∨ g = rRow (rowp c) := by
  unfold Oxfer at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rCol (colp c) ∨ g = rRow (rowp c) ∨ g = barCell (colp c) ∨ g = barCell (rowp c) := by
  unfold O₀ O₁ at h
  rw [Pi.add_apply, Finsupp.add_apply, Pi.add_apply, Finsupp.add_apply, tallyAt_apply, tallyAt_apply] at h
  by_cases hx : 0 < Oxfer c g u
  · rcases Oxfer_pos hx with h1 | h1
    · exact .inl h1
    · exact .inr (.inl h1)
  · have hx0 : Oxfer c g u = 0 := Nat.eq_zero_of_not_pos hx
    by_contra hn
    rw [not_or, not_or, not_or] at hn
    rw [hx0, if_neg (fun h' => hn.2.2.1 h'.1), if_neg (fun h' => hn.2.2.2 h'.1)] at h
    exact Nat.lt_irrefl 0 h

omit [FloatOps F] in
/-- A wait on a cell of level 0 (a staging cell, a send cell) is allowed whatever of its launch debt the device still owes. -/
theorem mayWait_low (c : Dev nD) (q : DmaSem sig) (hq : SemLoc.dma q ≠ .dma rRowS ∧ SemLoc.dma q ≠ .dma rColS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by cases h), if_neg (fun h => h.elim hq.1 hq.2)])
      (fun g u hg => by
        rcases O₀_pos hg with rfl | rfl | rfl | rfl
        · rw [lv_rCol]; decide
        · rw [lv_rRow]; decide
        · rw [lv_bar]; decide
        · rw [lv_bar]; decide)
  · rw [MayWait_zero]; iintro -; iempintro

omit [FloatOps F] in
/-- At its barrier wait a device owes the two transfers' credits only: receive cells, above its barrier cell. -/
theorem mayWait_bar (c : Dev nD) :
    (levAts L lv : sProp 𝕄) ⊢ MayWait (c : Thread nD τ) (.reg barS) () (Oxfer c) :=
  MayOwe.of_cut (L := L) (lev := lv) 1 (fun p hp => by rw [Finset.mem_singleton.mp hp, L_tc]; exact Finset.mem_singleton_self _)
    (fun g u hg => by rcases Oxfer_pos hg with rfl | rfl <;> exact Finset.mem_singleton_self _)
    (fun p hp => by rw [Finset.mem_singleton.mp hp]; exact (lv_bar c ()).le)
    (fun g u hg => by
      rcases Oxfer_pos hg with rfl | rfl
      · rw [lv_rCol]; decide
      · rw [lv_rRow]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := outFinal (xs m ρ) c

/-- The cells' invariants device `c`'s body opens: its own five, both neighbours' barrier cells (its signals), the row
    neighbour's row receive cell and the column neighbour's column receive cell (its transfers). -/
def invs (K : Dev nD × Fin 5 → ℕ) (c : Dev nD) : sProp 𝕄 :=
  iprop(cellInv ER (rd m ρ) (K (c, 0)) (barCell c) ∗ cellInv ER (rd m ρ) (K (c, 1)) (sRow c) ∗ cellInv ER (rd m ρ) (K (c, 2)) (sCol c)
    ∗ cellInv ER (rd m ρ) (K (c, 3)) (rRow c) ∗ cellInv ER (rd m ρ) (K (c, 4)) (rCol c)
    ∗ cellInv ER (rd m ρ) (K (rowp c, 0)) (barCell (rowp c)) ∗ cellInv ER (rd m ρ) (K (colp c, 0)) (barCell (colp c))
    ∗ cellInv ER (rd m ρ) (K (rowp c, 3)) (rRow (rowp c)) ∗ cellInv ER (rd m ρ) (K (colp c, 4)) (rCol (colp c)))

instance invs_persistent (K : Dev nD × Fin 5 → ℕ) (c : Dev nD) : BI.Persistent (invs m ρ K c) := by unfold invs; infer_instance

/-- The rounds reached that device `c` cites: of the cells it pays, and of its own send and receive cells. -/
def reaches (c : Dev nD) : sProp 𝕄 :=
  iprop(reached ER (barCell (rowp c)) 0 ∗ reached ER (barCell (colp c)) 0 ∗ reached ER (rRow (rowp c)) 0 ∗ reached ER (rCol (colp c)) 0
    ∗ reached ER (sRow c) 0 ∗ reached ER (sCol c) 0 ∗ reached ER (rRow c) 0 ∗ reached ER (rCol c) 0)

instance reaches_persistent (c : Dev nD) : BI.Persistent (reaches (F := F) c) := by unfold reaches; infer_instance

/-- The tokens of the six duties device `c` pays. -/
def payToks (c : Dev nD) : sProp 𝕄 :=
  iprop(dutyTok ER (barCell (rowp c)) 0 false ∗ dutyTok ER (barCell (colp c)) 0 true ∗ dutyTok ER (rRow (rowp c)) 0 false ∗ dutyTok ER (rCol (colp c)) 0 false
    ∗ dutyTok ER (sRow c) 0 false ∗ dutyTok ER (sCol c) 0 false)

/-- Its positions: round 0 of its five cells, nothing taken. -/
def poss (c : Dev nD) : sProp 𝕄 :=
  iprop(atPos ER (barCell c) 0 ∅ 0 ∗ atPos ER (sRow c) 0 ∅ 0 ∗ atPos ER (sCol c) 0 ∅ 0 ∗ atPos ER (rRow c) 0 ∅ 0 ∗ atPos ER (rCol c) 0 ∅ 0)

def ghost (K : Dev nD × Fin 5 → ℕ) (c : Dev nD) : sProp 𝕄 :=
  iprop(invs m ρ K c ∗ reaches c ∗ poss c ∗ payToks c)

/-- What device `c`'s body starts from: the ghost state at some names, the credit other devices owe its barrier and
    receive cells, and the level facts. -/
def start (c : Dev nD) : sProp 𝕄 :=
  iprop((∃ K, ghost m ρ K c) ∗ cred (tallyAt (barCell c) () 2) ∗ cred (tallyAt (rRow c) () NR) ∗ cred (tallyAt (rCol c) () NC) ∗ levAts L lv)

def Φ₀ (c : Dev nD) : sProp 𝕄 := iprop(start m ρ c ∗ (∃ f, scr0 c f) ∗ (∃ f, scr1 c f) ∗ (∃ f, scr2 c f))
/-- After the point: the two halo buffers holding the neighbours' edges, the staged edge column, the four own cells at
    zero, closed. -/
def Φ₁ (c : Dev nD) : sProp 𝕄 :=
  iprop(scr0 c (rowH (xs m ρ) c) ∗ scr1 c (colH (xs m ρ) c) ∗ scr2 c (colS (xs m ρ) c)
    ∗ semVal (sRow c) 0 ∗ semVal (sCol c) 0 ∗ semVal (rRow c) 0 ∗ semVal (rCol c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Proto

end
-- ==== Proof.Bits.Body.lean ====
/-
  One device's body, stepped from the protocol's ghost state to the state the pipeline takes back.

  In program order: the two barrier signals hand each neighbour this device's halo buffer; the block is loaded, its edge
  column staged, the local stencil stored; the barrier wait returns both neighbours' halo buffers; the edge row is cut out of
  the staged block and sent to the row neighbour, the staged column to the column neighbour; the two receive waits return
  this device's halo buffers holding the neighbours' edges; the result is the stored local stencil plus the two halo terms;
  the two send waits return the edge row and the staged column; the four own cells, their rounds done, are closed at zero and
  the staged block is put back together.
-/
import proofs.«900188_g7700000000000189_dist_halo2d_stencil_xy_m128_n128_v7x_xy2x2_bf16_1_alg».proof.Proof.Bits.Proto
import Idealize.ShloMosaic.Lib.Pipeline.FrameBody
import Idealize.ShloMosaic.Lib.Pipeline.Value
import Idealize.ShloMosaic.Lib.Tactic

noncomputable section

namespace Cert.Kernel.Body

open Cert.Kernel Cert.Kernel.Gen Cert.Kernel.Halo Cert.Kernel.Proto
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The schedule's payloads as points-to through the buffers' views; contents read back -/

section
variable (c : Dev nD)
omit [FloatOps F] in
theorem pl_bar_rowp : (rd (F := F) m ρ).payload (barCell (rowp c)) 0 false = iprop((∃ f, ((rhM : Memref sig .tc .vmem S1x128 .f32).view.loc (c : Thread nD τ) ↦[(rhM : Memref sig .tc .vmem S1x128 .f32).view.set]{fullShare} f)) ∗ reached ER (rRow c) 0) := by
  rw [payload_bar_rowp]; rfl
omit [FloatOps F] in
theorem pl_bar_colp : (rd (F := F) m ρ).payload (barCell (colp c)) 0 true = iprop((∃ f, ((chM : Memref sig .tc .vmem S128x1 .f32).view.loc (c : Thread nD τ) ↦[(chM : Memref sig .tc .vmem S128x1 .f32).view.set]{fullShare} f)) ∗ reached ER (rCol c) 0) := by
  rw [payload_bar_colp]; rfl
omit [FloatOps F] in
theorem pl_bar_false : (rd (F := F) m ρ).payload (barCell c) 0 false = iprop((∃ f, ((rhM : Memref sig .tc .vmem S1x128 .f32).view.loc (rowp c : Thread nD τ) ↦[(rhM : Memref sig .tc .vmem S1x128 .f32).view.set]{fullShare} f)) ∗ reached ER (rRow (rowp c)) 0) := by
  rw [payload_bar_false]; rfl
omit [FloatOps F] in
theorem pl_bar_true : (rd (F := F) m ρ).payload (barCell c) 0 true = iprop((∃ f, ((chM : Memref sig .tc .vmem S128x1 .f32).view.loc (colp c : Thread nD τ) ↦[(chM : Memref sig .tc .vmem S128x1 .f32).view.set]{fullShare} f)) ∗ reached ER (rCol (colp c)) 0) := by
  rw [payload_bar_true]; rfl
omit [FloatOps F] in
/-- The barrier round's two payloads: each neighbour's halo buffer at some contents, and its receive cell at round 0. -/
theorem pay_bar_univ : bigSep Finset.univ (fun d => (rd (F := F) m ρ).payload (barCell c) 0 d)
    = iprop(((∃ f, ((rhM : Memref sig .tc .vmem S1x128 .f32).view.loc (rowp c : Thread nD τ) ↦[(rhM : Memref sig .tc .vmem S1x128 .f32).view.set]{fullShare} f)) ∗ reached ER (rRow (rowp c)) 0)
        ∗ ((∃ f, ((chM : Memref sig .tc .vmem S128x1 .f32).view.loc (colp c : Thread nD τ) ↦[(chM : Memref sig .tc .vmem S128x1 .f32).view.set]{fullShare} f)) ∗ reached ER (rCol (colp c)) 0)) := by
  rw [bigSep_univ_eq_bigSepL [false, true] (by decide) (by decide), bigSepL_cons_cons, bigSepL_singleton, pl_bar_false, pl_bar_true]
  rfl

/-- The staged block less its edge row. -/
def xrest : sProp 𝕄 :=
  (rowSrc c).view.loc (c : Thread nD τ) ↦[(xM : Memref sig .tc .vmem S128x128 .f32).view.set \ (rowSrc c).view.set]{fullShare} xstg m ρ c

omit [FloatOps F] in
theorem x_split :
    ((xM : Memref sig .tc .vmem S128x128 .f32).view.loc (c : Thread nD τ) ↦[(xM : Memref sig .tc .vmem S128x128 .f32).view.set]{fullShare} xstg m ρ c : sProp 𝕄)
      ⊣⊢ iprop(xrow m ρ c ∗ xrest m ρ c) :=
  pointsTo_split_subset (by rw [View.set_whole]; exact Finset.subset_univ _)

omit [FloatOps F] in
theorem pl_rRow_rowp (d : Bool) : (rd (F := F) m ρ).payload (rRow (rowp c)) 0 d
    = ((rhM : Memref sig .tc .vmem S1x128 .f32).view.loc (rowp c : Thread nD τ) ↦[(rhM : Memref sig .tc .vmem S1x128 .f32).view.set]{fullShare} (rowSrc c).view.read (Elt F) (xstg m ρ c)) := by
  rw [payload_rRow]; unfold rRowPay scr0 rowH xs; rw [rowp_rowp]
omit [FloatOps F] in
theorem pl_sRow (d : Bool) : (rd (F := F) m ρ).payload (sRow c) 0 d
    = ((rowSrc c).view.loc (c : Thread nD τ) ↦[(rowSrc c).view.set]{fullShare} xstg m ρ c) := by
  rw [payload_sRow]; rfl
omit [FloatOps F] in
/-- Writing the whole row-halo buffer leaves what was written, whatever it held. -/
theorem landed_row (c' : Dev nD) (fd : Buf (Elt F) ((rhM : Memref sig .tc .vmem S1x128 .f32).view.loc (c' : Thread nD τ))) (X : S1x128.Idx → Elt F .f32) :
    (rhM : Memref sig .tc .vmem S1x128 .f32).view.write (Elt F) fd X Finset.univ = X := by
  show (View.whole cc0_scratch0).write (Elt F) fd X Finset.univ = X
  exact View.write_whole_univ _ _ _
omit [FloatOps F] in
theorem landed_col (c' : Dev nD) (fd : Buf (Elt F) ((chM : Memref sig .tc .vmem S128x1 .f32).view.loc (c' : Thread nD τ))) (X : S128x1.Idx → Elt F .f32) :
    (chM : Memref sig .tc .vmem S128x1 .f32).view.write (Elt F) fd X Finset.univ = X := by
  show (View.whole cc0_scratch1).write (Elt F) fd X Finset.univ = X
  exact View.write_whole_univ _ _ _
end

section Tables
variable (c : Dev nD)
omit [FloatOps F] in
theorem pl_rRow (d : Bool) : (rd (F := F) m ρ).payload (rRow c) 0 d
    = ((rhM : Memref sig .tc .vmem S1x128 .f32).view.loc (c : Thread nD τ) ↦[(rhM : Memref sig .tc .vmem S1x128 .f32).view.set]{fullShare} rowH (xs m ρ) c) := by
  rw [payload_rRow]; rfl
omit [FloatOps F] in
theorem pl_rCol (d : Bool) : (rd (F := F) m ρ).payload (rCol c) 0 d
    = ((chM : Memref sig .tc .vmem S128x1 .f32).view.loc (c : Thread nD τ) ↦[(chM : Memref sig .tc .vmem S128x1 .f32).view.set]{fullShare} colH (xs m ρ) c) := by
  rw [payload_rCol]; rfl

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S128x128 .f32).view.readAt (Elt F) (Rect.unit (s := S128x128) ![0, 0] S128x128.size Facts₀.inb_S128x128_S128x128_0_0).toLoadRect f = f :=
  Memref.readAt_unit_zero (Elt F) cc0_stg0_0 hz2 _ f
omit [FloatOps F] in
theorem read_o (f : (cc0_stg1_0 : Ref sig .tc).ty.Contents (Elt F)) :
    (oM : Memref sig .tc .vmem S128x128 .f32).view.readAt (Elt F) (Rect.unit (s := S128x128) ![0, 0] S128x128.size Facts₀.inb_S128x128_S128x128_0_0).toLoadRect f = f :=
  Memref.readAt_unit_zero (Elt F) cc0_stg1_0 hz2 _ f
omit [FloatOps F] in
theorem read_rh (f : (cc0_scratch0 : Ref sig .tc).ty.Contents (Elt F)) :
    (rhM : Memref sig .tc .vmem S1x128 .f32).view.readAt (Elt F) (Rect.unit (s := S1x128) ![0, 0] S1x128.size Facts₀.inb_S1x128_S1x128_0_0).toLoadRect f = f :=
  Memref.readAt_unit_zero (Elt F) cc0_scratch0 hz2 _ f
omit [FloatOps F] in
theorem read_ch (f : (cc0_scratch1 : Ref sig .tc).ty.Contents (Elt F)) :
    (chM : Memref sig .tc .vmem S128x1 .f32).view.readAt (Elt F) (Rect.unit (s := S128x1) ![0, 0] S128x1.size Facts₀.inb_S128x1_S128x1_0_0).toLoadRect f = f :=
  Memref.readAt_unit_zero (Elt F) cc0_scratch1 hz2 _ f
omit [FloatOps F] in
theorem writes_cs (f w : (cc0_scratch2 : Ref sig .tc).ty.Contents (Elt F)) :
    (csM : Memref sig .tc .vmem S128x1 .f32).view.writes (Elt F) f [⟨Rect.unit (s := S128x1) ![0, 0] S128x1.size Facts₀.inb_S128x1_S128x1_0_0, w⟩] = w := by
  show ((csM : Memref sig .tc .vmem S128x1 .f32).access (Rect.unit (s := S128x1) ![0, 0] S128x1.size Facts₀.inb_S128x1_S128x1_0_0) : View sig .tc _ _ _).write (Elt F) f w Finset.univ = w
  exact Memref.write_access_unit_zero_univ (Elt F) cc0_scratch2 hz2 _ f w
omit [FloatOps F] in
theorem writes_o (f w : (cc0_stg1_0 : Ref sig .tc).ty.Contents (Elt F)) :
    (oM : Memref sig .tc .vmem S128x128 .f32).view.writes (Elt F) f [⟨Rect.unit (s := S128x128) ![0, 0] S128x128.size Facts₀.inb_S128x128_S128x128_0_0, w⟩] = w := by
  show ((oM : Memref sig .tc .vmem S128x128 .f32).access (Rect.unit (s := S128x128) ![0, 0] S128x128.size Facts₀.inb_S128x128_S128x128_0_0) : View sig .tc _ _ _).write (Elt F) f w Finset.univ = w
  exact Memref.write_access_unit_zero_univ (Elt F) cc0_stg1_0 hz2 _ f w
omit [FloatOps F] in
/-- Two whole-buffer stores in a row leave the later one. -/
theorem writes_o2 (f a b : (cc0_stg1_0 : Ref sig .tc).ty.Contents (Elt F)) :
    (oM : Memref sig .tc .vmem S128x128 .f32).view.writes (Elt F) f
      [⟨Rect.unit (s := S128x128) ![0, 0] S128x128.size Facts₀.inb_S128x128_S128x128_0_0, a⟩,
       ⟨Rect.unit (s := S128x128) ![0, 0] S128x128.size Facts₀.inb_S128x128_S128x128_0_0, b⟩] = a :=
  writes_o ((oM : Memref sig .tc .vmem S128x128 .f32).view.writes (Elt F) f [⟨Rect.unit (s := S128x128) ![0, 0] S128x128.size Facts₀.inb_S128x128_S128x128_0_0, b⟩]) a
omit [FloatOps F] in
theorem read_xW (f : (cc0_stg0_0 : Ref sig .tc).ty.Contents (Elt F)) :
    View.readAt (Elt F) (View.whole cc0_stg0_0) (Rect.unit (s := S128x128) ![0, 0] S128x128.size Facts₀.inb_S128x128_S128x128_0_0).toLoadRect f = f :=
  read_x f
/-- A whole-buffer load after one whole-buffer store reads the stored value. -/
theorem readCov_oW (w : S128x128.Idx → Elt F .f32) :
    (View.whole cc0_stg1_0).readCov [(⟨Rect.unit (s := S128x128) ![0, 0] S128x128.size Facts₀.inb_S128x128_S128x128_0_0, w⟩ : View.Piece (Elt F) S128x128 .f32)]
      (Rect.unit (s := S128x128) ![0, 0] S128x128.size Facts₀.inb_S128x128_S128x128_0_0).toLoadRect = w :=
  View.readCov_unit_zero _ hz2 _ w
end Tables

section Sends
variable (K : Dev nD × Fin 5 → ℕ)

/-- The row transfer: the edge row of the staged block into the row neighbour's row-halo buffer, paying the device's row
    send duty and the neighbour's row receive duty. -/
theorem wp_send_row (c n : Dev nD) (hn : n = rowp c)
    {hsc : (rhM : Memref sig (Dev.tc n : Thread nD τ).2.kind .vmem S1x128 .f32).view.ref.isScScratch = false}
    {hsrc : (rowSrc c).view.WordExact} {hdst : (rhM : Memref sig .tc .vmem S1x128 .f32).view.WordExact}
    {hsem : DmaTarget.Typed .vmem (.dma rRowS) (.remote (Dev.tc n : Thread nD τ) (rhM : Memref sig .tc .vmem S1x128 .f32) (.dma sRowS) hsc)}
    {α : Type} {Q : α → sProp 𝕄} {k : PUnit → Prog (TpuEff nD τ sig (Elt F) Λ₀ .tc) α}
    (fn : Buf (Elt F) ((rhM : Memref sig .tc .vmem S1x128 .f32).view.loc (rowp c : Thread nD τ))) (O : CellTallies nD τ sig Unit) (W : Waits sig Unit) :
    iprop(cellInv ER (rd m ρ) (K (c, 1)) (sRow c) ∗ cellInv ER (rd m ρ) (K (rowp c, 3)) (rRow (rowp c))
        ∗ xrow m ρ c ∗ scr0 (rowp c) fn
        ∗ owes (c : Thread nD τ) (O + tallyAt (rRow (rowp c)) () NR) W
        ∗ dutyTok ER (sRow c) 0 false ∗ reached ER (sRow c) 0
        ∗ dutyTok ER (rRow (rowp c)) 0 false ∗ reached ER (rRow (rowp c)) 0)
      ⊢ iprop(((cred (tallyAt (sRow c) () NR) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowSrc c) (.remote (Dev.tc n : Thread nD τ) rhM (.dma sRowS) hsc) (.dma rRowS) hsrc hdst hsem) k) Q) := by
  subst hn
  unfold xrow scr0
  exact Rounds.wp_send_pointsTo 𝒱₀ ER (rd m ρ) (c : Thread nD τ) none (κ₁ := K (c, 1)) (κ₂ := K (rowp c, 3))
    (src := rowSrc c) (dst := rhM) (c' := (rowp c : Thread nD τ)) (q := fullShare) (fs := xstg m ρ c)
    (r₁ := 0) (r₂ := 0) (d₁ := false) (d₂ := false) (fd := fn)
    (by rw [duties_sRow]; exact Finset.mem_singleton_self _) (by rw [duties_rRow]; exact Finset.mem_singleton_self _)
    () () NR rfl (amount_sRow m ρ c false) (amount_rRow m ρ (rowp c) false) O rfl (W := W)
    (by rw [pl_sRow])
    (by rw [pl_rRow_rowp, landed_row])

omit [FloatOps F] in
theorem pl_rCol_colp (c : Dev nD) (d : Bool) : (rd (F := F) m ρ).payload (rCol (colp c)) 0 d
    = ((chM : Memref sig .tc .vmem S128x1 .f32).view.loc (colp c : Thread nD τ) ↦[(chM : Memref sig .tc .vmem S128x1 .f32).view.set]{fullShare} colS (xs m ρ) c) := by
  rw [payload_rCol]; unfold rColPay scr1 colH; rw [colp_colp]
omit [FloatOps F] in
theorem pl_sCol (c : Dev nD) (d : Bool) : (rd (F := F) m ρ).payload (sCol c) 0 d
    = ((csM : Memref sig .tc .vmem S128x1 .f32).view.loc (c : Thread nD τ) ↦[(csM : Memref sig .tc .vmem S128x1 .f32).view.set]{fullShare} colS (xs m ρ) c) := by
  rw [payload_sCol]; rfl

/-- The column transfer: the staged edge column into the column neighbour's column-halo buffer. -/
theorem wp_send_col (c n : Dev nD) (hn : n = colp c)
    {hsc : (chM : Memref sig (Dev.tc n : Thread nD τ).2.kind .vmem S128x1 .f32).view.ref.isScScratch = false}
    {hsrc : (csM : Memref sig .tc .vmem S128x1 .f32).view.WordExact} {hdst : (chM : Memref sig .tc .vmem S128x1 .f32).view.WordExact}
    {hsem : DmaTarget.Typed .vmem (.dma rColS) (.remote (Dev.tc n : Thread nD τ) (chM : Memref sig .tc .vmem S128x1 .f32) (.dma sColS) hsc)}
    {α : Type} {Q : α → sProp 𝕄} {k : PUnit → Prog (TpuEff nD τ sig (Elt F) Λ₀ .tc) α}
    (fn : Buf (Elt F) ((chM : Memref sig .tc .vmem S128x1 .f32).view.loc (colp c : Thread nD τ))) (W : Waits sig Unit) :
    iprop(cellInv ER (rd m ρ) (K (c, 2)) (sCol c) ∗ cellInv ER (rd m ρ) (K (colp c, 4)) (rCol (colp c))
        ∗ scr2 c (colS (xs m ρ) c) ∗ scr1 (colp c) fn
        ∗ owes (c : Thread nD τ) (tallyAt (rCol (colp c)) () NC) W
        ∗ dutyTok ER (sCol c) 0 false ∗ reached ER (sCol c) 0
        ∗ dutyTok ER (rCol (colp c)) 0 false ∗ reached ER (rCol (colp c)) 0)
      ⊢ iprop(((cred (tallyAt (sCol c) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) chM (.dma sColS) hsc) (.dma rColS) hsrc hdst hsem) k) Q) := by
  subst hn
  unfold scr2 scr1
  exact Rounds.wp_send_pointsTo 𝒱₀ ER (rd m ρ) (c : Thread nD τ) none (κ₁ := K (c, 2)) (κ₂ := K (colp c, 4))
    (src := csM) (dst := chM) (c' := (colp c : Thread nD τ)) (q := fullShare) (fs := colS (xs m ρ) c)
    (r₁ := 0) (r₂ := 0) (d₁ := false) (d₂ := false) (fd := fn)
    (by rw [duties_sCol]; exact Finset.mem_singleton_self _) (by rw [duties_rCol]; exact Finset.mem_singleton_self _)
    () () NC rfl (amount_sCol m ρ c false) (amount_rCol m ρ (colp c) false) 0 (by rw [zero_add]) (W := W)
    (by rw [pl_sCol])
    (by rw [pl_rCol_colp, landed_col, show (csM : Memref sig .tc .vmem S128x1 .f32).view.read (Elt F) (colS (xs m ρ) c) = colS (xs m ρ) c from View.read_whole _ _])

end Sends

attribute [local sl_canon] dev1_eq dev2_eq dev3_eq dev4_eq
attribute [local sl_rounds] duties_bar duties_sRow duties_sCol duties_rRow duties_rCol amount_bar amount_sRow amount_sCol amount_rRow amount_rCol
  expect_bar expect_sRow expect_sCol expect_rRow expect_rCol pl_bar_false pl_bar_true pl_sRow pl_sCol pl_rRow pl_rCol landed_row landed_col
attribute [local sl_rounds high] pl_bar_rowp pl_bar_colp pl_rRow_rowp

/-! ## The body -/

section BodyProof
variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def xPts (c : Dev nD) (f : Buf (Elt F) ((xM : Memref sig .tc .vmem S128x128 .f32).view.loc (c : Thread nD τ))) : sProp 𝕄 :=
  (xM : Memref sig .tc .vmem S128x128 .f32).view.loc (c : Thread nD τ) ↦[(xM : Memref sig .tc .vmem S128x128 .f32).view.set]{fullShare} f
def oPts (c : Dev nD) (f : Buf (Elt F) ((oM : Memref sig .tc .vmem S128x128 .f32).view.loc (c : Thread nD τ))) : sProp 𝕄 :=
  (oM : Memref sig .tc .vmem S128x128 .f32).view.loc (c : Thread nD τ) ↦[(oM : Memref sig .tc .vmem S128x128 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
omit [FloatOps F] in
theorem oPts_eq (c : Dev nD) (f : Buf (Elt F) ((c : Thread nD τ).loc cc0_stg1_0)) :
    oPts c f = (((c : Thread nD τ).loc cc0_stg1_0) ↦{fullShare} f : sProp 𝕄) := by unfold oPts; rw [View.set_whole]

/-- What the pipeline hands the body at the point: the fetched block of `x`. -/
theorem before_x (c : Dev nD) (d) : (dats m ρ 0 c).before (0 : Fin 2) t₀ d = xstg m ρ c :=
  ((dats m ρ 0 c).before_fetched (0 : Fin 2) t₀ (fetch0_0 t₀) d).trans rfl

/-- What the body leaves, in the form the steps produce it. -/
def corePost (c : Dev nD) : sProp 𝕄 :=
  iprop(scr0 c (rowH (xs m ρ) c) ∗ scr1 c (colH (xs m ρ) c) ∗ scr2 c (colS (xs m ρ) c)
    ∗ semVal (sRow c) 0 ∗ semVal (sCol c) 0 ∗ semVal (rRow c) 0 ∗ semVal (rCol c) 0
    ∗ (∃ W', owes (c : Thread nD τ) 0 W') ∗ xPts c (xstg m ρ c) ∗ oPts c (outAt m ρ c))

set_option maxHeartbeats 1600000 in
/-- The body, from the ghost state and the buffers at named contents. -/
theorem sound_core (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (fo : Buf (Elt F) ((c : Thread nD τ).loc cc0_stg1_0)) :
    iprop(Proto.invs m ρ K c ∗ Proto.reaches c ∗ Proto.poss c ∗ Proto.payToks c
        ∗ cred (tallyAt (barCell c) () 2) ∗ cred (tallyAt (rRow c) () NR) ∗ cred (tallyAt (rCol c) () NC) ∗ levAts Proto.L Proto.lv
        ∗ scr0 c f0 ∗ scr1 c f1 ∗ scr2 c f2
        ∗ owes (c : Thread nD τ) (Proto.O₀ c) W
        ∗ xPts c (xstg m ρ c) ∗ oPts c fo)
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => corePost m ρ c) := by
  unfold scr0 scr1 scr2 xPts oPts Proto.invs Proto.reaches Proto.poss Proto.payToks Proto.O₀ Proto.O₁ Proto.Oxfer
  iintro ⟨⟨#Ib, #Isr, #Isc, #Irr, #Irc, #Ibr, #Ibc, #Irrp, #Ircp⟩, ⟨#Rbr, #Rbc, #Rrrp, #Rrcp, #Rsr, #Rsc, #Rrr, #Rrc⟩,
    ⟨Pb, Psr, Psc, Prr, Prc⟩, ⟨Tbr, Tbc, Trr, Trc, Tsr, Tsc⟩, Cb, Crr, Crc, #Hlev, H0, H1, H2, HO, Hx, Ho⟩
  have hmw : (levAts Proto.L Proto.lv : sProp 𝕄) ⊢ MayWait (c : Thread nD τ) (.reg barS) () (tallyAt (rCol (colp c)) () NC + tallyAt (rRow (rowp c)) () NR) := mayWait_bar c
  sl_unfold [cc0_body]
  sl_exec
  -- the barrier round's payloads, split
  ihave Hp := (Entails.of_eq (pay_bar_univ m ρ c)) $$ Pb_pay1
  icases Hp with ⟨⟨⟨%g0, G0⟩, -⟩, ⟨⟨%g1, G1⟩, -⟩⟩
  -- the edge row cut out of the staged block
  ihave Hs := (x_split m ρ c).1 $$ Hx
  icases Hs with ⟨Hxrow, Hxrest⟩
  iapply (wp_send_row m ρ K c _ (dev3_eq c) g0 (tallyAt (rCol (colp c)) () NC) _) $$ [Hxrow G0 HO Tsr Trr]
  · isplitr; · iexact Isr
    isplitr; · iexact Irrp
    isplitl [Hxrow]; · iexact Hxrow
    isplitl [G0]; · unfold scr0; iexact G0
    isplitl [HO]; · iexact HO
    isplitl [Tsr]; · iexact Tsr
    isplitr; · iexact Rsr
    isplitl [Trr]; · iexact Trr
    iexact Rrrp
  iintro ⟨Csr, HO⟩
  rw [read_x, writes_cs]
  sl_exec
  iapply (wp_send_col m ρ K c _ (dev4_eq c) g1 _) $$ [H2 G1 HO Tsc Trc]
  · isplitr; · iexact Isc
    isplitr; · iexact Ircp
    isplitl [H2]; · unfold scr2 colS xs; iexact H2
    isplitl [G1]; · unfold scr1; iexact G1
    isplitl [HO]; · iexact HO
    isplitl [Tsc]; · iexact Tsc
    isplitr; · iexact Rsc
    isplitl [Trc]; · iexact Trc
    iexact Rrcp
  iintro ⟨Csc, HO⟩
  sl_exec
  -- the four own cells, their rounds done, closed at zero
  imod (Rounds.cell_close ER (rd m ρ) (g := sRow c) (κ := K (c, 1)) (Set.mem_univ _) (fun h => h) (R := 1) (fun r hr => duties_later m ρ _ r hr)) $$ [Psr] with Zsr
  · isplitr; · iexact Isr
    iexact Psr
  imod (Rounds.cell_close ER (rd m ρ) (g := sCol c) (κ := K (c, 2)) (Set.mem_univ _) (fun h => h) (R := 1) (fun r hr => duties_later m ρ _ r hr)) $$ [Psc] with Zsc
  · isplitr; · iexact Isc
    iexact Psc
  imod (Rounds.cell_close ER (rd m ρ) (g := rRow c) (κ := K (c, 3)) (Set.mem_univ _) (fun h => h) (R := 1) (fun r hr => duties_later m ρ _ r hr)) $$ [Prr] with Zrr
  · isplitr; · iexact Irr
    iexact Prr
  imod (Rounds.cell_close ER (rd m ρ) (g := rCol c) (κ := K (c, 4)) (Set.mem_univ _) (fun h => h) (R := 1) (fun r hr => duties_later m ρ _ r hr)) $$ [Prc] with Zrc
  · isplitr; · iexact Irc
    iexact Prc
  sl_step
  unfold corePost scr0 scr1 scr2 xPts oPts
  isplitl [Prr_pay1]; · iexact Prr_pay1
  isplitl [Prc_pay1]; · iexact Prc_pay1
  isplitl [Psc_pay1]; · iexact Psc_pay1
  isplitl [Zsr]; · iexact Zsr
  isplitl [Zsc]; · iexact Zsc
  isplitl [Zrr]; · iexact Zrr
  isplitl [Zrc]; · iexact Zrc
  isplitl [HO]; · iexists _; iexact HO
  isplitl [Psr_pay1 Hxrest]
  · iapply (x_split m ρ c).2
    unfold xrow
    isplitl [Psr_pay1]; · iexact Psr_pay1
    iexact Hxrest
  · rw [writes_o2, read_rh, read_ch]
    sl_unfold_run_names
    rw [View.readCov_unit_zero (Val := Elt F) _ hz2]
    rw [read_x]
    unfold outAt outFinal outLocal mxw myw xs
    iexact Ho

def bodyPre (c : Dev nD) : sProp 𝕄 :=
  iprop((ghost m ρ K c ∗ cred (tallyAt (barCell c) () 2) ∗ cred (tallyAt (rRow c) () NR) ∗ cred (tallyAt (rCol c) () NC) ∗ levAts Proto.L Proto.lv
      ∗ (∃ f, scr0 c f) ∗ (∃ f, scr1 c f) ∗ (∃ f, scr2 c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

theorem core_to_post (c : Dev nD) : corePost m ρ c ⊢ bodyPost m ρ c := by
  unfold corePost bodyPost Φ₁
  rw [xPts_eq, oPts_eq]
  iintro ⟨A0, A1, A2, Z1, Z2, Z3, Z4, ⟨%W', HO⟩, Hx, Ho⟩
  isplitl [A0 A1 A2 Z1 Z2 Z3 Z4]
  · isplitl [A0]; · iexact A0
    isplitl [A1]; · iexact A1
    isplitl [A2]; · iexact A2
    isplitl [Z1]; · iexact Z1
    isplitl [Z2]; · iexact Z2
    isplitl [Z3]; · iexact Z3
    iexact Z4
  isplitl [HO]
  · iexists W'
    isplitr; · ipureintro; exact fun _ _ => Or.inl trivial
    iexact HO
  isplitl [Hx]
  · iexists _
    isplitr; · ipureintro; rfl
    iexact Hx
  · iexists _
    isplitr; · ipureintro; rfl
    iexact Ho

/-- The body from what the pipeline hands it to what the pipeline takes back. -/
theorem sound_body (c : Dev nD) :
    bodyPre m ρ K c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m ρ c) := by
  unfold bodyPre ghost
  iintro ⟨⟨⟨Hinv, Hre, Hpos, Htok⟩, Cb, Crr, Crc, Hlev, ⟨%f0, H0⟩, ⟨%f1, H1⟩, ⟨%f2, H2⟩⟩, ⟨%W, %hW, HO⟩, ⟨%dx, %fx, %hfx, Hx⟩, ⟨%d1, %fo, %hfo, Ho⟩⟩
  rw [before_x] at hfx
  subst hfx
  iapply ((sound_core m ρ K c W f0 f1 f2 fo).trans (wp_mono _ _ _ (fun _ => core_to_post m ρ c)))
  rw [xPts_eq, oPts_eq]
  isplitl [Hinv]; · iexact Hinv
  isplitl [Hre]; · iexact Hre
  isplitl [Hpos]; · iexact Hpos
  isplitl [Htok]; · iexact Htok
  isplitl [Cb]; · iexact Cb
  isplitl [Crr]; · iexact Crr
  isplitl [Crc]; · iexact Crc
  isplitl [Hlev]; · iexact Hlev
  isplitl [H0]; · iexact H0
  isplitl [H1]; · iexact H1
  isplitl [H2]; · iexact H2
  isplitl [HO]; · iexact HO
  isplitl [Hx]; · iexact Hx
  iexact Ho

end BodyProof

/-! ## The library's body obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  unfold bodyPre' Φ₀ start
  iintro ⟨⟨⟨⟨%K, Hg⟩, C1, C2, C3, Hlev⟩, S0, S1, S2⟩, Ho, Hx, Hout⟩
  iapply (sound_body m ρ K c)
  unfold bodyPre
  isplitl [Hg C1 C2 C3 Hlev S0 S1 S2]
  · isplitl [Hg]; · iexact Hg
    isplitl [C1]; · iexact C1
    isplitl [C2]; · iexact C2
    isplitl [C3]; · iexact C3
    isplitl [Hlev]; · iexact Hlev
    isplitl [S0]; · iexact S0
    isplitl [S1]; · iexact S1
    iexact S2
  isplitl [Ho]; · iexact Ho
  isplitl [Hx] <;> iassumption

/-- info: 'Cert.Kernel.Body.body_obligation' depends on axioms: [propext, Classical.choice, Quot.sound] -/
#guard_msgs in #print axioms body_obligation

end Cert.Kernel.Body

end
-- ==== Proof.Bits.Launch.lean ====
/-
  The launch: from every device's holdings at kernel entry to the run of the whole mesh.

  The protocol's ghost state is funded once for all devices: every cell's round state, the owner's position and the mark
  that round 0 is reached, and one token per duty. Each device's five semaphores at zero become its cells' invariants; the
  tokens are dealt to the devices that pay them — a barrier cell's two tokens and the two receive tokens to the
  neighbours, the send tokens to the device itself. The credit a device's cells are owed at launch is what its neighbours
  owe it: two units on the barrier cell, one transfer's credit on each receive cell.
-/
import proofs.«900188_g7700000000000189_dist_halo2d_stencil_xy_m128_n128_v7x_xy2x2_bf16_1_alg».proof.Proof.Bits.Body

noncomputable section

namespace Cert.Kernel.Launch

open Cert.Kernel Cert.Kernel.Gen Cert.Kernel.Halo Cert.Kernel.Proto Cert.Kernel.Body
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 5 → SemLoc sig) := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: its barrier's two, then one per transfer cell. -/
abbrev tokOf (cj : Dev nD × Fin 6) : GSem nD τ sig × ℕ × Bool := match cj.2 with
  | 0 => (barCell cj.1, 0, false) | 1 => (barCell cj.1, 0, true) | 2 => (sRow cj.1, 0, false) | 3 => (sCol cj.1, 0, false)
  | 4 => (rRow cj.1, 0, false) | 5 => (rCol cj.1, 0, false)
/-- Which semaphore and which duty a token is of: it does not depend on the device. -/
abbrev tokSem : Fin 6 → SemLoc sig × Bool := fun
  | 0 => (.reg barS, false) | 1 => (.reg barS, true) | 2 => (.dma sRowS, false) | 3 => (.dma sColS, false)
  | 4 => (.dma rRowS, false) | 5 => (.dma rColS, false)
theorem tokSem_injective : Function.Injective tokSem := by decide
theorem tok_proj (c : Dev nD) (j : Fin 6) : ((tokOf (c, j)).1.2, (tokOf (c, j)).2.2) = tokSem j := by fin_cases j <;> rfl
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := tokSem_injective (by
    rw [← tok_proj c j, ← tok_proj c j']
    exact congrArg (fun x : GSem nD τ sig × ℕ × Bool => (x.1.2, x.2.2)) h)
  subst this; rfl
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 false ∗ dutyTok ER (barCell c) 0 true ∗ dutyTok ER (sRow c) 0 false ∗ dutyTok ER (sCol c) 0 false
    ∗ dutyTok ER (rRow c) 0 false ∗ dutyTok ER (rCol c) 0 false)

/-- What the launch element deals device `c`. -/
def G (c : Dev nD) : sProp 𝕄 :=
  iprop((bigSep Finset.univ fun k : Fin 5 => roundState ER (rd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

omit [FloatOps F] in
theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin6]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The four DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sRow c) 0 ∗ semVal (sCol c) 0 ∗ semVal (rRow c) 0 ∗ semVal (rCol c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (rd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(Proto.poss c ∗ Proto.payToks c)

omit [FloatOps F] in
theorem ghost_intro (K : Dev nD × Fin 5 → ℕ) (c : Dev nD) : iprop(records m ρ K ∗ linear c) ⊢ G' m ρ c := by
  unfold records linear G' ghost Proto.invs Proto.reaches
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (rowp c, 0)); iexact HI
    isplitr; · iapply (inv_at m ρ K (colp c, 0)); iexact HI
    isplitr; · iapply (inv_at m ρ K (rowp c, 3)); iexact HI
    iapply (inv_at m ρ K (colp c, 4)); iexact HI
  isplitr
  · isplitr; · iapply (reached_at (F := F) (rowp c, 0)); iexact HR
    isplitr; · iapply (reached_at (F := F) (colp c, 0)); iexact HR
    isplitr; · iapply (reached_at (F := F) (rowp c, 3)); iexact HR
    isplitr; · iapply (reached_at (F := F) (colp c, 4)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  isplitl [Hp]; · iexact Hp
  iexact Ht

def rowE : Dev nD ≃ Dev nD := ⟨rowp, rowp, rowp_rowp, rowp_rowp⟩
def colE : Dev nD ≃ Dev nD := ⟨colp, colp, colp_colp, colp_colp⟩

omit [FloatOps F] in
/-- The tokens dealt to their payers: a barrier cell's `false` token and the row receive token to the row neighbour, its
    `true` token and the column receive token to the column neighbour. -/
theorem toks_around : (bigSep Finset.univ fun c : Dev nD => (toks c : sProp 𝕄)) ⊢ bigSep Finset.univ fun c : Dev nD => Proto.payToks c := by
  unfold toks Proto.payToks
  rw [bigSep_sep', bigSep_sep', bigSep_sep', bigSep_sep', bigSep_sep', bigSep_sep', bigSep_sep', bigSep_sep', bigSep_sep', bigSep_sep',
    bigSep_univ_equiv rowE (fun c : Dev nD => (dutyTok ER (barCell c) 0 false : sProp 𝕄)),
    bigSep_univ_equiv colE (fun c : Dev nD => (dutyTok ER (barCell c) 0 true : sProp 𝕄)),
    bigSep_univ_equiv rowE (fun c : Dev nD => (dutyTok ER (rRow c) 0 false : sProp 𝕄)),
    bigSep_univ_equiv colE (fun c : Dev nD => (dutyTok ER (rCol c) 0 false : sProp 𝕄))]
  iintro ⟨Hbf, Hbt, Hsr, Hsc, Hrr, Hrc⟩
  isplitl [Hbf]; · iexact Hbf
  isplitl [Hbt]; · iexact Hbt
  isplitl [Hrr]; · iexact Hrr
  isplitl [Hrc]; · iexact Hrc
  isplitl [Hsr]; · iexact Hsr
  iexact Hsc

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (rd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) Proto.payToks).symm).trans
      (bigSep_mono fun c _ => show _ ⊢ linear c from Entails.of_eq (by unfold linear Proto.poss; rw [bigSep_fin5])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What a device's cells are owed at launch: each summand of the neighbours' debts lands on this device's own cell,
    the two barrier units together. -/
theorem creds (c : Dev nD) :
    (Pipeline.launchCred Proto.O₀ c : sProp 𝕄) ⊢ iprop(cred (tallyAt (barCell c) () 2) ∗ cred (tallyAt (rRow c) () NR) ∗ cred (tallyAt (rCol c) () NC)) := by
  have e : (Pipeline.launchCred Proto.O₀ c : sProp 𝕄)
      = iprop(((Pipeline.launchCred (fun d => tallyAt (rCol (colp d)) () NC) c ∗ Pipeline.launchCred (fun d => tallyAt (rRow (rowp d)) () NR) c)
          ∗ Pipeline.launchCred (fun d => tallyAt (barCell (colp d)) () 1) c) ∗ Pipeline.launchCred (fun d => tallyAt (barCell (rowp d)) () 1) c) := by
    rw [show Proto.O₀ = fun d => Proto.O₁ d + tallyAt (barCell (rowp d)) () 1 from rfl, Pipeline.launchCred_add,
      show Proto.O₁ = fun d => Proto.Oxfer d + tallyAt (barCell (colp d)) () 1 from rfl, Pipeline.launchCred_add,
      show Proto.Oxfer = fun d => tallyAt (rCol (colp d)) () NC + tallyAt (rRow (rowp d)) () NR from rfl, Pipeline.launchCred_add]
  rw [e]
  iintro ⟨⟨⟨Hrc, Hrr⟩, Hbc⟩, Hbr⟩
  ihave Crc := (Pipeline.launchCred_tallyAt (.dma rColS) colp colp colp_colp colp_colp () NC c) $$ Hrc
  ihave Crr := (Pipeline.launchCred_tallyAt (.dma rRowS) rowp rowp rowp_rowp rowp_rowp () NR c) $$ Hrr
  ihave Cbc := (Pipeline.launchCred_tallyAt (.reg barS) colp colp colp_colp colp_colp () 1 c) $$ Hbc
  ihave Cbr := (Pipeline.launchCred_tallyAt (.reg barS) rowp rowp rowp_rowp rowp_rowp () 1 c) $$ Hbr
  isplitl [Cbc Cbr]
  · rw [← tallyAt_add (barCell c) () 1 1]
    iapply (cred_add _ _).2
    isplitl [Cbc] <;> iassumption
  isplitl [Crr] <;> iassumption

/-! ### The launch theorem's side conditions -/

omit [FloatOps F] in
theorem start_intro (c : Dev nD) :
    iprop(Pipeline.unscopedRestP Pipeline.Prefetch.none cfg0.spec c (fun b => m ((c : Thread nD τ).loc b)) ∗ levAts Proto.L Proto.lv
        ∗ Pipeline.launchCred Proto.O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f0, H0⟩, ⟨%f1, H1⟩, ⟨%f2, H2⟩⟩
  isplitl [Hs]; · iexact Hs
  isplitl [H0]; · iexists f0; rw [scr0_eq]; iexact H0
  isplitl [H1]; · iexists f1; rw [scr1_eq]; iexact H1
  iexists f2; rw [scr2_eq]; iexact H2

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨H0, H1, H2, Z1, Z2, Z3, Z4⟩
  isplitr; · iempintro
  isplitl [Z1 Z2 Z3 Z4]
  · isplitl [Z1]; · iexact Z1
    isplitl [Z2]; · iexact Z2
    isplitl [Z3] <;> iassumption
  isplitl [H0]; · iexists _; rw [← scr0_eq]; iexact H0
  isplitl [H1]; · iexists _; rw [← scr1_eq]; iexact H1
  iexists _; rw [← scr2_eq]; iexact H2

theorem waits (c : Dev nD) : (levAts Proto.L Proto.lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the proof data's final contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := Proto.O₀) (howed₀ := fun _ => rfl) (howedN := fun _ => rfl)
    (L := Proto.L) (lv := Proto.lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

/-- The `x` array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block, the whole array, read back after the run is what the body left. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

omit [FloatOps F] in
/-- A whole-array window's block read off the array is the array. -/
theorem blk1_read (c : Dev nD) (X : Buf (Elt F) ((c : Thread nD τ).loc main_v1)) :
    (win0_1.blk (0 : Fin 1)).view.read (Elt F) X = X := by
  funext y
  show X ((win0_1.blk (0 : Fin 1)).view.emb y) = X y
  refine congrArg X (funext fun a => Fin.ext ?_)
  show win0_1.index (0 : Fin 1) a * _ + 1 * (y a).val = (y a).val
  have : win0_1.index (0 : Fin 1) a = 0 := rfl
  rw [this]; omega
omit [FloatOps F] in
theorem blk0_read (c : Dev nD) (X : Buf (Elt F) ((c : Thread nD τ).loc main_arg0)) :
    (win0_0.blk (0 : Fin 1)).view.read (Elt F) X = X := by
  funext y
  show X ((win0_0.blk (0 : Fin 1)).view.emb y) = X y
  refine congrArg X (funext fun a => Fin.ext ?_)
  show win0_0.index (0 : Fin 1) a * _ + 1 * (y a).val = (y a).val
  have : win0_0.index (0 : Fin 1) a = 0 := rfl
  rw [this]; omega

/-- The result array after the run. -/
theorem finalA_out (c : Dev nD) : finalA m ρ c (1 : Fin 2) = outAt m ρ c :=
  (blk1_read c _).symm.trans (finalA_o m ρ c)

/-- The staged block is the device's argument array. -/
theorem xstg_eq (c : Dev nD) : xstg m ρ c = m ((c : Thread nD τ).loc main_arg0) := blk0_read c _

end Cert.Kernel.Launch

end
-- ==== Proof.StencilSpec.lean ====
/-
  The five-point stencil of a 256×256 array with its boundary kept, index by index, and what one device of the
  2×2 mesh computes for an entry of its 128×128 block, both over a total function `g` of two natural coordinates.

  `Gn` is the whole-array result at (r, q): the entry itself on the boundary of the array, and otherwise
  a·x + e·north + e·south + e·west + e·east, summed left to right.

  `Kn` is the device's result at block coordinates (i, j) of the block at mesh position (mx, my): the stencil of the
  block with zeros beyond the block's edges, e·(north + south + west + east) taken as one product, the entry itself on
  the boundary of the whole array; plus a mask times the neighbouring block's edge row, plus a mask times the
  neighbouring block's edge column, the masks being e on the block's inner edge row (column) off the array's
  boundary and zero elsewhere.

  When every entry is a real number the two agree: the zero padding on the inner edge is made up by the halo term, and
  e distributes over the four-term sum.
-/
import Idealize.ShloMosaic.Lib.ValueIdx

namespace Cert.KernelIdeal.HaloValue

/-- The boundary of the 256×256 array. -/
abbrev bnd (r q : ℕ) : Prop := r = 0 ∨ r = 255 ∨ q = 0 ∨ q = 255

/-- The whole-array result at (r, q). -/
noncomputable def Gn (a e : EReal) (g : ℕ → ℕ → EReal) (r q : ℕ) : EReal :=
  if bnd r q then g r q
  else a * g r q + e * g (r - 1) q + e * g (r + 1) q + e * g r (q - 1) + e * g r (q + 1)

/-- One device's result at block coordinates (i, j), the block at mesh position (mx, my). -/
noncomputable def Kn (a e : EReal) (g : ℕ → ℕ → EReal) (mx my i j : ℕ) : EReal :=
  ((if bnd (128 * mx + i) (128 * my + j) then g (128 * mx + i) (128 * my + j)
    else a * g (128 * mx + i) (128 * my + j)
      + e * ((((if i = 0 then 0 else g (128 * mx + i - 1) (128 * my + j))
              + (if i = 127 then 0 else g (128 * mx + i + 1) (128 * my + j)))
              + (if j = 0 then 0 else g (128 * mx + i) (128 * my + j - 1)))
              + (if j = 127 then 0 else g (128 * mx + i) (128 * my + j + 1))))
    + (if i = 127 - 127 * mx ∧ ¬ bnd (128 * mx + i) (128 * my + j) then e else 0) * g (128 * (1 - mx) + 127 * mx) (128 * my + j))
    + (if j = 127 - 127 * my ∧ ¬ bnd (128 * mx + i) (128 * my + j) then e else 0) * g (128 * mx + i) (128 * (1 - my) + 127 * my)

/-- On real entries the device's result is the whole-array result at the entry's global coordinates. -/
theorem Kn_eq_Gn (a e : ℝ) (R : ℕ → ℕ → ℝ) (mx my i j : ℕ) (hmx : mx < 2) (hmy : my < 2) (hi : i < 128) (hj : j < 128) :
    Kn (a : EReal) (e : EReal) (fun r q => ((R r q : ℝ) : EReal)) mx my i j
      = Gn (a : EReal) (e : EReal) (fun r q => ((R r q : ℝ) : EReal)) (128 * mx + i) (128 * my + j) := by
  unfold Kn Gn bnd
  have h1 : mx = 0 ∨ mx = 1 := by omega
  have h2 : my = 0 ∨ my = 1 := by omega
  have hi' : i = 0 ∨ i = 127 ∨ (0 < i ∧ i < 127) := by omega
  have hj' : j = 0 ∨ j = 127 ∨ (0 < j ∧ j < 127) := by omega
  rcases h1 with rfl | rfl <;> rcases h2 with rfl | rfl <;>
    rcases hi' with rfl | rfl | ⟨hi0, hi1⟩ <;> rcases hj' with rfl | rfl | ⟨hj0, hj1⟩ <;>
    simp (disch := omega) only [if_pos, if_neg] <;> norm_num <;> (try simp (disch := omega) only [if_pos, if_neg]) <;> norm_cast <;> ring

/-- The two float literals of both programs, as the extended reals their words denote: one half and one eighth. -/
noncomputable abbrev cHalf : EReal := Idealize.ShloMosaic.Ideal.ofBits .f32 0x3F000000#32
noncomputable abbrev cEighth : EReal := Idealize.ShloMosaic.Ideal.ofBits .f32 0x3E000000#32

theorem cHalf_real : cHalf = (((1 / 2 : ℝ)) : EReal) := by
  simp [cHalf, Idealize.ShloMosaic.Ideal.ofBits, Idealize.ShloMosaic.Ideal.ieee, -EReal.coe_mul]; norm_num
theorem cEighth_real : cEighth = (((1 / 8 : ℝ)) : EReal) := by
  simp [cEighth, Idealize.ShloMosaic.Ideal.ofBits, Idealize.ShloMosaic.Ideal.ieee, -EReal.coe_mul]; norm_num

/-- A 256×256 array as a total function of two natural coordinates: zero outside the array. -/
noncomputable def Xn (X : (⟨2, ![256, 256]⟩ : Idealize.ShloMosaic.Shape).Idx → EReal) (r q : ℕ) : EReal :=
  if h : r < 256 ∧ q < 256 then X (Idealize.ShloMosaic.ValueIdx.ix2 (⟨r, h.1⟩ : Fin 256) (⟨q, h.2⟩ : Fin 256)) else 0

/-- An entry of the array at an index whose coordinates are `r` and `q`. -/
theorem X_eq_Xn (X : (⟨2, ![256, 256]⟩ : Idealize.ShloMosaic.Shape).Idx → EReal) (k : (⟨2, ![256, 256]⟩ : Idealize.ShloMosaic.Shape).Idx)
    (r q : ℕ) (h0 : (k 0).val = r) (h1 : (k 1).val = q) : X k = Xn X r q := by
  subst h0 h1
  unfold Xn
  rw [dif_pos ⟨(k 0).isLt, (k 1).isLt⟩]
  exact congrArg X (Idealize.ShloMosaic.ValueIdx.eq_ix2 k)

/-- Real entries give a real-valued total function. -/
theorem Xn_real (X : (⟨2, ![256, 256]⟩ : Idealize.ShloMosaic.Shape).Idx → EReal) (hX : ∀ i, ∃ t : ℝ, X i = ((t : ℝ) : EReal)) :
    ∃ R : ℕ → ℕ → ℝ, ∀ r q, Xn X r q = ((R r q : ℝ) : EReal) := by
  have h : ∀ r q, ∃ t : ℝ, Xn X r q = ((t : ℝ) : EReal) := by
    intro r q
    unfold Xn
    split
    · exact hX _
    · exact ⟨0, rfl⟩
  choose R hR using h
  exact ⟨R, hR⟩

end Cert.KernelIdeal.HaloValue
-- ==== Proof.Masks.lean ====
/-
  The masks of the body, read at an index of a device's 128×128 block.

  A device's mesh row and column are the words 0 or 1. The global row of block row i is 128·mx + i, the global column
  128·my + j, both below 2³², so the word comparisons of the body are comparisons of these natural numbers:
  the boundary mask is one exactly on the boundary of the 256×256 array; the row mask is one eighth on the block's
  inner edge row 127 − 127·mx off that boundary and zero elsewhere; the column mask likewise.
-/
import proofs.«900188_g7700000000000189_dist_halo2d_stencil_xy_m128_n128_v7x_xy2x2_bf16_1_alg».proof.Proof.Halo
import proofs.«900188_g7700000000000189_dist_halo2d_stencil_xy_m128_n128_v7x_xy2x2_bf16_1_alg».proof.Proof.StencilSpec
import Idealize.ShloMosaic.Lib.Pipeline.Value
import Idealize.ShloMosaic.PureOps.Ideal.Laws
noncomputable section
namespace Cert.KernelIdeal.HaloValue
open Idealize.ShloMosaic Idealize.ShloMosaic.ValueIdx Idealize.SL.Sem
open Cert.KernelIdeal Cert.KernelIdeal.Gen Cert.KernelIdeal.Halo

theorem mxw_eq (c : Dev nD) : mxw c = BitVec.ofNat 32 (c.val / 2) := by revert c; decide
theorem myw_eq (c : Dev nD) : myw c = BitVec.ofNat 32 (c.val % 2) := by revert c; decide

/-- A global coordinate as a word. -/
theorem gword (n k : ℕ) (hn : n < 128) (hk : k < 2) :
    IntOp.addi (BitVec.ofNat 32 n) (Scalar.muli (BitVec.ofNat 32 k) 128#32) = BitVec.ofNat 32 (128 * k + n) := by
  show BitVec.ofNat 32 n + BitVec.ofNat 32 k * 128#32 = _
  bv_omega

theorem cmpi_ofNat (u t : ℕ) (hu : u < 2 ^ 32) (ht : t < 2 ^ 32) :
    IntOp.cmpi .eq (BitVec.ofNat 32 u) (BitVec.ofNat 32 t) = if u = t then 1#1 else 0#1 := by
  show BitVec.ofBool (BitVec.ofNat 32 u == BitVec.ofNat 32 t) = _
  by_cases h : u = t
  · subst h; simp
  · rw [if_neg h]
    have : BitVec.ofNat 32 u ≠ BitVec.ofNat 32 t := by
      intro e
      have := congrArg BitVec.toNat e
      simp only [BitVec.toNat_ofNat] at this
      rw [Nat.mod_eq_of_lt hu, Nat.mod_eq_of_lt ht] at this
      exact h this
    have hb : (BitVec.ofNat 32 u == BitVec.ofNat 32 t) = false := beq_eq_false_iff_ne.2 this
    rw [hb]; rfl

theorem edge_word (k : ℕ) (hk : k < 2) :
    Scalar.muli (Scalar.subi 1#32 (BitVec.ofNat 32 k)) 127#32 = BitVec.ofNat 32 (127 - 127 * k) := by
  interval_cases k <;> decide

theorem ori_bit (P Q : Prop) [Decidable P] [Decidable Q] :
    IntOp.ori (if P then 1#1 else 0#1) (if Q then 1#1 else 0#1) = if P ∨ Q then 1#1 else 0#1 := by
  by_cases hP : P <;> by_cases hQ : Q <;> simp [hP, hQ, IntOp.ori]
theorem andi_bit (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]
theorem xori_bit (P : Prop) [Decidable P] :
    IntOp.xori (if P then 1#1 else 0#1) 1#1 = if ¬ P then 1#1 else 0#1 := by
  by_cases hP : P <;> simp [hP, IntOp.xori]
theorem select_bit {α : Type} (P : Prop) [Decidable P] (a b : α) :
    Scalar.select (if P then 1#1 else 0#1) a b = if P then a else b := by
  by_cases hP : P
  · rw [if_pos hP, if_pos hP]; exact select_one a b
  · rw [if_neg hP, if_neg hP]; exact select_zero a b

/-- The boundary mask at an index. -/
theorem pay10_at (mx my : ℕ) (hmx : mx < 2) (hmy : my < 2) (i j : Fin 128) :
    k0_pay10 (BitVec.ofNat 32 mx) (BitVec.ofNat 32 my) (ix2 i j)
      = if bnd (128 * mx + i.val) (128 * my + j.val) then 1#1 else 0#1 := by
  have e : k0_pay10 (BitVec.ofNat 32 mx) (BitVec.ofNat 32 my) (ix2 i j)
      = IntOp.ori (IntOp.ori (IntOp.ori
          (IntOp.cmpi .eq (IntOp.addi (iota .tc S128x128 32 [0] iota_S128x128_d0_w32 (ix2 i j)) (Scalar.muli (BitVec.ofNat 32 mx) 128#32)) 0#32)
          (IntOp.cmpi .eq (IntOp.addi (iota .tc S128x128 32 [0] iota_S128x128_d0_w32 (ix2 i j)) (Scalar.muli (BitVec.ofNat 32 mx) 128#32)) 255#32))
          (IntOp.cmpi .eq (IntOp.addi (iota .tc S128x128 32 [1] iota_S128x128_d1_w32 (ix2 i j)) (Scalar.muli (BitVec.ofNat 32 my) 128#32)) 0#32))
          (IntOp.cmpi .eq (IntOp.addi (iota .tc S128x128 32 [1] iota_S128x128_d1_w32 (ix2 i j)) (Scalar.muli (BitVec.ofNat 32 my) 128#32)) 255#32) := rfl
  rw [e, iota_single_apply, iota_single_apply]
  show IntOp.ori (IntOp.ori (IntOp.ori
          (IntOp.cmpi .eq (IntOp.addi (BitVec.ofNat 32 i.val) (Scalar.muli (BitVec.ofNat 32 mx) 128#32)) (BitVec.ofNat 32 0))
          (IntOp.cmpi .eq (IntOp.addi (BitVec.ofNat 32 i.val) (Scalar.muli (BitVec.ofNat 32 mx) 128#32)) (BitVec.ofNat 32 255)))
          (IntOp.cmpi .eq (IntOp.addi (BitVec.ofNat 32 j.val) (Scalar.muli (BitVec.ofNat 32 my) 128#32)) (BitVec.ofNat 32 0)))
          (IntOp.cmpi .eq (IntOp.addi (BitVec.ofNat 32 j.val) (Scalar.muli (BitVec.ofNat 32 my) 128#32)) (BitVec.ofNat 32 255)) = _
  have hi := i.isLt; have hj := j.isLt
  rw [gword _ _ hi hmx, gword _ _ hj hmy, cmpi_ofNat _ _ (by omega) (by omega), cmpi_ofNat _ _ (by omega) (by omega),
    cmpi_ofNat _ _ (by omega) (by omega), cmpi_ofNat _ _ (by omega) (by omega), ori_bit, ori_bit, ori_bit]
  unfold bnd
  simp only [or_assoc]

/-- The row mask at an index: one eighth on the block's inner edge row off the array's boundary, zero elsewhere. -/
theorem pay11_at (mx my : ℕ) (hmx : mx < 2) (hmy : my < 2) (i j : Fin 128) :
    k0_pay11 (F := Ideal) (BitVec.ofNat 32 mx) (BitVec.ofNat 32 my) (ix2 i j)
      = if i.val = 127 - 127 * mx ∧ ¬ bnd (128 * mx + i.val) (128 * my + j.val) then cEighth else 0 := by
  have e : k0_pay11 (F := Ideal) (BitVec.ofNat 32 mx) (BitVec.ofNat 32 my) (ix2 i j)
      = Scalar.select (IntOp.andi
          (IntOp.cmpi .eq (iota .tc S128x128 32 [0] iota_S128x128_d0_w32 (ix2 i j)) (Scalar.muli (Scalar.subi 1#32 (BitVec.ofNat 32 mx)) 127#32))
          (IntOp.xori (k0_pay10 (BitVec.ofNat 32 mx) (BitVec.ofNat 32 my) (ix2 i j)) 1#1))
          (Ideal.ofBits .f32 0x3E000000#32) (Ideal.ofBits .f32 0x00000000#32) := rfl
  have hi := i.isLt
  rw [e, iota_single_apply, pay10_at mx my hmx hmy, edge_word mx hmx]
  show Scalar.select (IntOp.andi (IntOp.cmpi .eq (BitVec.ofNat 32 i.val) (BitVec.ofNat 32 (127 - 127 * mx))) _) _ _ = _
  rw [cmpi_ofNat _ _ (by omega) (by omega), xori_bit, andi_bit, select_bit, Ideal.ofBits_zero_f32]

/-- The column mask at an index. -/
theorem pay14_at (mx my : ℕ) (hmx : mx < 2) (hmy : my < 2) (i j : Fin 128) :
    k0_pay14 (F := Ideal) (k0_pay12 (BitVec.ofNat 32 my)) (k0_pay13 (BitVec.ofNat 32 mx) (BitVec.ofNat 32 my)) (ix2 i j)
      = if j.val = 127 - 127 * my ∧ ¬ bnd (128 * mx + i.val) (128 * my + j.val) then cEighth else 0 := by
  have e : k0_pay14 (F := Ideal) (k0_pay12 (BitVec.ofNat 32 my)) (k0_pay13 (BitVec.ofNat 32 mx) (BitVec.ofNat 32 my)) (ix2 i j)
      = Scalar.select (IntOp.andi
          (IntOp.cmpi .eq (iota .tc S128x128 32 [1] iota_S128x128_d1_w32 (ix2 i j)) (Scalar.muli (Scalar.subi 1#32 (BitVec.ofNat 32 my)) 127#32))
          (IntOp.xori (k0_pay10 (BitVec.ofNat 32 mx) (BitVec.ofNat 32 my) (ix2 i j)) 1#1))
          (Ideal.ofBits .f32 0x3E000000#32) (Ideal.ofBits .f32 0x00000000#32) := rfl
  have hj := j.isLt
  rw [e, iota_single_apply, pay10_at mx my hmx hmy, edge_word my hmy]
  show Scalar.select (IntOp.andi (IntOp.cmpi .eq (BitVec.ofNat 32 j.val) (BitVec.ofNat 32 (127 - 127 * my))) _) _ _ = _
  rw [cmpi_ofNat _ _ (by omega) (by omega), xori_bit, andi_bit, select_bit, Ideal.ofBits_zero_f32]

end Cert.KernelIdeal.HaloValue
end
-- ==== Proof.Shifts.lean ====
/-
  The data movement of the body, read at an index of a device's 128×128 block `x`.

  The four shifted copies of the block are concatenations of a slice of the block with a row or column of zeros:
  north is zero in row 0 and the block one row up elsewhere; south is zero in row 127 and the block one row down
  elsewhere; west and east likewise along the columns. The stencil payload is a·x + e·(((north + south) + west) + east).
  The column a device stages is its column 127 when its mesh column is 0 and its column 0 otherwise. The row a device
  sends is row 127 − 127·(mesh row) of its block. The final payload adds mask × halo row (read at the entry's column)
  and mask × halo column (read at the entry's row) to the stored local result.
-/
import proofs.«900188_g7700000000000189_dist_halo2d_stencil_xy_m128_n128_v7x_xy2x2_bf16_1_alg».proof.Proof.Halo
import proofs.«900188_g7700000000000189_dist_halo2d_stencil_xy_m128_n128_v7x_xy2x2_bf16_1_alg».proof.Proof.StencilSpec
import Idealize.ShloMosaic.Lib.Pipeline.Value
import Idealize.ShloMosaic.PureOps.Ideal.Laws

noncomputable section

namespace Cert.KernelIdeal.HaloValue

open Idealize.ShloMosaic Idealize.ShloMosaic.ValueIdx Idealize.SL.Sem
open Cert.KernelIdeal Cert.KernelIdeal.Gen Cert.KernelIdeal.Halo

section Block
variable (x : S128x128.Idx → EReal)

theorem pay2_eq : k0_pay2 (F := Ideal) x = x := shapeCast_self x _

/-- North: zero in row 0. -/
theorem north_zero (i j : Fin 128) (hi : i.val = 0) : k0_pay6 (F := Ideal) x (ix2 i j) = 0 := by
  unfold k0_pay6
  refine (concatenate_pair_apply_left 0 _ _ concatenates_S1x128_S127x128_S128x128_d0 (ix2 i j) rfl (ix2 (0 : Fin 1) j)
    (fun b => match b with | ⟨0, _⟩ => by show 0 = i.val; omega | ⟨1, _⟩ => rfl)).trans ?_
  exact Ideal.ofBits_zero_f32

/-- North: the block one row up. -/
theorem north_pos (i j i' : Fin 128) (hi : i'.val + 1 = i.val) : k0_pay6 (F := Ideal) x (ix2 i j) = x (ix2 i' j) := by
  unfold k0_pay6
  have hi127 : i'.val < 127 := by have := i.isLt; omega
  refine (concatenate_pair_apply_right 0 _ _ concatenates_S1x128_S127x128_S128x128_d0 (ix2 i j) rfl rfl (ix2 (⟨i'.val, hi127⟩ : Fin 127) j)
    (fun b hb => match b, hb with | ⟨0, _⟩, hb => absurd rfl hb | ⟨1, _⟩, _ => rfl) (by show i'.val + 1 = i.val; exact hi)).trans ?_
  refine (extractStridedSlice_apply ![0, 0] _ slices_S128x128_o0_0_S127x128 _ (ix2 i' j)
    (fun a => match a with | ⟨0, _⟩ => by show i'.val = 0 + i'.val; omega | ⟨1, _⟩ => by show j.val = 0 + j.val; omega)).trans ?_
  rw [pay2_eq]

/-- South: zero in row 127. -/
theorem south_zero (i j : Fin 128) (hi : i.val = 127) : k0_pay7 (F := Ideal) x (ix2 i j) = 0 := by
  unfold k0_pay7
  refine (concatenate_pair_apply_right 0 _ _ concatenates_S127x128_S1x128_S128x128_d0 (ix2 i j) rfl rfl (ix2 (0 : Fin 1) j)
    (fun b hb => match b, hb with | ⟨0, _⟩, hb => absurd rfl hb | ⟨1, _⟩, _ => rfl) (by show 0 + 127 = i.val; omega)).trans ?_
  exact Ideal.ofBits_zero_f32

/-- South: the block one row down. -/
theorem south_pos (i j i' : Fin 128) (hi : i.val + 1 = i'.val) : k0_pay7 (F := Ideal) x (ix2 i j) = x (ix2 i' j) := by
  unfold k0_pay7
  have hi127 : i.val < 127 := by have := i'.isLt; omega
  refine (concatenate_pair_apply_left 0 _ _ concatenates_S127x128_S1x128_S128x128_d0 (ix2 i j) rfl (ix2 (⟨i.val, hi127⟩ : Fin 127) j)
    (fun b => match b with | ⟨0, _⟩ => rfl | ⟨1, _⟩ => rfl)).trans ?_
  refine (extractStridedSlice_apply ![1, 0] _ slices_S128x128_o1_0_S127x128 _ (ix2 i' j)
    (fun a => match a with | ⟨0, _⟩ => by show i'.val = 1 + i.val; omega | ⟨1, _⟩ => by show j.val = 0 + j.val; omega)).trans ?_
  rw [pay2_eq]

/-- West, as the stencil payload spells it. -/
abbrev westV (v29 : S128x1.Idx → EReal) (v34 : S128x127.Idx → EReal) : S128x128.Idx → EReal :=
  concatenate S128x128 1 [⟨S128x1, v29⟩, ⟨S128x127, v34⟩] concatenates_S128x1_S128x127_S128x128_d1
/-- East, as the stencil payload spells it. -/
abbrev eastV (v18 : S128x128.Idx → EReal) (v29 : S128x1.Idx → EReal) : S128x128.Idx → EReal :=
  concatenate S128x128 1 [⟨S128x127, extractStridedSlice S128x127 ![0, 1] v18 slices_S128x128_o0_1_S128x127⟩, ⟨S128x1, v29⟩]
    concatenates_S128x127_S128x1_S128x128_d1

/-- West: zero in column 0. -/
theorem west_zero (i j : Fin 128) (hj : j.val = 0) : westV (k0_pay5 (F := Ideal)) (k0_pay8 (F := Ideal) x) (ix2 i j) = 0 := by
  refine (concatenate_pair_apply_left 1 _ _ concatenates_S128x1_S128x127_S128x128_d1 (ix2 i j) rfl (ix2 i (0 : Fin 1))
    (fun b => match b with | ⟨0, _⟩ => rfl | ⟨1, _⟩ => by show 0 = j.val; omega)).trans ?_
  exact Ideal.ofBits_zero_f32

/-- West: the block one column to the left. -/
theorem west_pos (i j j' : Fin 128) (hj : j'.val + 1 = j.val) :
    westV (k0_pay5 (F := Ideal)) (k0_pay8 (F := Ideal) x) (ix2 i j) = x (ix2 i j') := by
  have hj127 : j'.val < 127 := by have := j.isLt; omega
  refine (concatenate_pair_apply_right 1 _ _ concatenates_S128x1_S128x127_S128x128_d1 (ix2 i j) rfl rfl (ix2 i (⟨j'.val, hj127⟩ : Fin 127))
    (fun b hb => match b, hb with | ⟨0, _⟩, _ => rfl | ⟨1, _⟩, hb => absurd rfl hb) (by show j'.val + 1 = j.val; exact hj)).trans ?_
  unfold k0_pay8
  refine (extractStridedSlice_apply ![0, 0] _ slices_S128x128_o0_0_S128x127 _ (ix2 i j')
    (fun a => match a with | ⟨0, _⟩ => by show i.val = 0 + i.val; omega | ⟨1, _⟩ => by show j'.val = 0 + j'.val; omega)).trans ?_
  rw [pay2_eq]

/-- East: zero in column 127. -/
theorem east_zero (i j : Fin 128) (hj : j.val = 127) : eastV x (k0_pay5 (F := Ideal)) (ix2 i j) = 0 := by
  refine (concatenate_pair_apply_right 1 _ _ concatenates_S128x127_S128x1_S128x128_d1 (ix2 i j) rfl rfl (ix2 i (0 : Fin 1))
    (fun b hb => match b, hb with | ⟨0, _⟩, _ => rfl | ⟨1, _⟩, hb => absurd rfl hb) (by show 0 + 127 = j.val; omega)).trans ?_
  exact Ideal.ofBits_zero_f32

/-- East: the block one column to the right. -/
theorem east_pos (i j j' : Fin 128) (hj : j.val + 1 = j'.val) :
    eastV x (k0_pay5 (F := Ideal)) (ix2 i j) = x (ix2 i j') := by
  have hj127 : j.val < 127 := by have := j'.isLt; omega
  refine (concatenate_pair_apply_left 1 _ _ concatenates_S128x127_S128x1_S128x128_d1 (ix2 i j) rfl (ix2 i (⟨j.val, hj127⟩ : Fin 127))
    (fun b => match b with | ⟨0, _⟩ => rfl | ⟨1, _⟩ => rfl)).trans ?_
  exact extractStridedSlice_apply ![0, 1] _ slices_S128x128_o0_1_S128x127 _ (ix2 i j')
    (fun a => match a with | ⟨0, _⟩ => by show i.val = 0 + i.val; omega | ⟨1, _⟩ => by show j'.val = 1 + j.val; omega)

end Block

/-- The stencil payload at an index. -/
theorem pay9_at (v18 : S128x128.Idx → EReal) (v29 : S128x1.Idx → EReal) (v31 v33 : S128x128.Idx → EReal) (v34 : S128x127.Idx → EReal)
    (k : S128x128.Idx) :
    k0_pay9 (F := Ideal) v18 v29 v31 v33 v34 k
      = cHalf * v18 k + cEighth * (((v31 k + v33 k) + westV v29 v34 k) + eastV v18 v29 k) := rfl

/-- The stored local result at an index: a select on the boundary mask. -/
theorem pay15_at (v18 v45 : S128x128.Idx → EReal) (v64 : IVec S128x128 1) (k : S128x128.Idx) :
    k0_pay15 (F := Ideal) v18 v45 v64 k = Scalar.select (v64 k) (v18 k) (v45 k) := rfl

/-- The final payload at an index. -/
theorem pay1_at (v75 v82 v117 : S128x128.Idx → EReal) (v119 : S1x128.Idx → EReal) (v123 : S128x1.Idx → EReal) (i j : Fin 128) :
    k0_pay1 (F := Ideal) v75 v82 v117 v119 v123 (ix2 i j)
      = (v117 (ix2 i j) + v75 (ix2 i j) * v119 (ix2 (0 : Fin 1) j)) + v82 (ix2 i j) * v123 (ix2 i (0 : Fin 1)) := by
  have e : k0_pay1 (F := Ideal) v75 v82 v117 v119 v123 (ix2 i j)
      = (shapeCast S128x128 v117 shapeCasts_S128x128_S128x128 (ix2 i j)
          + v75 (ix2 i j) * broadcastTo S128x128 v119 broadcasts_S1x128_S128x128 (ix2 i j))
        + v82 (ix2 i j) * broadcastTo S128x128 v123 broadcasts_S128x1_S128x128 (ix2 i j) := rfl
  rw [e, shapeCast_self,
    broadcastTo_apply v119 broadcasts_S1x128_S128x128 (ix2 i j) (ix2 (0 : Fin 1) j) (fun a => match a with | ⟨0, _⟩ => rfl | ⟨1, _⟩ => rfl),
    broadcastTo_apply v123 broadcasts_S128x1_S128x128 (ix2 i j) (ix2 i (0 : Fin 1)) (fun a => match a with | ⟨0, _⟩ => rfl | ⟨1, _⟩ => rfl)]

/-- The column a device stages for its column neighbour. -/
theorem pay3_at (d : Dev nD) (x : S128x128.Idx → EReal) (i : Fin 128) :
    k0_pay3 (F := Ideal) d x (ix2 i (0 : Fin 1))
      = if d.val % 2 = 0 then x (ix2 i (127 : Fin 128)) else x (ix2 i (0 : Fin 128)) := by
  have hv : ∀ d : Dev nD, Scalar.cmpi .eq (Scalar.remsi (Scalar.divsi (Dev.word d) 1#32) 2#32) 0#32
      = if d.val % 2 = 0 then 1#1 else 0#1 := by decide
  unfold k0_pay3
  refine (shapeCast_apply _ shapeCasts_S128_S128x1 (ix2 i (0 : Fin 1)) (ix1 i)
    (by rw [Shape.rowMajor_val_one, Shape.rowMajor_val_two]; show i.val = i.val * 1 + 0; omega)).trans ?_
  show (Scalar.select (α := S128.Idx → EReal) (Scalar.cmpi .eq (Scalar.remsi (Scalar.divsi (Dev.word d) 1#32) 2#32) 0#32) _ _) (ix1 i) = _
  rw [hv d]
  by_cases h : d.val % 2 = 0
  · rw [if_pos h, if_pos h, select_one]
    refine (shapeCast_apply _ shapeCasts_S128x1_S128 (ix1 i) (ix2 i (0 : Fin 1))
      (by rw [Shape.rowMajor_val_one, Shape.rowMajor_val_two]; show i.val * 1 + 0 = i.val; omega)).trans ?_
    refine (extractStridedSlice_apply ![0, 127] _ slices_S128x128_o0_127_S128x1 _ (ix2 i (127 : Fin 128))
      (fun a => match a with | ⟨0, _⟩ => by show i.val = 0 + i.val; omega | ⟨1, _⟩ => rfl)).trans ?_
    rw [pay2_eq]
  · rw [if_neg h, if_neg h, select_zero]
    refine (shapeCast_apply _ shapeCasts_S128x1_S128 (ix1 i) (ix2 i (0 : Fin 1))
      (by rw [Shape.rowMajor_val_one, Shape.rowMajor_val_two]; show i.val * 1 + 0 = i.val; omega)).trans ?_
    refine (extractStridedSlice_apply ![0, 0] _ slices_S128x128_o0_0_S128x1 _ (ix2 i (0 : Fin 128))
      (fun a => match a with | ⟨0, _⟩ => by show i.val = 0 + i.val; omega | ⟨1, _⟩ => rfl)).trans ?_
    rw [pay2_eq]

/-- The row halo a device receives: its row neighbour's edge row. -/
theorem rowH_at (x : Dev nD → S128x128.Idx → EReal) (c : Dev nD) (j t : Fin 128)
    (ht : t.val = 127 - 127 * ((rowp c).val / 2)) :
    rowH (F := Ideal) x c (ix2 (0 : Fin 1) j) = x (rowp c) (ix2 t j) := by
  unfold rowH
  show x (rowp c) ((Rect.unit (s := S128x128) (k0_off1 (rowp c)) S1x128.size (k0_off1_inb (rowp c))).emb (ix2 (0 : Fin 1) j)) = _
  refine congrArg (x (rowp c)) (funext fun a => Fin.ext ?_)
  rw [Rect.emb_apply]
  show k0_off1 (rowp c) a + 1 * ((ix2 (0 : Fin 1) j) a).val = ((ix2 t j) a).val
  rw [k0_off1_eq]
  match a with
  | ⟨0, _⟩ => show 127 - 127 * ((rowp c).val / 2) + 1 * 0 = t.val; omega
  | ⟨1, _⟩ => show 0 + 1 * j.val = j.val; omega

end Cert.KernelIdeal.HaloValue

end
-- ==== Proof.KernelAt.lean ====
/-
  What a device computes, read at an index of its block: when every device's block of `x` is read off one total function
  `g` of global coordinates — block (mx, my) at (i, j) is g (128·mx + i) (128·my + j) — the result at (i, j) is the
  device's closed form `Kn` of the specification: local stencil with zero padding, the entry itself on the array's
  boundary, plus mask × the row neighbour's edge row, plus mask × the column neighbour's edge column.

  The row neighbour sits in mesh row 1 − mx and sends its row 127·mx; the column neighbour sits in mesh column
  1 − my and stages its column 127·my.
-/
import proofs.«900188_g7700000000000189_dist_halo2d_stencil_xy_m128_n128_v7x_xy2x2_bf16_1_alg».proof.Proof.Masks
import proofs.«900188_g7700000000000189_dist_halo2d_stencil_xy_m128_n128_v7x_xy2x2_bf16_1_alg».proof.Proof.Shifts

noncomputable section

namespace Cert.KernelIdeal.HaloValue

open Idealize.ShloMosaic Idealize.ShloMosaic.ValueIdx Idealize.SL.Sem
open Cert.KernelIdeal Cert.KernelIdeal.Gen Cert.KernelIdeal.Halo

theorem outFinal_at (g : ℕ → ℕ → EReal) (x : Dev nD → S128x128.Idx → EReal)
    (hx : ∀ (d : Dev nD) (i j : Fin 128), x d (ix2 i j) = g (128 * (d.val / 2) + i.val) (128 * (d.val % 2) + j.val))
    (c : Dev nD) (i j : Fin 128) :
    outFinal (F := Ideal) x c (ix2 i j) = Kn cHalf cEighth g (c.val / 2) (c.val % 2) i.val j.val := by
  have h4 : c.val < 4 := c.isLt
  have hi := i.isLt
  have hj := j.isLt
  have hmx : c.val / 2 < 2 := by omega
  have hmy : c.val % 2 < 2 := by omega
  have hN : k0_pay6 (F := Ideal) (x c) (ix2 i j)
      = if i.val = 0 then 0 else g (128 * (c.val / 2) + i.val - 1) (128 * (c.val % 2) + j.val) := by
    by_cases h : i.val = 0
    · rw [if_pos h, north_zero _ i j h]
    · rw [if_neg h, north_pos (x c) i j ⟨i.val - 1, by omega⟩ (by show i.val - 1 + 1 = i.val; omega), hx]
      show g (128 * (c.val / 2) + (i.val - 1)) _ = _
      rw [show 128 * (c.val / 2) + (i.val - 1) = 128 * (c.val / 2) + i.val - 1 from by omega]
  have hS : k0_pay7 (F := Ideal) (x c) (ix2 i j)
      = if i.val = 127 then 0 else g (128 * (c.val / 2) + i.val + 1) (128 * (c.val % 2) + j.val) := by
    by_cases h : i.val = 127
    · rw [if_pos h, south_zero _ i j h]
    · rw [if_neg h, south_pos (x c) i j ⟨i.val + 1, by omega⟩ rfl, hx]
      rfl
  have hW : westV (k0_pay5 (F := Ideal)) (k0_pay8 (F := Ideal) (x c)) (ix2 i j)
      = if j.val = 0 then 0 else g (128 * (c.val / 2) + i.val) (128 * (c.val % 2) + j.val - 1) := by
    by_cases h : j.val = 0
    · rw [if_pos h, west_zero _ i j h]
    · rw [if_neg h, west_pos (x c) i j ⟨j.val - 1, by omega⟩ (by show j.val - 1 + 1 = j.val; omega), hx]
      show g _ (128 * (c.val % 2) + (j.val - 1)) = _
      rw [show 128 * (c.val % 2) + (j.val - 1) = 128 * (c.val % 2) + j.val - 1 from by omega]
  have hE : eastV (x c) (k0_pay5 (F := Ideal)) (ix2 i j)
      = if j.val = 127 then 0 else g (128 * (c.val / 2) + i.val) (128 * (c.val % 2) + j.val + 1) := by
    by_cases h : j.val = 127
    · rw [if_pos h, east_zero _ i j h]
    · rw [if_neg h, east_pos (x c) i j ⟨j.val + 1, by omega⟩ rfl, hx]
      rfl
  have hR : rowH (F := Ideal) x c (ix2 (0 : Fin 1) j)
      = g (128 * (1 - c.val / 2) + 127 * (c.val / 2)) (128 * (c.val % 2) + j.val) := by
    have e : (rowp c).val = (c.val + 2) % 4 := rfl
    rw [rowH_at x c j ⟨127 - 127 * ((rowp c).val / 2), by omega⟩ rfl, hx]
    show g (128 * ((rowp c).val / 2) + (127 - 127 * ((rowp c).val / 2))) (128 * ((rowp c).val % 2) + j.val) = _
    rw [show 128 * ((rowp c).val / 2) + (127 - 127 * ((rowp c).val / 2)) = 128 * (1 - c.val / 2) + 127 * (c.val / 2) from by omega,
      show (rowp c).val % 2 = c.val % 2 from by omega]
  have hC : colH (F := Ideal) x c (ix2 i (0 : Fin 1))
      = g (128 * (c.val / 2) + i.val) (128 * (1 - c.val % 2) + 127 * (c.val % 2)) := by
    have e : (colp c).val = 2 * (c.val / 2) + 1 - c.val % 2 := rfl
    show k0_pay3 (F := Ideal) (colp c) (x (colp c)) (ix2 i (0 : Fin 1)) = _
    rw [pay3_at, hx, hx]
    by_cases h : (colp c).val % 2 = 0
    · rw [if_pos h]
      show g (128 * ((colp c).val / 2) + i.val) (128 * ((colp c).val % 2) + 127) = _
      rw [show (colp c).val / 2 = c.val / 2 from by omega,
        show 128 * ((colp c).val % 2) + 127 = 128 * (1 - c.val % 2) + 127 * (c.val % 2) from by omega]
    · rw [if_neg h]
      show g (128 * ((colp c).val / 2) + i.val) (128 * ((colp c).val % 2) + 0) = _
      rw [show (colp c).val / 2 = c.val / 2 from by omega,
        show 128 * ((colp c).val % 2) + 0 = 128 * (1 - c.val % 2) + 127 * (c.val % 2) from by omega]
  unfold outFinal outLocal
  rw [mxw_eq, myw_eq, pay1_at, pay11_at _ _ hmx hmy, pay14_at _ _ hmx hmy, pay15_at, pay10_at _ _ hmx hmy, select_bit,
    pay9_at, pay2_eq, hN, hS, hW, hE, hR, hC, hx]
  rfl

end Cert.KernelIdeal.HaloValue

end
-- ==== Proof.ScatterRead.lean ====
/-
  A scatter whose body returns the update, read at an index.

  The scatter is the left fold, over the update's indices in row-major order, of the step that overwrites the
  result's element at the update index's landing place (when it lands inside the operand). When at most one update
  index lands on a given element, the fold's value there is that update's element if one lands, and the operand's
  element if none does.

  For the 254×254 window written at start (1, 1) into a 256×256 operand every update index (p, q) lands at
  (1 + p, 1 + q): the interior takes the update, the boundary keeps the operand.
-/
import proofs.«900188_g7700000000000189_dist_halo2d_stencil_xy_m128_n128_v7x_xy2x2_bf16_1_alg».proof.Proof.Gen.ReferenceIdeal.Read
import Idealize.ShloMosaic.Lib.ValueIdx

noncomputable section

namespace Cert.KernelIdeal.HaloValue

open Idealize.ShloMosaic

section Fold
variable {α : Type} {s si u : Shape} {w : Nat} (d : ScatterDims s si u) (idx : IVec si w) (upd : u.Idx → α)

/-- One step of the fold: the update element number `n` (row-major) overwrites the element it lands on. -/
def sstep (r : s.Idx → α) (n : Fin u.numel) : s.Idx → α :=
  match d.resultIdx? (u.rowMajor.symm n) idx with
  | some k => fun i' => if i' = k then upd (u.rowMajor.symm n) else r i'
  | none => r

theorem scatter_eq_foldl (x : s.Idx → α) :
    Host.scatter d (fun _ b => b) x idx upd = (List.finRange u.numel).foldl (sstep d idx upd) x := by
  unfold Host.scatter
  refine congrArg (fun f => List.foldl f x (List.finRange u.numel)) ?_
  funext r n
  unfold sstep
  generalize d.resultIdx? (u.rowMajor.symm n) idx = o
  cases o <;> rfl

theorem sstep_miss (r : s.Idx → α) (n : Fin u.numel) (i : s.Idx)
    (h : d.resultIdx? (u.rowMajor.symm n) idx ≠ some i) : sstep d idx upd r n i = r i := by
  unfold sstep
  generalize d.resultIdx? (u.rowMajor.symm n) idx = o at h
  cases o with
  | none => rfl
  | some k =>
    show (if i = k then _ else r i) = r i
    rw [if_neg]
    rintro rfl
    exact h rfl

theorem sstep_hit (r : s.Idx → α) (n : Fin u.numel) (i : s.Idx)
    (h : d.resultIdx? (u.rowMajor.symm n) idx = some i) : sstep d idx upd r n i = upd (u.rowMajor.symm n) := by
  unfold sstep
  generalize d.resultIdx? (u.rowMajor.symm n) idx = o at h
  cases h
  exact if_pos rfl

theorem foldl_miss (i : s.Idx) : ∀ (l : List (Fin u.numel)) (r : s.Idx → α),
    (∀ n ∈ l, d.resultIdx? (u.rowMajor.symm n) idx ≠ some i) → l.foldl (sstep d idx upd) r i = r i
  | [], _, _ => rfl
  | n :: t, r, h => by
    rw [List.foldl_cons, foldl_miss i t _ (fun m hm => h m (List.mem_cons_of_mem _ hm)),
      sstep_miss d idx upd r n i (h n List.mem_cons_self)]

theorem foldl_hit (i : s.Idx) (n0 : Fin u.numel) (h0 : d.resultIdx? (u.rowMajor.symm n0) idx = some i)
    (huniq : ∀ n, d.resultIdx? (u.rowMajor.symm n) idx = some i → n = n0) :
    ∀ (l : List (Fin u.numel)) (r : s.Idx → α), l.Nodup → n0 ∈ l → l.foldl (sstep d idx upd) r i = upd (u.rowMajor.symm n0)
  | [], _, _, hm => absurd hm List.not_mem_nil
  | n :: t, r, hnd, hm => by
    rw [List.foldl_cons]
    have hn := (List.nodup_cons.1 hnd).1
    have ht := (List.nodup_cons.1 hnd).2
    rcases List.mem_cons.1 hm with rfl | hm'
    · rw [foldl_miss d idx upd i t _ (fun m hmt hr => hn (huniq m hr ▸ hmt)), sstep_hit d idx upd r n0 i h0]
    · exact foldl_hit i n0 h0 huniq t _ ht hm'

/-- No update index lands on `i`: the operand's element stays. -/
theorem scatter_set_miss (x : s.Idx → α) (i : s.Idx) (h : ∀ j, d.resultIdx? j idx ≠ some i) :
    Host.scatter d (fun _ b => b) x idx upd i = x i := by
  rw [scatter_eq_foldl]
  exact foldl_miss d idx upd i _ x (fun n _ => h _)

/-- Exactly the update index `j` lands on `i`: the update's element. -/
theorem scatter_set_hit (x : s.Idx → α) (i : s.Idx) (j : u.Idx) (hj : d.resultIdx? j idx = some i)
    (huniq : ∀ j', d.resultIdx? j' idx = some i → j' = j) :
    Host.scatter d (fun _ b => b) x idx upd i = upd j := by
  rw [scatter_eq_foldl]
  have e : u.rowMajor.symm (u.rowMajor j) = j := Equiv.symm_apply_apply _ _
  have := foldl_hit d idx upd i (u.rowMajor j) (by rw [e]; exact hj)
    (fun n hn => by rw [← huniq _ hn]; exact (Equiv.apply_symm_apply _ _).symm)
    (List.finRange u.numel) x (List.nodup_finRange _) (List.mem_finRange _)
  rw [this, e]

end Fold

section Window
open Idealize.ShloMosaic.ValueIdx
open Cert.ReferenceIdeal Cert.ReferenceIdeal.Gen

/-- The reference's scatter: a 254×254 window into a 256×256 operand, its start read off a two-word index vector. -/
abbrev sd := scatter_S256x256_S2_S254x254_01_n_01_0

theorem sd_window (j : S254x254.Idx) (a : Fin 2) : sd.window j a = (j a).val := by
  match a with
  | ⟨0, _⟩ => rfl
  | ⟨1, _⟩ => rfl

theorem sd_start (idx : IVec S2 32) (hidx : ∀ k, idx k = 1#32) (j : S254x254.Idx) (a : Fin 2) : sd.start j idx a = 1 := by
  unfold ScatterDims.start
  have hall : ∀ a : Fin 2, a ∈ ([0, 1] : List (Fin 2)) := by decide
  have ha : a ∈ sd.scatterDimsToOperandDims := show a ∈ ([0, 1] : List (Fin 2)) from hall a
  rw [dif_pos ha, hidx]
  rfl

/-- Every update index (p, q) lands at (1 + p, 1 + q). -/
theorem sd_resultIdx (idx : IVec S2 32) (hidx : ∀ k, idx k = 1#32) (p q : Fin 254) :
    sd.resultIdx? (ix2 p q) idx = some (ix2 (⟨1 + p.val, by omega⟩ : Fin 256) (⟨1 + q.val, by omega⟩ : Fin 256)) := by
  unfold ScatterDims.resultIdx?
  have h : ∀ a : Fin 2, 0 ≤ sd.start (ix2 p q) idx a + sd.window (ix2 p q) a ∧ sd.start (ix2 p q) idx a + sd.window (ix2 p q) a < S256x256.size a := by
    intro a
    rw [sd_start idx hidx, sd_window]
    match a with
    | ⟨0, _⟩ => exact ⟨by positivity, by show (1 : Int) + ((p.val : Nat) : Int) < (256 : Nat); have := p.isLt; omega⟩
    | ⟨1, _⟩ => exact ⟨by positivity, by show (1 : Int) + ((q.val : Nat) : Int) < (256 : Nat); have := q.isLt; omega⟩
  rw [dif_pos h]
  refine congrArg some (funext fun a => Fin.ext ?_)
  show (sd.start (ix2 p q) idx a + sd.window (ix2 p q) a).toNat = _
  rw [sd_start idx hidx, sd_window]
  match a with
  | ⟨0, _⟩ => show ((1 : Int) + ((p.val : Nat) : Int)).toNat = 1 + p.val; omega
  | ⟨1, _⟩ => show ((1 : Int) + ((q.val : Nat) : Int)).toNat = 1 + q.val; omega

end Window

end Cert.KernelIdeal.HaloValue

end
-- ==== Proof.RefAt.lean ====
/-
  The reference read at an index: on the boundary of the 256×256 array the argument's entry, in the interior
  the five-point stencil a·x + e·north + e·south + e·west + e·east, summed left to right.

  The reference writes the 254×254 stencil into the argument at start (1, 1): the start is a two-word index vector,
  both words one. An interior entry (1 + p, 1 + q) is the landing place of the update index (p, q) and of no other;
  no update index lands on a boundary entry.
-/
import proofs.«900188_g7700000000000189_dist_halo2d_stencil_xy_m128_n128_v7x_xy2x2_bf16_1_alg».proof.Proof.ScatterRead
import proofs.«900188_g7700000000000189_dist_halo2d_stencil_xy_m128_n128_v7x_xy2x2_bf16_1_alg».proof.Proof.StencilSpec

noncomputable section

namespace Cert.KernelIdeal.HaloValue

open Idealize.ShloMosaic Idealize.ShloMosaic.ValueIdx
open Cert.ReferenceIdeal Cert.ReferenceIdeal.Gen Cert.ReferenceIdeal.Read

/-- Both words of the scatter's start are one. -/
theorem idx_ones (k : S2.Idx) : val_main_v21 (F := Ideal) k = 1#32 := by
  obtain ⟨k0, rfl⟩ : ∃ k0 : Fin 2, k = ix1 k0 := ⟨k 0, eq_ix1 k⟩
  fin_cases k0 <;> rfl

/-- On the boundary the reference keeps the argument. -/
theorem ref_boundary (X : S256x256.Idx → EReal) (r q : Fin 256) (h : bnd r.val q.val) :
    val_main_v22 (F := Ideal) X (ix2 r q) = X (ix2 r q) := by
  unfold val_main_v22
  refine scatter_set_miss sd (val_main_v21 (F := Ideal)) (val_main_v18 (F := Ideal) X) X (ix2 r q) (fun j hj => ?_)
  obtain ⟨p, q', rfl⟩ : ∃ (p q' : Fin 254), j = ix2 p q' := ⟨j 0, j 1, eq_ix2 j⟩
  rw [sd_resultIdx _ idx_ones] at hj
  have e0 : 1 + p.val = r.val := congrArg Fin.val (congrFun (Option.some.inj hj) 0)
  have e1 : 1 + q'.val = q.val := congrArg Fin.val (congrFun (Option.some.inj hj) 1)
  have := p.isLt; have := q'.isLt
  unfold bnd at h; omega

/-- In the interior the reference is the stencil. -/
theorem ref_interior (X : S256x256.Idx → EReal) (p q : Fin 254) :
    val_main_v22 (F := Ideal) X (ix2 (⟨1 + p.val, by omega⟩ : Fin 256) (⟨1 + q.val, by omega⟩ : Fin 256))
      = Gn cHalf cEighth (Xn X) (1 + p.val) (1 + q.val) := by
  have hb : ¬ bnd (1 + p.val) (1 + q.val) := by unfold bnd; have := p.isLt; have := q.isLt; omega
  unfold Gn; rw [if_neg hb]
  have huniq : ∀ j', sd.resultIdx? j' (val_main_v21 (F := Ideal))
      = some (ix2 (⟨1 + p.val, by omega⟩ : Fin 256) (⟨1 + q.val, by omega⟩ : Fin 256)) → j' = ix2 p q := by
    intro j' hj
    obtain ⟨p', q', rfl⟩ : ∃ (p' q' : Fin 254), j' = ix2 p' q' := ⟨j' 0, j' 1, eq_ix2 j'⟩
    rw [sd_resultIdx _ idx_ones] at hj
    have e0 : 1 + p'.val = 1 + p.val := congrArg Fin.val (congrFun (Option.some.inj hj) 0)
    have e1 : 1 + q'.val = 1 + q.val := congrArg Fin.val (congrFun (Option.some.inj hj) 1)
    have h0 : p' = p := Fin.ext (by omega)
    have h1 : q' = q := Fin.ext (by omega)
    rw [h0, h1]
  unfold val_main_v22
  rw [scatter_set_hit sd (val_main_v21 (F := Ideal)) (val_main_v18 (F := Ideal) X) X _ (ix2 p q) (sd_resultIdx _ idx_ones p q) huniq]
  rw [val_main_v18_apply, val_main_v14_apply, val_main_v10_apply, val_main_v6_apply, val_main_v2_apply, val_main_v5_apply,
    val_main_v9_apply, val_main_v13_apply, val_main_v17_apply, val_main_v1_apply, val_main_v4_apply, val_main_v8_apply,
    val_main_v12_apply, val_main_v16_apply, val_main_cst_apply, val_main_cst_0_apply, val_main_cst_1_apply,
    val_main_cst_2_apply, val_main_cst_3_apply, val_main_v0_apply, val_main_v3_apply, val_main_v7_apply,
    val_main_v11_apply, val_main_v15_apply]
  simp only [Ideal.addf_def, Ideal.mulf_def, Ideal.ofBits_def]
  rw [X_eq_Xn X (idx_main_v0 (ix2 p q)) (1 + p.val) (1 + q.val) rfl rfl,
    X_eq_Xn X (idx_main_v3 (ix2 p q)) (1 + p.val - 1) (1 + q.val) (by show p.val = 1 + p.val - 1; omega) rfl,
    X_eq_Xn X (idx_main_v7 (ix2 p q)) (1 + p.val + 1) (1 + q.val) (by show 2 + p.val = 1 + p.val + 1; omega) rfl,
    X_eq_Xn X (idx_main_v11 (ix2 p q)) (1 + p.val) (1 + q.val - 1) rfl (by show q.val = 1 + q.val - 1; omega),
    X_eq_Xn X (idx_main_v15 (ix2 p q)) (1 + p.val) (1 + q.val + 1) rfl (by show 2 + q.val = 1 + q.val + 1; omega)]

/-- The reference at an index is the whole-array stencil with its boundary kept. -/
theorem ref_at (X : S256x256.Idx → EReal) (r q : Fin 256) :
    val_main_v22 (F := Ideal) X (ix2 r q) = Gn cHalf cEighth (Xn X) r.val q.val := by
  by_cases h : bnd r.val q.val
  · rw [ref_boundary X r q h]; unfold Gn; rw [if_pos h]; exact X_eq_Xn X _ _ _ rfl rfl
  · have hr : 1 ≤ r.val ∧ r.val ≤ 254 ∧ 1 ≤ q.val ∧ q.val ≤ 254 := by
      unfold bnd at h; have := r.isLt; have := q.isLt; omega
    obtain ⟨p, hp⟩ : ∃ p : Fin 254, r = (⟨1 + p.val, by omega⟩ : Fin 256) :=
      ⟨⟨r.val - 1, by omega⟩, Fin.ext (by show r.val = 1 + (r.val - 1); omega)⟩
    obtain ⟨q', hq⟩ : ∃ q' : Fin 254, q = (⟨1 + q'.val, by omega⟩ : Fin 256) :=
      ⟨⟨q.val - 1, by omega⟩, Fin.ext (by show q.val = 1 + (q.val - 1); omega)⟩
    rw [hp, hq]
    exact ref_interior X p q'

end Cert.KernelIdeal.HaloValue

end
-- ==== Proof.ValueBridge.lean ====
/-
  The join: each device's result is its block of the reference's result, when every entry of `x` is a real number.

  Device c holds the block at block coordinates (c / 2, c % 2): its entry (i, j) is the array's entry
  (128·(c / 2) + i, 128·(c % 2) + j). Read at that entry, the device's closed form and the whole-array stencil are the
  two sides of the specification's law, which holds on real entries.

  Every entry is real when the finiteness predicate holds of every device's block: the predicate is the conjunction
  over the block of |x| < +∞, which on the extended reals leaves only the reals, and every index of the array lies in
  the block of the device at mesh position (row / 128, column / 128).
-/
import proofs.«900188_g7700000000000189_dist_halo2d_stencil_xy_m128_n128_v7x_xy2x2_bf16_1_alg».proof.Proof.KernelAt
import proofs.«900188_g7700000000000189_dist_halo2d_stencil_xy_m128_n128_v7x_xy2x2_bf16_1_alg».proof.Proof.RefAt
import proofs.«900188_g7700000000000189_dist_halo2d_stencil_xy_m128_n128_v7x_xy2x2_bf16_1_alg».proof.Defs
import proofs.«900188_g7700000000000189_dist_halo2d_stencil_xy_m128_n128_v7x_xy2x2_bf16_1_alg».proof.Proof.Gen.Pre_finite_inputs_Kernel
import Idealize.ShloMosaic.Lib.ReduceAll

noncomputable section

namespace Cert.KernelIdeal.HaloValue

open Idealize.ShloMosaic Idealize.ShloMosaic.ValueIdx Idealize.SL.Sem
open Cert.KernelIdeal Cert.KernelIdeal.Gen Cert.KernelIdeal.Halo

/-- A device's block coordinates: its mesh row and mesh column. -/
theorem meshLin_row : ∀ c : Dev nD, Layout.meshLin [2, 2] c.val [0] = c.val / 2 := by decide
theorem meshLin_col : ∀ c : Dev nD, Layout.meshLin [2, 2] c.val [1] = c.val % 2 := by decide

/-- Device `c`'s block of a 256×256 array. -/
abbrev blk {α : Type} (c : Dev nD) (X : (⟨2, ![256, 256]⟩ : Shape).Idx → α) : (⟨2, ![128, 128]⟩ : Shape).Idx → α :=
  Layout.blockN ⟨2, ![128, 128]⟩ ⟨2, ![256, 256]⟩ (Layout.meshBlock [2, 2] ![[0], [1]] c) X

/-- An entry of a device's block is the array's entry at the global coordinates. -/
theorem blk_at {α : Type} (c : Dev nD) (X : (⟨2, ![256, 256]⟩ : Shape).Idx → α) (i j : Fin 128) :
    blk c X (ix2 i j) = X (ix2 (⟨128 * (c.val / 2) + i.val, by have : c.val < 4 := c.isLt; omega⟩ : Fin 256)
      (⟨128 * (c.val % 2) + j.val, by omega⟩ : Fin 256)) := by
  unfold blk
  rw [Layout.blockN_apply]
  refine congrArg X (funext fun a => Fin.ext ?_)
  rw [Layout.TilesN.idx_val, Layout.meshBlock_val]
  match a with
  | ⟨0, _⟩ =>
    show Layout.meshLin [2, 2] c.val [0] * 128 + i.val = 128 * (c.val / 2) + i.val
    rw [meshLin_row]; omega
  | ⟨1, _⟩ =>
    show Layout.meshLin [2, 2] c.val [1] * 128 + j.val = 128 * (c.val % 2) + j.val
    rw [meshLin_col]; omega

/-- The value leg: on real entries, device `c`'s result is its block of the reference's result. -/
theorem result_block (X : (⟨Cert.ReferenceIdeal.S256x256, .f32⟩ : BufTy).Contents (Elt Ideal))
    (hX : ∀ i, ∃ r : ℝ, X i = ((r : ℝ) : EReal)) (c : Dev Cert.KernelIdeal.nD) :
    Cert.KernelIdeal.Halo.outFinal (F := Ideal)
        (fun d => Layout.blockN ⟨2, ![128, 128]⟩ ⟨2, ![256, 256]⟩ (Layout.meshBlock [2, 2] ![[0], [1]] d) X) c
      = Layout.blockN ⟨2, ![128, 128]⟩ ⟨2, ![256, 256]⟩ (Layout.meshBlock [2, 2] ![[0], [1]] c)
          (Cert.ReferenceIdeal.Read.val_main_v22 (F := Ideal) X) := by
  funext k
  obtain ⟨i, j, rfl⟩ : ∃ (i j : Fin 128), k = ix2 i j := ⟨k 0, k 1, eq_ix2 k⟩
  have h4 : c.val < 4 := c.isLt
  obtain ⟨R, hR⟩ := Xn_real X hX
  have hx : ∀ (d : Dev nD) (i j : Fin 128), blk d X (ix2 i j) = Xn X (128 * (d.val / 2) + i.val) (128 * (d.val % 2) + j.val) := by
    intro d i j
    rw [blk_at]
    exact X_eq_Xn X _ _ _ rfl rfl
  refine (outFinal_at (Xn X) (fun d => blk d X) hx c i j).trans ?_
  show _ = blk c (Cert.ReferenceIdeal.Read.val_main_v22 (F := Ideal) X) (ix2 i j)
  rw [blk_at, ref_at]
  have e : Xn X = fun r q => ((R r q : ℝ) : EReal) := funext fun r => funext fun q => hR r q
  rw [e, cHalf_real, cEighth_real]
  exact Kn_eq_Gn _ _ R _ _ _ _ (by omega) (by omega) i.isLt j.isLt

/-- A block whose finiteness predicate is all ones holds real numbers. -/
theorem block_real (B : (⟨2, ![128, 128]⟩ : Shape).Idx → EReal)
    (h : Cert.Pre_finite_inputs_Kernel.fn (F := Ideal) B = fun _ => 1#1) (k : (⟨2, ![128, 128]⟩ : Shape).Idx) :
    ∃ r : ℝ, B k = ((r : ℝ) : EReal) := by
  have h1 := congrFun h ix0
  dsimp only [Cert.Pre_finite_inputs_Kernel.fn] at h1
  haveI : Subsingleton Cert.Pre_finite_inputs_Kernel.S_.Idx := ⟨fun a b => funext fun d => d.elim0⟩
  have h2 := Host.reduce_andi_all _ _ _ _ ix0 h1 k
  have h3 : Ideal.cmp .olt (max (B k) (-(B k))) (Ideal.ofBits .f32 0x7F800000#32) = 1#1 := h2
  have htop : Ideal.ofBits .f32 0x7F800000#32 = ⊤ := by simp [Ideal.ofBits, Ideal.ieee]
  rw [htop] at h3
  have h4 : max (B k) (-(B k)) < ⊤ := by
    have h3' : BitVec.ofBool (decide (max (B k) (-(B k)) < (⊤ : EReal))) = 1#1 := h3
    cases hd : decide (max (B k) (-(B k)) < (⊤ : EReal)) with
    | true => exact of_decide_eq_true hd
    | false => rw [hd] at h3'; exact absurd h3' (by decide)
  generalize B k = y at h4 ⊢
  induction y using EReal.rec with
  | bot => simp at h4
  | coe r => exact ⟨r, rfl⟩
  | top => simp at h4

/-- Every entry of the array is real when the finiteness predicate holds of every device's block. -/
theorem entries_real (m : (ℓ : Loc Cert.KernelIdeal.nD Cert.KernelIdeal.τ Cert.KernelIdeal.sig) → Buf (Elt Ideal) ℓ)
    (hPre : Cert.Pre_KernelIdeal m)
    (X : (⟨Cert.ReferenceIdeal.S256x256, .f32⟩ : BufTy).Contents (Elt Ideal))
    (hblk : ∀ c : Dev Cert.KernelIdeal.nD,
      m ((c.tc : Thread Cert.KernelIdeal.nD Cert.KernelIdeal.τ).loc Cert.KernelIdeal.main_arg0)
        = Layout.blockN ⟨2, ![128, 128]⟩ ⟨2, ![256, 256]⟩ (Layout.meshBlock [2, 2] ![[0], [1]] c) X) :
    ∀ i, ∃ r : ℝ, X i = ((r : ℝ) : EReal) := by
  intro t
  obtain ⟨r, q, rfl⟩ : ∃ (r q : Fin 256), t = ix2 r q := ⟨t 0, t 1, eq_ix2 t⟩
  have hr := r.isLt
  have hq := q.isLt
  let c : Dev nD := ⟨2 * (r.val / 128) + q.val / 128, by show _ < 4; omega⟩
  have hc : c.val = 2 * (r.val / 128) + q.val / 128 := rfl
  have hP := hPre c
  rw [hblk c] at hP
  obtain ⟨v, hv⟩ := block_real (blk c X) hP (ix2 (⟨r.val % 128, by omega⟩ : Fin 128) (⟨q.val % 128, by omega⟩ : Fin 128))
  rw [blk_at] at hv
  refine ⟨v, ?_⟩
  rw [← hv]
  refine congrArg X (funext fun a => Fin.ext ?_)
  match a with
  | ⟨0, _⟩ => show r.val = 128 * (c.val / 2) + r.val % 128; omega
  | ⟨1, _⟩ => show q.val = 128 * (c.val % 2) + q.val % 128; omega

end Cert.KernelIdeal.HaloValue

end

/-- info: 'Cert.KernelIdeal.HaloValue.result_block' depends on axioms: [propext, Classical.choice, Quot.sound] -/
#guard_msgs in #print axioms Cert.KernelIdeal.HaloValue.result_block
/-- info: 'Cert.KernelIdeal.HaloValue.entries_real' depends on axioms: [propext, Classical.choice, Quot.sound] -/
#guard_msgs in #print axioms Cert.KernelIdeal.HaloValue.entries_real
-- ==== Proof.Claims.lean ====
/-
  The five claims.

  Each kernel frame is the mesh's run read at the argument array, which no window writes. The reference's frame is its run
  with the value dropped. The idealization rewrote nothing. For the value claim the reference's result is the stencil of the
  whole array `X`; each device's result array ends at the kernel's function of the four blocks of `X`, which for an array
  of real entries is that device's block of the stencil of `X`; the entries are real because every block is.
-/
import proofs.«900188_g7700000000000189_dist_halo2d_stencil_xy_m128_n128_v7x_xy2x2_bf16_1_alg».proof.Defs
import proofs.«900188_g7700000000000189_dist_halo2d_stencil_xy_m128_n128_v7x_xy2x2_bf16_1_alg».proof.Proof.Launch
import proofs.«900188_g7700000000000189_dist_halo2d_stencil_xy_m128_n128_v7x_xy2x2_bf16_1_alg».proof.Proof.Bits.Launch
import proofs.«900188_g7700000000000189_dist_halo2d_stencil_xy_m128_n128_v7x_xy2x2_bf16_1_alg».proof.Proof.ValueBridge
import proofs.«900188_g7700000000000189_dist_halo2d_stencil_xy_m128_n128_v7x_xy2x2_bf16_1_alg».proof.Proof.Gen.ReferenceIdeal.Read
import proofs.«900188_g7700000000000189_dist_halo2d_stencil_xy_m128_n128_v7x_xy2x2_bf16_1_alg».proof.Proof.Gen.Pre_finite_inputs_Kernel
import proofs.«900188_g7700000000000189_dist_halo2d_stencil_xy_m128_n128_v7x_xy2x2_bf16_1_alg».proof.Proof.Gen.Pre_finite_inputs_ReferenceIdeal

noncomputable section

namespace Cert.Proof.HaloClaims

open Idealize.ShloMosaic Idealize.ShloMosaic.TcCoe Idealize.SL.Sem

theorem frame_p : Cert.frame_Kernel := by
  intro m ρ _
  exact (θ_run Cert.Kernel.defs _ _).mono (fun _ h c => (h c (0 : Fin 2)).trans (Cert.Kernel.Launch.finalA_x m ρ c))
    (Cert.Kernel.Launch.run_main (F := Bits) m ρ)

theorem frame_pi : Cert.frame_KernelIdeal := by
  intro m ρ _
  exact (θ_run Cert.KernelIdeal.defs _ _).mono (fun _ h c => (h c (0 : Fin 2)).trans (Cert.KernelIdeal.Launch.finalA_x m ρ c))
    (Cert.KernelIdeal.Launch.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hX := Cert.KernelIdeal.HaloValue.entries_real m hpre _ hagree
  refine ⟨Cert.ReferenceIdeal.Read.val_main_v22 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h c (0 : Fin 2)).trans (Cert.KernelIdeal.Launch.finalA_x m ρ c)⟩)
      (Cert.KernelIdeal.Launch.run_main (F := Ideal) m ρ)
    refine ((h c (1 : Fin 2)).trans (Cert.KernelIdeal.Launch.finalA_out m ρ c)).trans ?_
    unfold Cert.KernelIdeal.Proto.outAt
    rw [show Cert.KernelIdeal.Proto.xs m ρ = fun d => Layout.blockN ⟨2, ![128, 128]⟩ ⟨2, ![256, 256]⟩ (Layout.meshBlock [2, 2] ![[0], [1]] d)
        (m' (((0 : Dev Cert.ReferenceIdeal.nD).tc : Thread Cert.ReferenceIdeal.nD Cert.ReferenceIdeal.τ).loc Cert.ReferenceIdeal.main_arg0))
      from funext fun d => (Cert.KernelIdeal.Launch.xstg_eq m ρ d).trans (hagree d)]
    exact Cert.KernelIdeal.HaloValue.result_block _ hX c
  · exact (θ_run Cert.ReferenceIdeal.defs _ _).mono (fun _ h => ⟨(h 0).1, (h 0).2⟩) (Cert.ReferenceIdeal.Value.run (F := Ideal) m' ρ')

end Cert.Proof.HaloClaims

end
-- ==== Proof.lean ====
/-
  A five-point stencil with halo exchange on a 2×2 mesh of devices, against the stencil of the whole array.

  The 256×256 array `x` is cut into four 128×128 blocks, device `c` at mesh position (c / 2, c % 2) holding block `c`. The
  reference replaces every interior entry of `x` by x/2 + (N + S + W + E)/8 and keeps the boundary. Each device computes the
  same stencil on its block with zeros beyond the block's edge, keeps the entries on the boundary of the whole array, and adds
  one eighth of the row neighbour's edge row on its own edge row and one eighth of the column neighbour's edge column on its
  edge column, off the boundary of the whole array: the two neighbours' edges are exactly the entries the zero padding left
  out. Over the extended reals the two agree once every entry is a real number — distributing the eighth over the four
  neighbours, adding a zero, and multiplying a halo entry by a zero mask all need finiteness — which is the precondition.

  The devices meet only through the kernel's own protocol: each signals both neighbours' barrier semaphores and waits for
  two units before it transfers its edge row and edge column into the neighbours' halo buffers, waits for both arrivals
  before it reads its own halo buffers, and waits for both departures before it leaves. Under the rounds discipline every
  wait sits below what the waiting device still owes (barrier below the receive cells), so every fair execution terminates;
  the halo buffers change hands with the barrier signals, so no transfer lands before its destination's owner is inside the
  kernel, and nothing is read while a transfer into it is pending.

  Proof/Halo.lean states each device's result as a pure function of the four blocks; Proof/Proto.lean the protocol;
  Proof/Body.lean one device's body; Proof/Launch.lean the run of the mesh; Proof/Bits/ the same four for the word-level
  program; Proof/ValueBridge.lean (over StencilSpec, ScatterRead, RefAt, Masks, Shifts, KernelAt) that the kernel's function
  of the blocks is the block of the reference's; Proof/Claims.lean the five claims.
-/
import proofs.«900188_g7700000000000189_dist_halo2d_stencil_xy_m128_n128_v7x_xy2x2_bf16_1_alg».proof.Defs
import proofs.«900188_g7700000000000189_dist_halo2d_stencil_xy_m128_n128_v7x_xy2x2_bf16_1_alg».proof.Proof.Gen.Kernel
import proofs.«900188_g7700000000000189_dist_halo2d_stencil_xy_m128_n128_v7x_xy2x2_bf16_1_alg».proof.Proof.Gen.KernelIdeal
import proofs.«900188_g7700000000000189_dist_halo2d_stencil_xy_m128_n128_v7x_xy2x2_bf16_1_alg».proof.Proof.Gen.ReferenceIdeal
import proofs.«900188_g7700000000000189_dist_halo2d_stencil_xy_m128_n128_v7x_xy2x2_bf16_1_alg».proof.Proof.Gen.Pre_finite_inputs_Kernel
import proofs.«900188_g7700000000000189_dist_halo2d_stencil_xy_m128_n128_v7x_xy2x2_bf16_1_alg».proof.Proof.Gen.Pre_finite_inputs_ReferenceIdeal
import proofs.«900188_g7700000000000189_dist_halo2d_stencil_xy_m128_n128_v7x_xy2x2_bf16_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.HaloClaims.frame_p, Cert.Proof.HaloClaims.frame_pi, Cert.Proof.HaloClaims.frame_ri, Cert.Proof.HaloClaims.preserves, Cert.Proof.HaloClaims.algebraic⟩

end Cert.Proof

end
